-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v85)) (v1 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x64 : Shape := ⟨2, ![2048, 64]⟩
abbrev S2x4194304 : Shape := ⟨2, ![2, 4194304]⟩
abbrev S64x128 : Shape := ⟨2, ![64, 128]⟩
abbrev S128 : Shape := ⟨1, ![128]⟩
abbrev S1x9 : Shape := ⟨2, ![1, 9]⟩
abbrev S9 : Shape := ⟨1, ![9]⟩
abbrev S9x3 : Shape := ⟨2, ![9, 3]⟩
abbrev S3 : Shape := ⟨1, ![3]⟩
abbrev S3x3 : Shape := ⟨2, ![3, 3]⟩
abbrev S3x512 : Shape := ⟨2, ![3, 512]⟩
abbrev S512 : Shape := ⟨1, ![512]⟩
abbrev S512x128 : Shape := ⟨2, ![512, 128]⟩
abbrev S128x3 : Shape := ⟨2, ![128, 3]⟩
abbrev S_ : Shape := ⟨0, ![]⟩

class Facts : Prop where
  bcast_S_S2048x64 : S_.BroadcastsInDim S2048x64 (![] : Fin 0 → Fin S2048x64.rank)
  reducesTo_S2048x64_S_d0_1 : S2048x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S1x9 : S_.BroadcastsInDim S1x9 (![] : Fin 0 → Fin S1x9.rank)
  reducesTo_S1x9_S_d0_1 : S1x9.ReducesTo [0, 1] S_
  bcast_S_S9 : S_.BroadcastsInDim S9 (![] : Fin 0 → Fin S9.rank)
  reducesTo_S9_S_d0 : S9.ReducesTo [0] S_
  bcast_S_S9x3 : S_.BroadcastsInDim S9x3 (![] : Fin 0 → Fin S9x3.rank)
  reducesTo_S9x3_S_d0_1 : S9x3.ReducesTo [0, 1] S_
  bcast_S_S3 : S_.BroadcastsInDim S3 (![] : Fin 0 → Fin S3.rank)
  reducesTo_S3_S_d0 : S3.ReducesTo [0] S_
  bcast_S_S3x3 : S_.BroadcastsInDim S3x3 (![] : Fin 0 → Fin S3x3.rank)
  reducesTo_S3x3_S_d0_1 : S3x3.ReducesTo [0, 1] S_
  bcast_S_S3x512 : S_.BroadcastsInDim S3x512 (![] : Fin 0 → Fin S3x512.rank)
  reducesTo_S3x512_S_d0_1 : S3x512.ReducesTo [0, 1] S_
  bcast_S_S512 : S_.BroadcastsInDim S512 (![] : Fin 0 → Fin S512.rank)
  reducesTo_S512_S_d0 : S512.ReducesTo [0] S_
  bcast_S_S512x128 : S_.BroadcastsInDim S512x128 (![] : Fin 0 → Fin S512x128.rank)
  reducesTo_S512x128_S_d0_1 : S512x128.ReducesTo [0, 1] S_
  bcast_S_S128x3 : S_.BroadcastsInDim S128x3 (![] : Fin 0 → Fin S128x3.rank)
  reducesTo_S128x3_S_d0_1 : S128x3.ReducesTo [0, 1] S_

variable [Facts]

def fn_part4 {F : FTy → Type} [FloatOps F] (main_arg15 : FVec F S3 .f32) (main_v63 : IVec S_ 1) (main_v67 : IVec S_ 1) : IVec S_ 1 :=
  let main_v68 : IVec S_ 1 := andi main_v63 main_v67
  let main_v69 : FVec F S3 .f32 := Host.absf main_arg15
  let main_cst_26 : FVec F S_ .f32 := constant S_ .f32 0x7F800000#32
  let main_v70 : FVec F S3 .f32 := broadcastInDim S3 ![] bcast_S_S3 main_cst_26
  let main_v71 : IVec S3 1 := cmpf .olt main_v69 main_v70
  let main_c_27 : IVec S_ 1 := constantI S_ 1 1#1
  let main_v72 : IVec S_ 1 := (fun x v => Host.reduce IntOp.andi x v reducesTo_S3_S_d0 h_S_) main_v71 main_c_27
  let main_v73 : IVec S_ 1 := andi main_v68 main_v72
  main_v73

def fn_part3 {F : FTy → Type} [FloatOps F] (main_arg12 : FVec F S512x128 .f32) (main_arg13 : FVec F S128 .f32) (main_arg14 : FVec F S128x3 .f32) (main_arg15 : FVec F S3 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512x128 .f32 := Host.absf main_arg12
  let main_cst_20 : FVec F S_ .f32 := constant S_ .f32 0x7F800000#32
  let main_v55 : FVec F S512x128 .f32 := broadcastInDim S512x128 ![] bcast_S_S512x128 main_cst_20
  let main_v56 : IVec S512x128 1 := cmpf .olt main_v54 main_v55
  let main_c_21 : IVec S_ 1 := constantI S_ 1 1#1
  let main_v57 : IVec S_ 1 := (fun x v => Host.reduce IntOp.andi x v reducesTo_S512x128_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x3 .f32 := Host.absf main_arg14
  let main_cst_24 : FVec F S_ .f32 := constant S_ .f32 0x7F800000#32
  let main_v65 : FVec F S128x3 .f32 := broadcastInDim S128x3 ![] bcast_S_S128x3 main_cst_24
  let main_v66 : IVec S128x3 1 := cmpf .olt main_v64 main_v65
  let main_c_25 : IVec S_ 1 := constantI S_ 1 1#1
  let main_v67 : IVec S_ 1 := (fun x v => Host.reduce IntOp.andi x v reducesTo_S128x3_S_d0_1 h_S_) main_v66 main_c_25
  fn_part4 (F := F) main_arg15 main_v63 main_v67

def fn_part2 {F : FTy → Type} [FloatOps F] (main_arg8 : FVec F S3x3 .f32) (main_arg9 : FVec F S3 .f32) (main_arg10 : FVec F S3x512 .f32) (main_arg11 : FVec F S512 .f32) (main_arg12 : FVec F S512x128 .f32) (main_arg13 : FVec F S128 .f32) (main_arg14 : FVec F S128x3 .f32) (main_arg15 : FVec F S3 .f32) (main_v33 : IVec S_ 1) : IVec S_ 1 :=
  let main_v34 : FVec F S3x3 .f32 := Host.absf main_arg8
  let main_cst_12 : FVec F S_ .f32 := constant S_ .f32 0x7F800000#32
  let main_v35 : FVec F S3x3 .f32 := broadcastInDim S3x3 ![] bcast_S_S3x3 main_cst_12
  let main_v36 : IVec S3x3 1 := cmpf .olt main_v34 main_v35
  let main_c_13 : IVec S_ 1 := constantI S_ 1 1#1
  let main_v37 : IVec S_ 1 := (fun x v => Host.reduce IntOp.andi x v reducesTo_S3x3_S_d0_1 h_S_) main_v36 main_c_13
  let main_v38 : IVec S_ 1 := andi main_v33 main_v37
  let main_v39 : FVec F S3 .f32 := Host.absf main_arg9
  let main_cst_14 : FVec F S_ .f32 := constant S_ .f32 0x7F800000#32
  let main_v40 : FVec F S3 .f32 := broadcastInDim S3 ![] bcast_S_S3 main_cst_14
  let main_v41 : IVec S3 1 := cmpf .olt main_v39 main_v40
  let main_c_15 : IVec S_ 1 := constantI S_ 1 1#1
  let main_v42 : IVec S_ 1 := (fun x v => Host.reduce IntOp.andi x v reducesTo_S3_S_d0 h_S_) main_v41 main_c_15
  let main_v43 : IVec S_ 1 := andi main_v38 main_v42
  let main_v44 : FVec F S3x512 .f32 := Host.absf main_arg10
  let main_cst_16 : FVec F S_ .f32 := constant S_ .f32 0x7F800000#32
  let main_v45 : FVec F S3x512 .f32 := broadcastInDim S3x512 ![] bcast_S_S3x512 main_cst_16
  let main_v46 : IVec S3x512 1 := cmpf .olt main_v44 main_v45
  let main_c_17 : IVec S_ 1 := constantI S_ 1 1#1
  let main_v47 : IVec S_ 1 := (fun x v => Host.reduce IntOp.andi x v reducesTo_S3x512_S_d0_1 h_S_) main_v46 main_c_17
  let main_v48 : IVec S_ 1 := andi main_v43 main_v47
  let main_v49 : FVec F S512 .f32 := Host.absf main_arg11
  let main_cst_18 : FVec F S_ .f32 := constant S_ .f32 0x7F800000#32
  let main_v50 : FVec F S512 .f32 := broadcastInDim S512 ![] bcast_S_S512 main_cst_18
  fn_part3 (F := F) main_arg12 main_arg13 main_arg14 main_arg15 main_v48 main_v49 main_v50

def fn_part1 {F : FTy → Type} [FloatOps F] (main_arg5 : FVec F S9 .f32) (main_arg6 : FVec F S9x3 .f32) (main_arg7 : FVec F S3 .f32) (main_arg8 : FVec F S3x3 .f32) (main_arg9 : FVec F S3 .f32) (main_arg10 : FVec F S3x512 .f32) (main_arg11 : FVec F S512 .f32) (main_arg12 : FVec F S512x128 .f32) (main_arg13 : FVec F S128 .f32) (main_arg14 : FVec F S128x3 .f32) (main_arg15 : FVec F S3 .f32) (main_v13 : IVec S_ 1) (main_v16 : IVec S1x9 1) : IVec S_ 1 :=
  let main_c_5 : IVec S_ 1 := constantI S_ 1 1#1
  let main_v17 : IVec S_ 1 := (fun x v => Host.reduce IntOp.andi x v reducesTo_S1x9_S_d0_1 h_S_) main_v16 main_c_5
  let main_v18 : IVec S_ 1 := andi main_v13 main_v17
  let main_v19 : FVec F S9 .f32 := Host.absf main_arg5
  let main_cst_6 : FVec F S_ .f32 := constant S_ .f32 0x7F800000#32
  let main_v20 : FVec F S9 .f32 := broadcastInDim S9 ![] bcast_S_S9 main_cst_6
  let main_v21 : IVec S9 1 := cmpf .olt main_v19 main_v20
  let main_c_7 : IVec S_ 1 := constantI S_ 1 1#1
  let main_v22 : IVec S_ 1 := (fun x v => Host.reduce IntOp.andi x v reducesTo_S9_S_d0 h_S_) main_v21 main_c_7
  let main_v23 : IVec S_ 1 := andi main_v18 main_v22
  let main_v24 : FVec F S9x3 .f32 := Host.absf main_arg6
  let main_cst_8 : FVec F S_ .f32 := constant S_ .f32 0x7F800000#32
  let main_v25 : FVec F S9x3 .f32 := broadcastInDim S9x3 ![] bcast_S_S9x3 main_cst_8
  let main_v26 : IVec S9x3 1 := cmpf .olt main_v24 main_v25
  let main_c_9 : IVec S_ 1 := constantI S_ 1 1#1
  let main_v27 : IVec S_ 1 := (fun x v => Host.reduce IntOp.andi x v reducesTo_S9x3_S_d0_1 h_S_) main_v26 main_c_9
  let main_v28 : IVec S_ 1 := andi main_v23 main_v27
  let main_v29 : FVec F S3 .f32 := Host.absf main_arg7
  let main_cst_10 : FVec F S_ .f32 := constant S_ .f32 0x7F800000#32
  let main_v30 : FVec F S3 .f32 := broadcastInDim S3 ![] bcast_S_S3 main_cst_10
  let main_v31 : IVec S3 1 := cmpf .olt main_v29 main_v30
  let main_c_11 : IVec S_ 1 := constantI S_ 1 1#1
  let main_v32 : IVec S_ 1 := (fun x v => Host.reduce IntOp.andi x v reducesTo_S3_S_d0 h_S_) main_v31 main_c_11
  let main_v33 : IVec S_ 1 := andi main_v28 main_v32
  fn_part2 (F := F) main_arg8 main_arg9 main_arg10 main_arg11 main_arg12 main_arg13 main_arg14 main_arg15 main_v33

def fn {F : FTy → Type} [FloatOps F] (main_arg0 : FVec F S2048x64 .f32) (main_arg1 : IVec S2x4194304 32) (main_arg2 : FVec F S64x128 .f32) (main_arg3 : FVec F S128 .f32) (main_arg4 : FVec F S1x9 .f32) (main_arg5 : FVec F S9 .f32) (main_arg6 : FVec F S9x3 .f32) (main_arg7 : FVec F S3 .f32) (main_arg8 : FVec F S3x3 .f32) (main_arg9 : FVec F S3 .f32) (main_arg10 : FVec F S3x512 .f32) (main_arg11 : FVec F S512 .f32) (main_arg12 : FVec F S512x128 .f32) (main_arg13 : FVec F S128 .f32) (main_arg14 : FVec F S128x3 .f32) (main_arg15 : FVec F S3 .f32) : IVec S_ 1 :=
  let main_v0 : FVec F S2048x64 .f32 := Host.absf main_arg0
  let main_cst : FVec F S_ .f32 := constant S_ .f32 0x7F800000#32
  let main_v1 : FVec F S2048x64 .f32 := broadcastInDim S2048x64 ![] bcast_S_S2048x64 main_cst
  let main_v2 : IVec S2048x64 1 := cmpf .olt main_v0 main_v1
  let main_c : IVec S_ 1 := constantI S_ 1 1#1
  let main_v3 : IVec S_ 1 := (fun x v => Host.reduce IntOp.andi x v reducesTo_S2048x64_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S1x9 .f32 := Host.absf main_arg4
  let main_cst_4 : FVec F S_ .f32 := constant S_ .f32 0x7F800000#32
  let main_v15 : FVec F S1x9 .f32 := broadcastInDim S1x9 ![] bcast_S_S1x9 main_cst_4
  let main_v16 : IVec S1x9 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S2048x64 : Shape := ⟨2, ![2048, 64]⟩
abbrev S2x4194304 : Shape := ⟨2, ![2, 4194304]⟩
abbrev S64x128 : Shape := ⟨2, ![64, 128]⟩
abbrev S128 : Shape := ⟨1, ![128]⟩
abbrev S1x9 : Shape := ⟨2, ![1, 9]⟩
abbrev S9 : Shape := ⟨1, ![9]⟩
abbrev S9x3 : Shape := ⟨2, ![9, 3]⟩
abbrev S3 : Shape := ⟨1, ![3]⟩
abbrev S3x3 : Shape := ⟨2, ![3, 3]⟩
abbrev S3x512 : Shape := ⟨2, ![3, 512]⟩
abbrev S512 : Shape := ⟨1, ![512]⟩
abbrev S512x128 : Shape := ⟨2, ![512, 128]⟩
abbrev S128x3 : Shape := ⟨2, ![128, 3]⟩
abbrev S1x128 : Shape := ⟨2, ![1, 128]⟩
abbrev S2048x128 : Shape := ⟨2, ![2048, 128]⟩
abbrev S512x64 : Shape := ⟨2, ![512, 64]⟩
abbrev S262144x1 : Shape := ⟨2, ![262144, 1]⟩
abbrev S262144 : Shape := ⟨1, ![262144]⟩
abbrev S1x4194304 : Shape := ⟨2, ![1, 4194304]⟩
abbrev S4194304 : Shape := ⟨1, ![4194304]⟩
abbrev S4456448 : Shape := ⟨1, ![4456448]⟩
abbrev S_ : Shape := ⟨0, ![]⟩
abbrev S4456448x1 : Shape := ⟨2, ![4456448, 1]⟩
abbrev S262144x9 : Shape := ⟨2, ![262144, 9]⟩
abbrev S4456448x9 : Shape := ⟨2, ![4456448, 9]⟩
abbrev S262144x3 : Shape := ⟨2, ![262144, 3]⟩
abbrev S4456448x3 : Shape := ⟨2, ![4456448, 3]⟩
abbrev S1x3 : Shape := ⟨2, ![1, 3]⟩
abbrev S1x512 : Shape := ⟨2, ![1, 512]⟩
abbrev S2048x3 : Shape := ⟨2, ![2048, 3]⟩
abbrev S2048x512 : Shape := ⟨2, ![2048, 512]⟩

abbrev nBuf : Space → Nat
  | .hbm => 121
  | .vmem => 16
  | .smem => 0
  | _ => 0

abbrev bufTy : (tb : Table) → Fin (tcTables nBuf tb) → BufTy
  | .hbm, ⟨0, _⟩ => ⟨S2048x64, .f32⟩
  | .hbm, ⟨1, _⟩ => ⟨S2x4194304, .i32⟩
  | .hbm, ⟨2, _⟩ => ⟨S64x128, .f32⟩
  | .hbm, ⟨3, _⟩ => ⟨S128, .f32⟩
  | .hbm, ⟨4, _⟩ => ⟨S1x9, .f32⟩
  | .hbm, ⟨5, _⟩ => ⟨S9, .f32⟩
  | .hbm, ⟨6, _⟩ => ⟨S9x3, .f32⟩
  | .hbm, ⟨7, _⟩ => ⟨S3, .f32⟩
  | .hbm, ⟨8, _⟩ => ⟨S3x3, .f32⟩
  | .hbm, ⟨9, _⟩ => ⟨S3, .f32⟩
  | .hbm, ⟨10, _⟩ => ⟨S3x512, .f32⟩
  | .hbm, ⟨11, _⟩ => ⟨S512, .f32⟩
  | .hbm, ⟨12, _⟩ => ⟨S512x128, .f32⟩
  | .hbm, ⟨13, _⟩ => ⟨S128, .f32⟩
  | .hbm, ⟨14, _⟩ => ⟨S128x3, .f32⟩
  | .hbm, ⟨15, _⟩ => ⟨S3, .f32⟩
  | .hbm, ⟨16, _⟩ => ⟨S1x128, .f32⟩
  | .hbm, ⟨17, _⟩ => ⟨S2048x128, .f32⟩
  | .hbm, ⟨18, _⟩ => ⟨S262144x1, .f32⟩
  | .hbm, ⟨19, _⟩ => ⟨S262144, .i32⟩
  | .hbm, ⟨20, _⟩ => ⟨S1x4194304, .i32⟩
  | .hbm, ⟨21, _⟩ => ⟨S4194304, .i32⟩
  | .hbm, ⟨22, _⟩ => ⟨S4456448, .i32⟩
  | .hbm, ⟨23, _⟩ => ⟨S1x4194304, .i32⟩
  | .hbm, ⟨24, _⟩ => ⟨S4194304, .i32⟩
  | .hbm, ⟨25, _⟩ => ⟨S4456448, .i32⟩
  | .hbm, ⟨26, _⟩ => ⟨S_, .f32⟩
  | .hbm, ⟨27, _⟩ => ⟨S4456448, .f32⟩
  | .hbm, ⟨28, _⟩ => ⟨S_, .f32⟩
  | .hbm, ⟨29, _⟩ => ⟨S262144, .f32⟩
  | .hbm, ⟨30, _⟩ => ⟨S4456448x1, .i32⟩
  | .hbm, ⟨31, _⟩ => ⟨S262144, .f32⟩
  | .hbm, ⟨32, _⟩ => ⟨S_, .f32⟩
  | .hbm, ⟨33, _⟩ => ⟨S262144, .f32⟩
  | .hbm, ⟨34, _⟩ => ⟨S262144, .i1⟩
  | .hbm, ⟨35, _⟩ => ⟨S262144, .f32⟩
  | .hbm, ⟨36, _⟩ => ⟨S_, .f32⟩
  | .hbm, ⟨37, _⟩ => ⟨S_, .f32⟩
  | .hbm, ⟨38, _⟩ => ⟨S262144, .f32⟩
  | .hbm, ⟨39, _⟩ => ⟨S262144, .f32⟩
  | .hbm, ⟨40, _⟩ => ⟨S_, .i32⟩
  | .hbm, ⟨41, _⟩ => ⟨S4456448, .i32⟩
  | .hbm, ⟨42, _⟩ => ⟨S4456448, .i1⟩
  | .hbm, ⟨43, _⟩ => ⟨S_, .i32⟩
  | .hbm, ⟨44, _⟩ => ⟨S4456448, .i32⟩
  | .hbm, ⟨45, _⟩ => ⟨S4456448, .i32⟩
  | .hbm, ⟨46, _⟩ => ⟨S4456448, .i32⟩
  | .hbm, ⟨47, _⟩ => ⟨S4456448x1, .i32⟩
  | .hbm, ⟨48, _⟩ => ⟨S4456448, .f32⟩
  | .hbm, ⟨49, _⟩ => ⟨S_, .i32⟩
  | .hbm, ⟨50, _⟩ => ⟨S4456448, .i32⟩
  | .hbm, ⟨51, _⟩ => ⟨S4456448, .i1⟩
  | .hbm, ⟨52, _⟩ => ⟨S_, .i32⟩
  | .hbm, ⟨53, _⟩ => ⟨S4456448, .i32⟩
  | .hbm, ⟨54, _⟩ => ⟨S4456448, .i32⟩
  | .hbm, ⟨55, _⟩ => ⟨S4456448, .i32⟩
  | .hbm, ⟨56, _⟩ => ⟨S4456448x1, .i32⟩
  | .hbm, ⟨57, _⟩ => ⟨S4456448, .f32⟩
  | .hbm, ⟨58, _⟩ => ⟨S4456448, .f32⟩
  | .hbm, ⟨59, _⟩ => ⟨S4456448x1, .f32⟩
  | .hbm, ⟨60, _⟩ => ⟨S262144x9, .f32⟩
  | .hbm, ⟨61, _⟩ => ⟨S_, .i32⟩
  | .hbm, ⟨62, _⟩ => ⟨S4456448, .i32⟩
  | .hbm, ⟨63, _⟩ => ⟨S4456448, .i1⟩
  | .hbm, ⟨64, _⟩ => ⟨S_, .i32⟩
  | .hbm, ⟨65, _⟩ => ⟨S4456448, .i32⟩
  | .hbm, ⟨66, _⟩ => ⟨S4456448, .i32⟩
  | .hbm, ⟨67, _⟩ => ⟨S4456448, .i32⟩
  | .hbm, ⟨68, _⟩ => ⟨S4456448x1, .i32⟩
  | .hbm, ⟨69, _⟩ => ⟨S4456448x9, .f32⟩
  | .hbm, ⟨70, _⟩ => ⟨S4456448x9, .f32⟩
  | .hbm, ⟨71, _⟩ => ⟨S4456448x9, .f32⟩
  | .hbm, ⟨72, _⟩ => ⟨S_, .f32⟩
  | .hbm, ⟨73, _⟩ => ⟨S262144x9, .f32⟩
  | .hbm, ⟨74, _⟩ => ⟨S4456448x1, .i32⟩
  | .hbm, ⟨75, _⟩ => ⟨S262144x9, .f32⟩
  | .hbm, ⟨76, _⟩ => ⟨S1x9, .f32⟩
  | .hbm, ⟨77, _⟩ => ⟨S262144x9, .f32⟩
  | .hbm, ⟨78, _⟩ => ⟨S262144x9, .f32⟩
  | .hbm, ⟨79, _⟩ => ⟨S262144x3, .f32⟩
  | .hbm, ⟨80, _⟩ => ⟨S_, .i32⟩
  | .hbm, ⟨81, _⟩ => ⟨S4456448, .i32⟩
  | .hbm, ⟨82, _⟩ => ⟨S4456448, .i1⟩
  | .hbm, ⟨83, _⟩ => ⟨S_, .i32⟩
  | .hbm, ⟨84, _⟩ => ⟨S4456448, .i32⟩
  | .hbm, ⟨85, _⟩ => ⟨S4456448, .i32⟩
  | .hbm, ⟨86, _⟩ => ⟨S4456448, .i32⟩
  | .hbm, ⟨87, _⟩ => ⟨S4456448x1, .i32⟩
  | .hbm, ⟨88, _⟩ => ⟨S4456448x3, .f32⟩
  | .hbm, ⟨89, _⟩ => ⟨S4456448x3, .f32⟩
  | .hbm, ⟨90, _⟩ => ⟨S4456448x3, .f32⟩
  | .hbm, ⟨91, _⟩ => ⟨S_, .f32⟩
  | .hbm, ⟨92, _⟩ => ⟨S262144x3, .f32⟩
  | .hbm, ⟨93, _⟩ => ⟨S4456448x1, .i32⟩
  | .hbm, ⟨94, _⟩ => ⟨S262144x3, .f32⟩
  | .hbm, ⟨95, _⟩ => ⟨S1x3, .f32⟩
  | .hbm, ⟨96, _⟩ => ⟨S262144x3, .f32⟩
  | .hbm, ⟨97, _⟩ => ⟨S262144x3, .f32⟩
  | .hbm, ⟨98, _⟩ => ⟨S262144x3, .f32⟩
  | .hbm, ⟨99, _⟩ => ⟨S_, .i32⟩
  | .hbm, ⟨100, _⟩ => ⟨S4456448, .i32⟩
  | .hbm, ⟨101, _⟩ => ⟨S4456448, .i1⟩
  | .hbm, ⟨102, _⟩ => ⟨S_, .i32⟩
  | .hbm, ⟨103, _⟩ => ⟨S4456448, .i32⟩
  | .hbm, ⟨104, _⟩ => ⟨S4456448, .i32⟩
  | .hbm, ⟨105, _⟩ => ⟨S4456448, .i32⟩
  | .hbm, ⟨106, _⟩ => ⟨S4456448x1, .i32⟩
  | .hbm, ⟨107, _⟩ => ⟨S4456448x3, .f32⟩
  | .hbm, ⟨108, _⟩ => ⟨S4456448x3, .f32⟩
  | .hbm, ⟨109, _⟩ => ⟨S4456448x3, .f32⟩
  | .hbm, ⟨110, _⟩ => ⟨S_, .f32⟩
  | .hbm, ⟨111, _⟩ => ⟨S262144x3, .f32⟩
  | .hbm, ⟨112, _⟩ => ⟨S4456448x1, .i32⟩
  | .hbm, ⟨113, _⟩ => ⟨S262144x3, .f32⟩
  | .hbm, ⟨114, _⟩ => ⟨S1x3, .f32⟩
  | .hbm, ⟨115, _⟩ => ⟨S262144x3, .f32⟩
  | .hbm, ⟨116, _⟩ => ⟨S262144x3, .f32⟩
  | .hbm, ⟨117, _⟩ => ⟨S1x512, .f32⟩
  | .hbm, ⟨118, _⟩ => ⟨S1x128, .f32⟩
  | .hbm, ⟨119, _⟩ => ⟨S1x3, .f32⟩
  | .hbm, ⟨120, _⟩ => ⟨S262144x3, .f32⟩
  | .local _ .vmem, ⟨0, _⟩ => ⟨S512x64, .f32⟩
  | .local _ .vmem, ⟨1, _⟩ => ⟨S512x64, .f32⟩
  | .local _ .vmem, ⟨2, _⟩ => ⟨S64x128, .f32⟩
  | .local _ .vmem, ⟨3, _⟩ => ⟨S1x128, .f32⟩
  | .local _ .vmem, ⟨4, _⟩ => ⟨S512x128, .f32⟩
  | .local _ .vmem, ⟨5, _⟩ => ⟨S512x128, .f32⟩
  | .local _ .vmem, ⟨6, _⟩ => ⟨S2048x3, .f32⟩
  | .local _ .vmem, ⟨7, _⟩ => ⟨S2048x3, .f32⟩
  | .local _ .vmem, ⟨8, _⟩ => ⟨S3x512, .f32⟩
  | .local _ .vmem, ⟨9, _⟩ => ⟨S1x512, .f32⟩
  | .local _ .vmem, ⟨10, _⟩ => ⟨S512x128, .f32⟩
  | .local _ .vmem, ⟨11, _⟩ => ⟨S1x128, .f32⟩
  | .local _ .vmem, ⟨12, _⟩ => ⟨S128x3, .f32⟩
  | .local _ .vmem, ⟨13, _⟩ => ⟨S1x3, .f32⟩
  | .local _ .vmem, ⟨14, _⟩ => ⟨S2048x3, .f32⟩
  | .local _ .vmem, ⟨15, _⟩ => ⟨S2048x3, .f32⟩
  | _, _ => ⟨S2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst : Ref sig .tc := ⟨.hbm, 26, rfl⟩
abbrev main_v10 : Ref sig .tc := ⟨.hbm, 27, rfl⟩
abbrev main_cst_0 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_1 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_cst_2 : Ref sig .tc := ⟨.hbm, 36, rfl⟩
abbrev main_call0_v0 : Ref sig .tc := ⟨.hbm, 37, rfl⟩
abbrev main_call0_v1 : Ref sig .tc := ⟨.hbm, 38, rfl⟩
abbrev main_v17 : Ref sig .tc := ⟨.hbm, 39, rfl⟩
abbrev main_c : Ref sig .tc := ⟨.hbm, 40, rfl⟩
abbrev main_v18 : Ref sig .tc := ⟨.hbm, 41, rfl⟩
abbrev main_v19 : Ref sig .tc := ⟨.hbm, 42, rfl⟩
abbrev main_c_3 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_c_4 : Ref sig .tc := ⟨.hbm, 49, rfl⟩
abbrev main_v25 : Ref sig .tc := ⟨.hbm, 50, rfl⟩
abbrev main_v26 : Ref sig .tc := ⟨.hbm, 51, rfl⟩
abbrev main_c_5 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_c_6 : Ref sig .tc := ⟨.hbm, 61, rfl⟩
abbrev main_v35 : Ref sig .tc := ⟨.hbm, 62, rfl⟩
abbrev main_v36 : Ref sig .tc := ⟨.hbm, 63, rfl⟩
abbrev main_c_7 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst_8 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_c_9 : Ref sig .tc := ⟨.hbm, 80, rfl⟩
abbrev main_v51 : Ref sig .tc := ⟨.hbm, 81, rfl⟩
abbrev main_v52 : Ref sig .tc := ⟨.hbm, 82, rfl⟩
abbrev main_c_10 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_11 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_c_12 : Ref sig .tc := ⟨.hbm, 99, rfl⟩
abbrev main_v67 : Ref sig .tc := ⟨.hbm, 100, rfl⟩
abbrev main_v68 : Ref sig .tc := ⟨.hbm, 101, rfl⟩
abbrev main_c_13 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_cst_14 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg7_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S3x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x3 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x3 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2048x3 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  shapeCasts_S128_S1x128 : S128.ShapeCasts S1x128
  inb_S512x64_S512x64_0_0 : ∀ a, (![0, 0] : Fin 2 → Nat) a + S512x64.size a ≤ S512x64.size a
  h_S512x64 : 0 < S512x64.numel
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  inb_S512x128_S512x128_0_0 : ∀ a, (![0, 0] : Fin 2 → Nat) a + S512x128.size a ≤ S512x128.size a
  h_S512x128 : 0 < S512x128.numel
  shapeCasts_S2048x128_S262144x1 : S2048x128.ShapeCasts S262144x1
  slices_S2x4194304_S1x4194304_0_0 : S2x4194304.Slices ![0, 0] S1x4194304
  shapeCasts_S1x4194304_S4194304 : S1x4194304.ShapeCasts S4194304
  concatenates_S4194304_S262144_S4456448_d0 : Shape.Concatenates [S4194304, S262144] S4456448 0
  slices_S2x4194304_S1x4194304_1_0 : S2x4194304.Slices ![1, 0] S1x4194304
  bcast_S_S4456448 : S_.BroadcastsInDim S4456448 (![] : Fin 0 → Fin S4456448.rank)
  bcast_S_S262144 : S_.BroadcastsInDim S262144 (![] : Fin 0 → Fin S262144.rank)
  bcast_S4456448_S4456448x1_0 : S4456448.BroadcastsInDim S4456448x1 (![0] : Fin 1 → Fin S4456448x1.rank)
  bcast_S4456448x1_S4456448x9_0_1 : S4456448x1.BroadcastsInDim S4456448x9 (![0, 1] : Fin 2 → Fin S4456448x9.rank)
  bcast_S_S262144x9 : S_.BroadcastsInDim S262144x9 (![] : Fin 0 → Fin S262144x9.rank)
  bcast_S9_S1x9_1 : S9.BroadcastsInDim S1x9 (![1] : Fin 1 → Fin S1x9.rank)
  bcast_S1x9_S262144x9_0_1 : S1x9.BroadcastsInDim S262144x9 (![0, 1] : Fin 2 → Fin S262144x9.rank)
  bcast_S4456448x1_S4456448x3_0_1 : S4456448x1.BroadcastsInDim S4456448x3 (![0, 1] : Fin 2 → Fin S4456448x3.rank)
  bcast_S_S262144x3 : S_.BroadcastsInDim S262144x3 (![] : Fin 0 → Fin S262144x3.rank)
  bcast_S3_S1x3_1 : S3.BroadcastsInDim S1x3 (![1] : Fin 1 → Fin S1x3.rank)
  bcast_S1x3_S262144x3_0_1 : S1x3.BroadcastsInDim S262144x3 (![0, 1] : Fin 2 → Fin S262144x3.rank)
  shapeCasts_S512_S1x512 : S512.ShapeCasts S1x512
  shapeCasts_S3_S1x3 : S3.ShapeCasts S1x3
  inb_S2048x3_S2048x3_0_0 : ∀ a, (![0, 0] : Fin 2 → Nat) a + S2048x3.size a ≤ S2048x3.size a
  h_S2048x3 : 0 < S2048x3.numel
  shapeCasts_S2048x3_S2048x3 : S2048x3.ShapeCasts S2048x3
  inb_S3x512_S3x512_0_0 : ∀ a, (![0, 0] : Fin 2 → Nat) a + S3x512.size a ≤ S3x512.size a
  h_S3x512 : 0 < S3x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  broadcasts_S1x128_S2048x128 : S1x128.Broadcasts S2048x128
  inb_S128x3_S128x3_0_0 : ∀ a, (![0, 0] : Fin 2 → Nat) a + S128x3.size a ≤ S128x3.size a
  h_S128x3 : 0 < S128x3.numel
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S2048x3 : S1x3.Broadcasts S2048x3
  dot_S512x64_S64x128_S512x128_1_0_0_1_n_n_wf : DotDims.WF S512x64 S64x128 S512x128 [1] [0] [0] [1] [] []
  scatter_S262144_S4456448x1_S4456448_n_0_0_1_wf : ScatterDims.WF S262144 S4456448x1 S4456448 [] [0] [0] 1
  gather_S262144_S4456448x1_S4456448_n_0_n_n_0_1_1_wf : GatherDims.WF S262144 S4456448x1 S4456448 [] [0] [] [0] [] 1 ![1]
  dot_S262144x1_S1x9_S262144x9_1_0_0_1_n_n_wf : DotDims.WF S262144x1 S1x9 S262144x9 [1] [0] [0] [1] [] []
  gather_S262144x9_S4456448x1_S4456448x9_1_0_n_n_0_1_19_wf : GatherDims.WF S262144x9 S4456448x1 S4456448x9 [1] [0] [] [0] [] 1 ![1, 9]
  scatter_S262144x9_S4456448x1_S4456448x9_1_0_0_1_wf : ScatterDims.WF S262144x9 S4456448x1 S4456448x9 [1] [0] [0] 1
  dot_S262144x9_S9x3_S262144x3_1_0_0_1_n_n_wf : DotDims.WF S262144x9 S9x3 S262144x3 [1] [0] [0] [1] [] []
  gather_S262144x3_S4456448x1_S4456448x3_1_0_n_n_0_1_13_wf : GatherDims.WF S262144x3 S4456448x1 S4456448x3 [1] [0] [] [0] [] 1 ![1, 3]
  scatter_S262144x3_S4456448x1_S4456448x3_1_0_0_1_wf : ScatterDims.WF S262144x3 S4456448x1 S4456448x3 [1] [0] [0] 1
  dot_S262144x3_S3x3_S262144x3_1_0_0_1_n_n_wf : DotDims.WF S262144x3 S3x3 S262144x3 [1] [0] [0] [1] [] []
  dot_S2048x3_S3x512_S2048x512_1_0_0_1_n_n_wf : DotDims.WF S2048x3 S3x512 S2048x512 [1] [0] [0] [1] [] []
  dot_S2048x512_S512x128_S2048x128_1_0_0_1_n_n_wf : DotDims.WF S2048x512 S512x128 S2048x128 [1] [0] [0] [1] [] []
  dot_S2048x128_S128x3_S2048x3_1_0_0_1_n_n_wf : DotDims.WF S2048x128 S128x3 S2048x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x64.size a ≤ S2048x64.size a
  hwx0_0 : ∀ i : grid0.Coords, EltTy.bits .f32 = 32 ∨ (Rect.block (s := S2048x64) S512x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S2048x128.size a
  hwx0_3 : ∀ i : grid0.Coords, EltTy.bits .f32 = 32 ∨ (Rect.block (s := S2048x128) S512x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x3.size a ≤ S262144x3.size a
  hwx1_0 : ∀ i : grid1.Coords, EltTy.bits .f32 = 32 ∨ (Rect.block (s := S262144x3) S2048x3.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S3x512.size a ≤ S3x512.size a
  hwx1_1 : ∀ i : grid1.Coords, EltTy.bits .f32 = 32 ∨ (Rect.block (s := S3x512) S3x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x128.size a ≤ S512x128.size a
  hwx1_3 : ∀ i : grid1.Coords, EltTy.bits .f32 = 32 ∨ (Rect.block (s := S512x128) S512x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x3.size a ≤ S128x3.size a
  hwx1_5 : ∀ i : grid1.Coords, EltTy.bits .f32 = 32 ∨ (Rect.block (s := S128x3) S128x3.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x3.size a ≤ S1x3.size a
  hwx1_6 : ∀ i : grid1.Coords, EltTy.bits .f32 = 32 ∨ (Rect.block (s := S1x3) S1x3.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2048x3.size a ≤ S262144x3.size a
  hwx1_7 : ∀ i : grid1.Coords, EltTy.bits .f32 = 32 ∨ (Rect.block (s := S262144x3) S2048x3.size (cc1_transform_7 i) (hinb1_7 i)).WholeWords (EltTy.packing .f32)

variable [Facts₀]

def dot_S512x64_S64x128_S512x128_1_0_0_1_n_n : DotDims S512x64 S64x128 S512x128 where
  lhsContracting := [1]
  rhsContracting := [0]
  lhsNonContracting := [0]
  rhsNonContracting := [1]
  lhsBatch := []
  rhsBatch := []
  wf := dot_S512x64_S64x128_S512x128_1_0_0_1_n_n_wf
def scatter_S262144_S4456448x1_S4456448_n_0_0_1 : ScatterDims S262144 S4456448x1 S4456448 where
  updateWindowDims := []
  insertedWindowDims := [0]
  scatterDimsToOperandDims := [0]
  indexVectorDim := 1
  wf := scatter_S262144_S4456448x1_S4456448_n_0_0_1_wf
def gather_S262144_S4456448x1_S4456448_n_0_n_n_0_1_1 : GatherDims S262144 S4456448x1 S4456448 where
  offsetDims := []
  collapsedSliceDims := [0]
  operandBatchingDims := []
  startIndicesBatchingDims := []
  startIndexMap := [0]
  indexVectorDim := 1
  sliceSizes := ![1]
  wf := gather_S262144_S4456448x1_S4456448_n_0_n_n_0_1_1_wf
def dot_S262144x1_S1x9_S262144x9_1_0_0_1_n_n : DotDims S262144x1 S1x9 S262144x9 where
  lhsContracting := [1]
  rhsContracting := [0]
  lhsNonContracting := [0]
  rhsNonContracting := [1]
  lhsBatch := []
  rhsBatch := []
  wf := dot_S262144x1_S1x9_S262144x9_1_0_0_1_n_n_wf
def gather_S262144x9_S4456448x1_S4456448x9_1_0_n_n_0_1_19 : GatherDims S262144x9 S4456448x1 S4456448x9 where
  offsetDims := [1]
  collapsedSliceDims := [0]
  operandBatchingDims := []
  startIndicesBatchingDims := []
  startIndexMap := [0]
  indexVectorDim := 1
  sliceSizes := ![1, 9]
  wf := gather_S262144x9_S4456448x1_S4456448x9_1_0_n_n_0_1_19_wf
def scatter_S262144x9_S4456448x1_S4456448x9_1_0_0_1 : ScatterDims S262144x9 S4456448x1 S4456448x9 where
  updateWindowDims := [1]
  insertedWindowDims := [0]
  scatterDimsToOperandDims := [0]
  indexVectorDim := 1
  wf := scatter_S262144x9_S4456448x1_S4456448x9_1_0_0_1_wf
def dot_S262144x9_S9x3_S262144x3_1_0_0_1_n_n : DotDims S262144x9 S9x3 S262144x3 where
  lhsContracting := [1]
  rhsContracting := [0]
  lhsNonContracting := [0]
  rhsNonContracting := [1]
  lhsBatch := []
  rhsBatch := []
  wf := dot_S262144x9_S9x3_S262144x3_1_0_0_1_n_n_wf
def gather_S262144x3_S4456448x1_S4456448x3_1_0_n_n_0_1_13 : GatherDims S262144x3 S4456448x1 S4456448x3 where
  offsetDims := [1]
  collapsedSliceDims := [0]
  operandBatchingDims := []
  startIndicesBatchingDims := []
  startIndexMap := [0]
  indexVectorDim := 1
  sliceSizes := ![1, 3]
  wf := gather_S262144x3_S4456448x1_S4456448x3_1_0_n_n_0_1_13_wf
def scatter_S262144x3_S4456448x1_S4456448x3_1_0_0_1 : ScatterDims S262144x3 S4456448x1 S4456448x3 where
  updateWindowDims := [1]
  insertedWindowDims := [0]
  scatterDimsToOperandDims := [0]
  indexVectorDim := 1
  wf := scatter_S262144x3_S4456448x1_S4456448x3_1_0_0_1_wf
def dot_S262144x3_S3x3_S262144x3_1_0_0_1_n_n : DotDims S262144x3 S3x3 S262144x3 where
  lhsContracting := [1]
  rhsContracting := [0]
  lhsNonContracting := [0]
  rhsNonContracting := [1]
  lhsBatch := []
  rhsBatch := []
  wf := dot_S262144x3_S3x3_S262144x3_1_0_0_1_n_n_wf
def dot_S2048x3_S3x512_S2048x512_1_0_0_1_n_n : DotDims S2048x3 S3x512 S2048x512 where
  lhsContracting := [1]
  rhsContracting := [0]
  lhsNonContracting := [0]
  rhsNonContracting := [1]
  lhsBatch := []
  rhsBatch := []
  wf := dot_S2048x3_S3x512_S2048x512_1_0_0_1_n_n_wf
def dot_S2048x512_S512x128_S2048x128_1_0_0_1_n_n : DotDims S2048x512 S512x128 S2048x128 where
  lhsContracting := [1]
  rhsContracting := [0]
  lhsNonContracting := [0]
  rhsNonContracting := [1]
  lhsBatch := []
  rhsBatch := []
  wf := dot_S2048x512_S512x128_S2048x128_1_0_0_1_n_n_wf
def dot_S2048x128_S128x3_S2048x3_1_0_0_1_n_n : DotDims S2048x128 S128x3 S2048x3 where
  lhsContracting := [1]
  rhsContracting := [0]
  lhsNonContracting := [0]
  rhsNonContracting := [1]
  lhsBatch := []
  rhsBatch := []
  wf := dot_S2048x128_S128x3_S2048x3_1_0_0_1_n_n_wf

abbrev win0_0 : Pipeline.Window sig grid0 :=
  Pipeline.Window.ofSpec (Memref.whole main_arg0) S512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v81) S2048x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg10) S3x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v82) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg12) S512x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v83) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg14) S128x3.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v84) S1x3.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v85) S2048x3.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S2048x64 : Shape := ⟨2, ![2048, 64]⟩
abbrev S2x4194304 : Shape := ⟨2, ![2, 4194304]⟩
abbrev S64x128 : Shape := ⟨2, ![64, 128]⟩
abbrev S128 : Shape := ⟨1, ![128]⟩
abbrev S1x9 : Shape := ⟨2, ![1, 9]⟩
abbrev S9 : Shape := ⟨1, ![9]⟩
abbrev S9x3 : Shape := ⟨2, ![9, 3]⟩
abbrev S3 : Shape := ⟨1, ![3]⟩
abbrev S3x3 : Shape := ⟨2, ![3, 3]⟩
abbrev S3x512 : Shape := ⟨2, ![3, 512]⟩
abbrev S512 : Shape := ⟨1, ![512]⟩
abbrev S512x128 : Shape := ⟨2, ![512, 128]⟩
abbrev S128x3 : Shape := ⟨2, ![128, 3]⟩
abbrev S2048x128 : Shape := ⟨2, ![2048, 128]⟩
abbrev S1x128 : Shape := ⟨2, ![1, 128]⟩
abbrev S_ : Shape := ⟨0, ![]⟩
abbrev S262144x1 : Shape := ⟨2, ![262144, 1]⟩
abbrev S262144 : Shape := ⟨1, ![262144]⟩
abbrev S1x4194304 : Shape := ⟨2, ![1, 4194304]⟩
abbrev S4194304 : Shape := ⟨1, ![4194304]⟩
abbrev S4456448 : Shape := ⟨1, ![4456448]⟩
abbrev S4456448x1 : Shape := ⟨2, ![4456448, 1]⟩
abbrev S262144x9 : Shape := ⟨2, ![262144, 9]⟩
abbrev S4456448x9 : Shape := ⟨2, ![4456448, 9]⟩
abbrev S262144x3 : Shape := ⟨2, ![262144, 3]⟩
abbrev S4456448x3 : Shape := ⟨2, ![4456448, 3]⟩
abbrev S1x3 : Shape := ⟨2, ![1, 3]⟩
abbrev S262144x512 : Shape := ⟨2, ![262144, 512]⟩
abbrev S1x512 : Shape := ⟨2, ![1, 512]⟩
abbrev S262144x128 : Shape := ⟨2, ![262144, 128]⟩

abbrev nBuf : Space → Nat
  | .hbm => 159
  | .vmem => 0
  | .smem => 0
  | _ => 0

abbrev hbmTy0_0 (i : Nat) : BufTy := match i % 128 with
  | 0 => ⟨S2048x64, .f32⟩
  | 1 => ⟨S2x4194304, .i32⟩
  | 2 => ⟨S64x128, .f32⟩
  | 3 => ⟨S128, .f32⟩
  | 4 => ⟨S1x9, .f32⟩
  | 5 => ⟨S9, .f32⟩
  | 6 => ⟨S9x3, .f32⟩
  | 7 => ⟨S3, .f32⟩
  | 8 => ⟨S3x3, .f32⟩
  | 9 => ⟨S3, .f32⟩
  | 10 => ⟨S3x512, .f32⟩
  | 11 => ⟨S512, .f32⟩
  | 12 => ⟨S512x128, .f32⟩
  | 13 => ⟨S128, .f32⟩
  | 14 => ⟨S128x3, .f32⟩
  | 15 => ⟨S3, .f32⟩
  | 16 => ⟨S2048x128, .f32⟩
  | 17 => ⟨S1x128, .f32⟩
  | 18 => ⟨S2048x128, .f32⟩
  | 19 => ⟨S2048x128, .f32⟩
  | 20 => ⟨S_, .f32⟩
  | 21 => ⟨S2048x128, .f32⟩
  | 22 => ⟨S2048x128, .i1⟩
  | 23 => ⟨S_, .f32⟩
  | 24 => ⟨S2048x128, .f32⟩
  | 25 => ⟨S2048x128, .f32⟩
  | 26 => ⟨S2048x128, .f32⟩
  | 27 => ⟨S262144x1, .f32⟩
  | 28 => ⟨S262144, .i32⟩
  | 29 => ⟨S1x4194304, .i32⟩
  | 30 => ⟨S4194304, .i32⟩
  | 31 => ⟨S4456448, .i32⟩
  | 32 => ⟨S1x4194304, .i32⟩
  | 33 => ⟨S4194304, .i32⟩
  | 34 => ⟨S4456448, .i32⟩
  | 35 => ⟨S_, .f32⟩
  | 36 => ⟨S4456448, .f32⟩
  | 37 => ⟨S_, .f32⟩
  | 38 => ⟨S262144, .f32⟩
  | 39 => ⟨S4456448x1, .i32⟩
  | 40 => ⟨S262144, .f32⟩
  | 41 => ⟨S_, .f32⟩
  | 42 => ⟨S262144, .f32⟩
  | 43 => ⟨S262144, .i1⟩
  | 44 => ⟨S262144, .f32⟩
  | 45 => ⟨S_, .f32⟩
  | 46 => ⟨S_, .f32⟩
  | 47 => ⟨S262144, .f32⟩
  | 48 => ⟨S262144, .f32⟩
  | 49 => ⟨S_, .i32⟩
  | 50 => ⟨S4456448, .i32⟩
  | 51 => ⟨S4456448, .i1⟩
  | 52 => ⟨S_, .i32⟩
  | 53 => ⟨S4456448, .i32⟩
  | 54 => ⟨S4456448, .i32⟩
  | 55 => ⟨S4456448, .i32⟩
  | 56 => ⟨S4456448x1, .i32⟩
  | 57 => ⟨S4456448, .f32⟩
  | 58 => ⟨S_, .i32⟩
  | 59 => ⟨S4456448, .i32⟩
  | 60 => ⟨S4456448, .i1⟩
  | 61 => ⟨S_, .i32⟩
  | 62 => ⟨S4456448, .i32⟩
  | 63 => ⟨S4456448, .i32⟩
  | 64 => ⟨S4456448, .i32⟩
  | 65 => ⟨S4456448x1, .i32⟩
  | 66 => ⟨S4456448, .f32⟩
  | 67 => ⟨S4456448, .f32⟩
  | 68 => ⟨S4456448x1, .f32⟩
  | 69 => ⟨S262144x9, .f32⟩
  | 70 => ⟨S_, .i32⟩
  | 71 => ⟨S4456448, .i32⟩
  | 72 => ⟨S4456448, .i1⟩
  | 73 => ⟨S_, .i32⟩
  | 74 => ⟨S4456448, .i32⟩
  | 75 => ⟨S4456448, .i32⟩
  | 76 => ⟨S4456448, .i32⟩
  | 77 => ⟨S4456448x1, .i32⟩
  | 78 => ⟨S4456448x9, .f32⟩
  | 79 => ⟨S4456448x9, .f32⟩
  | 80 => ⟨S4456448x9, .f32⟩
  | 81 => ⟨S_, .f32⟩
  | 82 => ⟨S262144x9, .f32⟩
  | 83 => ⟨S4456448x1, .i32⟩
  | 84 => ⟨S262144x9, .f32⟩
  | 85 => ⟨S1x9, .f32⟩
  | 86 => ⟨S262144x9, .f32⟩
  | 87 => ⟨S262144x9, .f32⟩
  | 88 => ⟨S262144x3, .f32⟩
  | 89 => ⟨S_, .i32⟩
  | 90 => ⟨S4456448, .i32⟩
  | 91 => ⟨S4456448, .i1⟩
  | 92 => ⟨S_, .i32⟩
  | 93 => ⟨S4456448, .i32⟩
  | 94 => ⟨S4456448, .i32⟩
  | 95 => ⟨S4456448, .i32⟩
  | 96 => ⟨S4456448x1, .i32⟩
  | 97 => ⟨S4456448x3, .f32⟩
  | 98 => ⟨S4456448x3, .f32⟩
  | 99 => ⟨S4456448x3, .f32⟩
  | 100 => ⟨S_, .f32⟩
  | 101 => ⟨S262144x3, .f32⟩
  | 102 => ⟨S4456448x1, .i32⟩
  | 103 => ⟨S262144x3, .f32⟩
  | 104 => ⟨S1x3, .f32⟩
  | 105 => ⟨S262144x3, .f32⟩
  | 106 => ⟨S262144x3, .f32⟩
  | 107 => ⟨S262144x3, .f32⟩
  | 108 => ⟨S_, .i32⟩
  | 109 => ⟨S4456448, .i32⟩
  | 110 => ⟨S4456448, .i1⟩
  | 111 => ⟨S_, .i32⟩
  | 112 => ⟨S4456448, .i32⟩
  | 113 => ⟨S4456448, .i32⟩
  | 114 => ⟨S4456448, .i32⟩
  | 115 => ⟨S4456448x1, .i32⟩
  | 116 => ⟨S4456448x3, .f32⟩
  | 117 => ⟨S4456448x3, .f32⟩
  | 118 => ⟨S4456448x3, .f32⟩
  | 119 => ⟨S_, .f32⟩
  | 120 => ⟨S262144x3, .f32⟩
  | 121 => ⟨S4456448x1, .i32⟩
  | 122 => ⟨S262144x3, .f32⟩
  | 123 => ⟨S1x3, .f32⟩
  | 124 => ⟨S262144x3, .f32⟩
  | 125 => ⟨S262144x3, .f32⟩
  | 126 => ⟨S262144x512, .f32⟩
  | 127 => ⟨S1x512, .f32⟩
  | _ => ⟨S2048x64, .f32⟩

abbrev hbmTy0_1 (i : Nat) : BufTy := match i % 128 with
  | 0 => ⟨S262144x512, .f32⟩
  | 1 => ⟨S262144x512, .f32⟩
  | 2 => ⟨S_, .f32⟩
  | 3 => ⟨S262144x512, .f32⟩
  | 4 => ⟨S262144x512, .i1⟩
  | 5 => ⟨S_, .f32⟩
  | 6 => ⟨S262144x512, .f32⟩
  | 7 => ⟨S262144x512, .f32⟩
  | 8 => ⟨S262144x512, .f32⟩
  | 9 => ⟨S262144x128, .f32⟩
  | 10 => ⟨S1x128, .f32⟩
  | 11 => ⟨S262144x128, .f32⟩
  | 12 => ⟨S262144x128, .f32⟩
  | 13 => ⟨S_, .f32⟩
  | 14 => ⟨S262144x128, .f32⟩
  | 15 => ⟨S262144x128, .i1⟩
  | 16 => ⟨S_, .f32⟩
  | 17 => ⟨S262144x128, .f32⟩
  | 18 => ⟨S262144x128, .f32⟩
  | 19 => ⟨S262144x128, .f32⟩
  | 20 => ⟨S262144x3, .f32⟩
  | 21 => ⟨S1x3, .f32⟩
  | 22 => ⟨S262144x3, .f32⟩
  | 23 => ⟨S262144x3, .f32⟩
  | 24 => ⟨S_, .f32⟩
  | 25 => ⟨S262144x3, .f32⟩
  | 26 => ⟨S262144x3, .i1⟩
  | 27 => ⟨S_, .f32⟩
  | 28 => ⟨S262144x3, .f32⟩
  | 29 => ⟨S262144x3, .f32⟩
  | 30 => ⟨S262144x3, .f32⟩
  | _ => ⟨S2048x64, .f32⟩

abbrev hbmTy (i : Nat) : BufTy := match i / 128 with
  | 0 => hbmTy0_0 i
  | 1 => hbmTy0_1 i
  | _ => ⟨S2048x64, .f32⟩

abbrev bufTy : (tb : Table) → Fin (tcTables nBuf tb) → BufTy
  | .hbm, ⟨i, _⟩ => hbmTy i
  | _, _ => ⟨S2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_call0_cst : Ref sig .tc := ⟨.hbm, 20, rfl⟩
abbrev main_call0_v0 : Ref sig .tc := ⟨.hbm, 21, rfl⟩
abbrev main_call0_v1 : Ref sig .tc := ⟨.hbm, 22, rfl⟩
abbrev main_call0_cst_0 : Ref sig .tc := ⟨.hbm, 23, rfl⟩
abbrev main_call0_v2 : Ref sig .tc := ⟨.hbm, 24, rfl⟩
abbrev main_call0_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_cst : Ref sig .tc := ⟨.hbm, 35, rfl⟩
abbrev main_v13 : Ref sig .tc := ⟨.hbm, 36, rfl⟩
abbrev main_cst_0 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_cst_1 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_cst_2 : Ref sig .tc := ⟨.hbm, 45, rfl⟩
abbrev main_call1_v0 : Ref sig .tc := ⟨.hbm, 46, rfl⟩
abbrev main_call1_v1 : Ref sig .tc := ⟨.hbm, 47, rfl⟩
abbrev main_v20 : Ref sig .tc := ⟨.hbm, 48, rfl⟩
abbrev main_c : Ref sig .tc := ⟨.hbm, 49, rfl⟩
abbrev main_v21 : Ref sig .tc := ⟨.hbm, 50, rfl⟩
abbrev main_v22 : Ref sig .tc := ⟨.hbm, 51, rfl⟩
abbrev main_c_3 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_c_4 : Ref sig .tc := ⟨.hbm, 58, rfl⟩
abbrev main_v28 : Ref sig .tc := ⟨.hbm, 59, rfl⟩
abbrev main_v29 : Ref sig .tc := ⟨.hbm, 60, rfl⟩
abbrev main_c_5 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_c_6 : Ref sig .tc := ⟨.hbm, 70, rfl⟩
abbrev main_v38 : Ref sig .tc := ⟨.hbm, 71, rfl⟩
abbrev main_v39 : Ref sig .tc := ⟨.hbm, 72, rfl⟩
abbrev main_c_7 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_cst_8 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_c_9 : Ref sig .tc := ⟨.hbm, 89, rfl⟩
abbrev main_v54 : Ref sig .tc := ⟨.hbm, 90, rfl⟩
abbrev main_v55 : Ref sig .tc := ⟨.hbm, 91, rfl⟩
abbrev main_c_10 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_cst_11 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_c_12 : Ref sig .tc := ⟨.hbm, 108, rfl⟩
abbrev main_v70 : Ref sig .tc := ⟨.hbm, 109, rfl⟩
abbrev main_v71 : Ref sig .tc := ⟨.hbm, 110, rfl⟩
abbrev main_c_13 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_cst_14 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_call2_cst : Ref sig .tc := ⟨.hbm, 130, rfl⟩
abbrev main_call2_v0 : Ref sig .tc := ⟨.hbm, 131, rfl⟩
abbrev main_call2_v1 : Ref sig .tc := ⟨.hbm, 132, rfl⟩
abbrev main_call2_cst_0 : Ref sig .tc := ⟨.hbm, 133, rfl⟩
abbrev main_call2_v2 : Ref sig .tc := ⟨.hbm, 134, rfl⟩
abbrev main_call2_v3 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_call3_cst : Ref sig .tc := ⟨.hbm, 141, rfl⟩
abbrev main_call3_v0 : Ref sig .tc := ⟨.hbm, 142, rfl⟩
abbrev main_call3_v1 : Ref sig .tc := ⟨.hbm, 143, rfl⟩
abbrev main_call3_cst_0 : Ref sig .tc := ⟨.hbm, 144, rfl⟩
abbrev main_call3_v2 : Ref sig .tc := ⟨.hbm, 145, rfl⟩
abbrev main_call3_v3 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_call4_cst : Ref sig .tc := ⟨.hbm, 152, rfl⟩
abbrev main_call4_v0 : Ref sig .tc := ⟨.hbm, 153, rfl⟩
abbrev main_call4_v1 : Ref sig .tc := ⟨.hbm, 154, rfl⟩
abbrev main_call4_cst_0 : Ref sig .tc := ⟨.hbm, 155, rfl⟩
abbrev main_call4_v2 : Ref sig .tc := ⟨.hbm, 156, rfl⟩
abbrev main_call4_v3 : Ref sig .tc := ⟨.hbm, 157, rfl⟩
abbrev main_v99 : Ref sig .tc := ⟨.hbm, 158, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S2048x128_0_1 : S1x128.BroadcastsInDim S2048x128 (![0, 1] : Fin 2 → Fin S2048x128.rank)
  bcast_S_S2048x128 : S_.BroadcastsInDim S2048x128 (![] : Fin 0 → Fin S2048x128.rank)
  shapeCasts_S2048x128_S262144x1 : S2048x128.ShapeCasts S262144x1
  slices_S2x4194304_S1x4194304_0_0 : S2x4194304.Slices ![0, 0] S1x4194304
  shapeCasts_S1x4194304_S4194304 : S1x4194304.ShapeCasts S4194304
  concatenates_S4194304_S262144_S4456448_d0 : Shape.Concatenates [S4194304, S262144] S4456448 0
  slices_S2x4194304_S1x4194304_1_0 : S2x4194304.Slices ![1, 0] S1x4194304
  bcast_S_S4456448 : S_.BroadcastsInDim S4456448 (![] : Fin 0 → Fin S4456448.rank)
  bcast_S_S262144 : S_.BroadcastsInDim S262144 (![] : Fin 0 → Fin S262144.rank)
  bcast_S4456448_S4456448x1_0 : S4456448.BroadcastsInDim S4456448x1 (![0] : Fin 1 → Fin S4456448x1.rank)
  bcast_S4456448x1_S4456448x9_0_1 : S4456448x1.BroadcastsInDim S4456448x9 (![0, 1] : Fin 2 → Fin S4456448x9.rank)
  bcast_S_S262144x9 : S_.BroadcastsInDim S262144x9 (![] : Fin 0 → Fin S262144x9.rank)
  bcast_S9_S1x9_1 : S9.BroadcastsInDim S1x9 (![1] : Fin 1 → Fin S1x9.rank)
  bcast_S1x9_S262144x9_0_1 : S1x9.BroadcastsInDim S262144x9 (![0, 1] : Fin 2 → Fin S262144x9.rank)
  bcast_S4456448x1_S4456448x3_0_1 : S4456448x1.BroadcastsInDim S4456448x3 (![0, 1] : Fin 2 → Fin S4456448x3.rank)
  bcast_S_S262144x3 : S_.BroadcastsInDim S262144x3 (![] : Fin 0 → Fin S262144x3.rank)
  bcast_S3_S1x3_1 : S3.BroadcastsInDim S1x3 (![1] : Fin 1 → Fin S1x3.rank)
  bcast_S1x3_S262144x3_0_1 : S1x3.BroadcastsInDim S262144x3 (![0, 1] : Fin 2 → Fin S262144x3.rank)
  bcast_S512_S1x512_1 : S512.BroadcastsInDim S1x512 (![1] : Fin 1 → Fin S1x512.rank)
  bcast_S1x512_S262144x512_0_1 : S1x512.BroadcastsInDim S262144x512 (![0, 1] : Fin 2 → Fin S262144x512.rank)
  bcast_S_S262144x512 : S_.BroadcastsInDim S262144x512 (![] : Fin 0 → Fin S262144x512.rank)
  bcast_S1x128_S262144x128_0_1 : S1x128.BroadcastsInDim S262144x128 (![0, 1] : Fin 2 → Fin S262144x128.rank)
  bcast_S_S262144x128 : S_.BroadcastsInDim S262144x128 (![] : Fin 0 → Fin S262144x128.rank)
  dot_S2048x64_S64x128_S2048x128_1_0_0_1_n_n_wf : DotDims.WF S2048x64 S64x128 S2048x128 [1] [0] [0] [1] [] []
  scatter_S262144_S4456448x1_S4456448_n_0_0_1_wf : ScatterDims.WF S262144 S4456448x1 S4456448 [] [0] [0] 1
  gather_S262144_S4456448x1_S4456448_n_0_n_n_0_1_1_wf : GatherDims.WF S262144 S4456448x1 S4456448 [] [0] [] [0] [] 1 ![1]
  dot_S262144x1_S1x9_S262144x9_1_0_0_1_n_n_wf : DotDims.WF S262144x1 S1x9 S262144x9 [1] [0] [0] [1] [] []
  gather_S262144x9_S4456448x1_S4456448x9_1_0_n_n_0_1_19_wf : GatherDims.WF S262144x9 S4456448x1 S4456448x9 [1] [0] [] [0] [] 1 ![1, 9]
  scatter_S262144x9_S4456448x1_S4456448x9_1_0_0_1_wf : ScatterDims.WF S262144x9 S4456448x1 S4456448x9 [1] [0] [0] 1
  dot_S262144x9_S9x3_S262144x3_1_0_0_1_n_n_wf : DotDims.WF S262144x9 S9x3 S262144x3 [1] [0] [0] [1] [] []
  gather_S262144x3_S4456448x1_S4456448x3_1_0_n_n_0_1_13_wf : GatherDims.WF S262144x3 S4456448x1 S4456448x3 [1] [0] [] [0] [] 1 ![1, 3]
  scatter_S262144x3_S4456448x1_S4456448x3_1_0_0_1_wf : ScatterDims.WF S262144x3 S4456448x1 S4456448x3 [1] [0] [0] 1
  dot_S262144x3_S3x3_S262144x3_1_0_0_1_n_n_wf : DotDims.WF S262144x3 S3x3 S262144x3 [1] [0] [0] [1] [] []
  dot_S262144x3_S3x512_S262144x512_1_0_0_1_n_n_wf : DotDims.WF S262144x3 S3x512 S262144x512 [1] [0] [0] [1] [] []
  dot_S262144x512_S512x128_S262144x128_1_0_0_1_n_n_wf : DotDims.WF S262144x512 S512x128 S262144x128 [1] [0] [0] [1] [] []
  dot_S262144x128_S128x3_S262144x3_1_0_0_1_n_n_wf : DotDims.WF S262144x128 S128x3 S262144x3 [1] [0] [0] [1] [] []

variable [Facts₀]

def dot_S2048x64_S64x128_S2048x128_1_0_0_1_n_n : DotDims S2048x64 S64x128 S2048x128 where
  lhsContracting := [1]
  rhsContracting := [0]
  lhsNonContracting := [0]
  rhsNonContracting := [1]
  lhsBatch := []
  rhsBatch := []
  wf := dot_S2048x64_S64x128_S2048x128_1_0_0_1_n_n_wf
def scatter_S262144_S4456448x1_S4456448_n_0_0_1 : ScatterDims S262144 S4456448x1 S4456448 where
  updateWindowDims := []
  insertedWindowDims := [0]
  scatterDimsToOperandDims := [0]
  indexVectorDim := 1
  wf := scatter_S262144_S4456448x1_S4456448_n_0_0_1_wf
def gather_S262144_S4456448x1_S4456448_n_0_n_n_0_1_1 : GatherDims S262144 S4456448x1 S4456448 where
  offsetDims := []
  collapsedSliceDims := [0]
  operandBatchingDims := []
  startIndicesBatchingDims := []
  startIndexMap := [0]
  indexVectorDim := 1
  sliceSizes := ![1]
  wf := gather_S262144_S4456448x1_S4456448_n_0_n_n_0_1_1_wf
def dot_S262144x1_S1x9_S262144x9_1_0_0_1_n_n : DotDims S262144x1 S1x9 S262144x9 where
  lhsContracting := [1]
  rhsContracting := [0]
  lhsNonContracting := [0]
  rhsNonContracting := [1]
  lhsBatch := []
  rhsBatch := []
  wf := dot_S262144x1_S1x9_S262144x9_1_0_0_1_n_n_wf
def gather_S262144x9_S4456448x1_S4456448x9_1_0_n_n_0_1_19 : GatherDims S262144x9 S4456448x1 S4456448x9 where
  offsetDims := [1]
  collapsedSliceDims := [0]
  operandBatchingDims := []
  startIndicesBatchingDims := []
  startIndexMap := [0]
  indexVectorDim := 1
  sliceSizes := ![1, 9]
  wf := gather_S262144x9_S4456448x1_S4456448x9_1_0_n_n_0_1_19_wf
def scatter_S262144x9_S4456448x1_S4456448x9_1_0_0_1 : ScatterDims S262144x9 S4456448x1 S4456448x9 where
  updateWindowDims := [1]
  insertedWindowDims := [0]
  scatterDimsToOperandDims := [0]
  indexVectorDim := 1
  wf := scatter_S262144x9_S4456448x1_S4456448x9_1_0_0_1_wf
def dot_S262144x9_S9x3_S262144x3_1_0_0_1_n_n : DotDims S262144x9 S9x3 S262144x3 where
  lhsContracting := [1]
  rhsContracting := [0]
  lhsNonContracting := [0]
  rhsNonContracting := [1]
  lhsBatch := []
  rhsBatch := []
  wf := dot_S262144x9_S9x3_S262144x3_1_0_0_1_n_n_wf
def gather_S262144x3_S4456448x1_S4456448x3_1_0_n_n_0_1_13 : GatherDims S262144x3 S4456448x1 S4456448x3 where
  offsetDims := [1]
  collapsedSliceDims := [0]
  operandBatchingDims := []
  startIndicesBatchingDims := []
  startIndexMap := [0]
  indexVectorDim := 1
  sliceSizes := ![1, 3]
  wf := gather_S262144x3_S4456448x1_S4456448x3_1_0_n_n_0_1_13_wf
def scatter_S262144x3_S4456448x1_S4456448x3_1_0_0_1 : ScatterDims S262144x3 S4456448x1 S4456448x3 where
  updateWindowDims := [1]
  insertedWindowDims := [0]
  scatterDimsToOperandDims := [0]
  indexVectorDim := 1
  wf := scatter_S262144x3_S4456448x1_S4456448x3_1_0_0_1_wf
def dot_S262144x3_S3x3_S262144x3_1_0_0_1_n_n : DotDims S262144x3 S3x3 S262144x3 where
  lhsContracting := [1]
  rhsContracting := [0]
  lhsNonContracting := [0]
  rhsNonContracting := [1]
  lhsBatch := []
  rhsBatch := []
  wf := dot_S262144x3_S3x3_S262144x3_1_0_0_1_n_n_wf
def dot_S262144x3_S3x512_S262144x512_1_0_0_1_n_n : DotDims S262144x3 S3x512 S262144x512 where
  lhsContracting := [1]
  rhsContracting := [0]
  lhsNonContracting := [0]
  rhsNonContracting := [1]
  lhsBatch := []
  rhsBatch := []
  wf := dot_S262144x3_S3x512_S262144x512_1_0_0_1_n_n_wf
def dot_S262144x512_S512x128_S262144x128_1_0_0_1_n_n : DotDims S262144x512 S512x128 S262144x128 where
  lhsContracting := [1]
  rhsContracting := [0]
  lhsNonContracting := [0]
  rhsNonContracting := [1]
  lhsBatch := []
  rhsBatch := []
  wf := dot_S262144x512_S512x128_S262144x128_1_0_0_1_n_n_wf
def dot_S262144x128_S128x3_S262144x3_1_0_0_1_n_n : DotDims S262144x128 S128x3 S262144x3 where
  lhsContracting := [1]
  rhsContracting := [0]
  lhsNonContracting := [0]
  rhsNonContracting := [1]
  lhsBatch := []
  rhsBatch := []
  wf := dot_S262144x128_S128x3_S262144x3_1_0_0_1_n_n_wf

class Facts : Prop extends Facts₀ where

variable [Facts]
-- ==== Proof.KernelRun.lean ====
/-
  The idealized kernel's run with its result array named.

  The program is six segments: a host line, the first kernel's region, three host lines (the graph part), the second
  kernel's region. The buffer contents at every boundary are a fold from the launch memory (`Gen.W0 … Gen.W6`): a host
  line's operations applied in order, a region's arrays replaced by what its write-backs leave. Every weakly fair
  execution terminates with every unscoped buffer at the last boundary's contents `Gen.W6`; read at the result
  array that is the statement below, read at an argument it is the argument as launched.
-/
import proofs.«121636_j54065048322436_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result array ends at the last
    boundary's contents and every argument array as launched. -/
theorem run_named : θ_run defs (onTc (τ := τ) (main (F := F))) ⟨m, fun _ => 0, ρ⟩ (fun r => ∀ c : Dev nD,
      r.2.mem ((c.tc : Thread nD τ).loc main_v85) = W6 m ρ c (Proc.devRef .tc main_v85)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v85 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c),
       (h c _ (mem_uc main_arg15 (by decide))).trans (W6_main_arg15 m ρ c)⟩)

end Cert.KernelIdeal.Hand

end
-- ==== Proof.LibDenseRow.lean ====
/-
  The two programs' dense layer, one row at a time, on the extended reals.

  Both programs apply the same three-step layer four times: a matrix product, a bias added to every row, and the
  leaky rectifier `x ↦ if x ≥ 0 then x else c·x` with the slope `c` the f32 literal 0x3C23D70A. A row of the
  layer's output depends on the same row of its input only, so the layer is stated here on ONE row: `denseRow a W b`
  is the row `j ↦ leaky (Σ_c a c · W (c, j) + b j)`. The comparison and the choice are written as the programs
  write them at the ideal values (`FloatOps.cmpf .oge`, `Scalar.select`), so that each side's text reads to this
  term with no case split.
-/
import Idealize.ShloMosaic.PureOps.Ideal
import Idealize.ShloMosaic.Lib.ValueIdx

noncomputable section

namespace Cert.DenseRow

open Idealize.ShloMosaic Idealize.ShloMosaic.ValueIdx

/-- The leaky rectifier as both programs spell it at the ideal values: the value itself where it is at least the
    zero literal, the slope literal times it elsewhere. -/
def leakyE (x : Ideal .f32) : Ideal .f32 :=
  Scalar.select (FloatOps.cmpf (F := Ideal) .oge x (Ideal.ofBits .f32 0x00000000#32)) x
    (Ideal.ofBits .f32 0x3C23D70A#32 * x)

/-- One row of a dense layer: the row `a` (K entries) times the K×M matrix `W`, plus the bias row `b`, through the
    leaky rectifier, at column `j`. -/
def denseRow {K M : Nat} (a : Fin K → Ideal .f32) (W : (⟨2, ![K, M]⟩ : Shape).Idx → Ideal .f32) (b : Fin M → Ideal .f32)
    (j : Fin M) : Ideal .f32 :=
  leakyE ((∑ c : Fin K, a c * W (ix2 c j)) + b j)

end Cert.DenseRow

end
-- ==== Proof.KernelValue0.lean ====
/-
  The first kernel's region: what its output array holds after the region.

  The grid has four points; point `t` reads rows `512 t … 512 t + 511` of the input, the whole weight matrix and the
  whole bias row, and writes rows `512 t … 512 t + 511` of the output: each row of its block is the dense layer of the
  same row of the input block. The four blocks tile the [2048, 128] output, so after the region the array is ONE
  function of the region's input arrays: row `r` is the dense layer of row `r` of the input (`rows0`).
-/
import proofs.«121636_j54065048322436_1_alg».proof.Proof.Gen.KernelIdeal.Frame
import proofs.«121636_j54065048322436_1_alg».proof.Proof.LibDenseRow
import Idealize.ShloMosaic.Lib.Pipeline.Value
import Idealize.ShloMosaic.Lib.ValueIdx

set_option maxRecDepth 16384

noncomputable section

namespace Cert.KernelIdeal.Hand

open Cert.KernelIdeal Cert.KernelIdeal.Gen Cert.DenseRow
open Idealize.ShloMosaic Idealize.ShloMosaic.TcCoe Idealize.ShloMosaic.ValueIdx Idealize.SL.Sem
open Idealize.ShloMosaic.Pipeline (Dat)

/-- Equal rows, matrices, biases and columns give equal layer entries. -/
theorem denseRow_congr {K M : Nat} {a a' : Fin K → Ideal .f32} {W W' : (⟨2, ![K, M]⟩ : Shape).Idx → Ideal .f32}
    {b b' : Fin M → Ideal .f32} {j j' : Fin M} (ha : a = a') (hW : W = W') (hb : b = b') (hj : j = j') :
    denseRow a W b j = denseRow a' W' b' j' := by subst ha hW hb hj; rfl

theorem origin2 : (![0, 0] : Fin 2 → Nat) = fun _ => 0 := funext fun a => by fin_cases a <;> rfl

/-- The output array as one function of the region's input arrays: row `r`, column `q` is the dense layer of row `r`
    of `X` through `W` and the one-row bias `B`. -/
def rows0 (X : S2048x64.Idx → Elt Ideal .f32) (W : S64x128.Idx → Elt Ideal .f32) (B : S1x128.Idx → Elt Ideal .f32) :
    S2048x128.Idx → Elt Ideal .f32 :=
  fun i => denseRow (K := 64) (M := 128) (fun c => X (ix2 (n0 := 2048) (i 0) c)) W (fun l => B (ix2 (0 : Fin 1) l)) (i 1)

/-- The printed index maps over the four points: the input and output blocks sit at block row `t`, everything else at
    the origin. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The first kernel's stored value, read at an entry of its block: the dense layer of the entry's row. -/
def Pay0 : Prop := ∀ (v0 : Vec Ideal S512x64 .f32) (v1 : Vec Ideal S64x128 .f32) (v3 : Vec Ideal S1x128 .f32) (y : Fin 512) (j : Fin 128),
    k0_pay1 (F := Ideal) v0 v1 v3 (ix2 y j) = denseRow (fun c => v0 (ix2 y c)) v1 (fun l => v3 (ix2 0 l)) j

section Region
variable (V : (c : Dev nD) → (b : Ref sig .tc) → Buf (Elt Ideal) ((c : Thread nD τ).loc b))

/-- What point `t` writes back is block `t` of `rows0` of the arrays as the region finds them. -/
theorem flushed0_eq (hpay : Pay0) (c : Dev nD) (t : Fin cfg0.N) :
    (dat0 V c).flushed 3 t = ((cfg0.win 3).blk t).view.read (Elt Ideal) (rows0 (V c main_arg0) (V c main_arg2) (V c main_v0)) := by
  show (cfg0.win 3).cut (grid0.coords t) ((dat0 V c).after 3 t) = _
  rw [after0_3]
  unfold out0_3
  rw [View.canon_unit_zero origin2]
  simp only [View.ld_unit_zero (S := S512x64) origin2, View.ld_unit_zero (S := S64x128) origin2, View.ld_unit_zero (S := S1x128) origin2]
  obtain ⟨e00, e01, e10, e11, e20, e21, e30, e31⟩ := idx0 t
  funext j
  obtain ⟨y, q, rfl⟩ : ∃ (y : Fin 512) (q : Fin 128), j = ix2 y q := ⟨j 0, j 1, eq_ix2 j⟩
  show k0_pay1 (iblk0 V c 0 t) (iblk0 V c 1 t) (iblk0 V c 2 t) (ix2 y q)
    = rows0 (V c main_arg0) (V c main_arg2) (V c main_v0) (((cfg0.win 3).blk t).view.emb (ix2 y q))
  refine (hpay (iblk0 V c 0 t) (iblk0 V c 1 t) (iblk0 V c 2 t) y q).trans ?_
  unfold rows0
  refine denseRow_congr (funext fun k => ?_) (funext fun i => ?_) (funext fun l => ?_) ?_
  · show V c main_arg0 (((cfg0.win 0).blk t).view.emb (ix2 y k)) = _
    refine congrArg (V c main_arg0) (funext fun a => Fin.ext ?_)
    match a with
    | ⟨0, _⟩ => show win0_0.index t (0 : Fin 2) * 512 + 1 * y.val = win0_3.index t (0 : Fin 2) * 512 + 1 * y.val; omega
    | ⟨1, _⟩ => show win0_0.index t (1 : Fin 2) * 64 + 1 * k.val = k.val; omega
  · show V c main_arg2 (((cfg0.win 1).blk t).view.emb i) = _
    refine congrArg (V c main_arg2) (funext fun a => Fin.ext ?_)
    match a with
    | ⟨0, _⟩ => show win0_1.index t (0 : Fin 2) * 64 + 1 * (i 0).val = (i 0).val; omega
    | ⟨1, _⟩ => show win0_1.index t (1 : Fin 2) * 128 + 1 * (i 1).val = (i 1).val; omega
  · show V c main_v0 (((cfg0.win 2).blk t).view.emb (ix2 0 l)) = _
    refine congrArg (V c main_v0) (funext fun a => Fin.ext ?_)
    match a with
    | ⟨0, _⟩ => show win0_2.index t (0 : Fin 2) * 1 + 1 * 0 = 0; omega
    | ⟨1, _⟩ => show win0_2.index t (1 : Fin 2) * 128 + 1 * l.val = l.val; omega
  · refine Fin.ext ?_
    show q.val = win0_3.index t (1 : Fin 2) * 128 + 1 * q.val
    omega

/-- An index of the output array is in point `t`'s block iff each coordinate is in the block's range on its axis. -/
theorem mem_blk0 (t : Fin cfg0.N) (i : S2048x128.Idx) :
    i ∈ ((cfg0.win 3).blk t).view.set ↔ ∀ a : Fin 2, win0_3.index t a * S512x128.size a ≤ (i a).val ∧ (i a).val < win0_3.index t a * S512x128.size a + S512x128.size a := by
  show i ∈ ((View.whole main_v1).slice (win0_3.rect t)).set ↔ _
  rw [View.set_slice_whole, Rect.mem_set_unit]
  exact Iff.rfl

/-- Every index of the output array is in the block of the point its row falls in. -/
theorem cover0 (i : S2048x128.Idx) : ∃ t : Fin cfg0.N, (cfg0.win 3).flush t = true ∧ i ∈ ((cfg0.win 3).blk t).view.set := by
  have hi0 : (i 0).val < 2048 := (i 0).isLt
  have hi1 : (i 1).val < 128 := (i 1).isLt
  have hN : cfg0.N = 4 := N_0
  obtain ⟨t, ht⟩ : ∃ t : Fin cfg0.N, t.val = (i 0).val / 512 := ⟨⟨(i 0).val / 512, by rw [hN]; omega⟩, rfl⟩
  obtain ⟨-, -, -, -, -, -, e30, e31⟩ := idx0 t
  refine ⟨t, flush0_3 t, ?_⟩
  rw [mem_blk0]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 128 ≤ (i 1).val ∧ (i 1).val < win0_3.index t (1 : Fin 2) * 128 + 128; omega

/-- After the region the output array is `rows0` of the arrays the region found. -/
theorem final0 (hpay : Pay0) (c : Dev nD) : (dat0 V c).arrAt 3 cfg0.N = rows0 (V c main_arg0) (V c main_arg2) (V c main_v0) :=
  (dat0 V c).arrAt_eq_of_cover 3 _ (fun t _ => flushed0_eq V hpay c t) cover0

end Region

end Cert.KernelIdeal.Hand

end
-- ==== Proof.KernelValue1.lean ====
/-
  The second kernel's region: what its output array holds after the region.

  The grid has 128 points; point `t` reads rows `2048 t … 2048 t + 2047` of the node features and the three layers'
  whole parameter arrays, and writes the same rows of the output: each row of its block is the three dense layers
  applied in turn to the same row of the input block. The 128 blocks tile the [262144, 3] output, so after the
  region the array is ONE function of the region's input arrays (`rows1`): row `r` is the head of row `r`.
-/
import proofs.«121636_j54065048322436_1_alg».proof.Proof.KernelValue0

set_option maxRecDepth 16384

noncomputable section

namespace Cert.KernelIdeal.Hand

open Cert.KernelIdeal Cert.KernelIdeal.Gen Cert.DenseRow
open Idealize.ShloMosaic Idealize.ShloMosaic.TcCoe Idealize.ShloMosaic.ValueIdx Idealize.SL.Sem
open Idealize.ShloMosaic.Pipeline (Dat)

/-- The output array as one function of the region's input arrays: row `r` is the three layers of row `r` of `H`. -/
def rows1 (H : S262144x3.Idx → Elt Ideal .f32) (W1 : S3x512.Idx → Elt Ideal .f32) (B1 : S1x512.Idx → Elt Ideal .f32)
    (W2 : S512x128.Idx → Elt Ideal .f32) (B2 : S1x128.Idx → Elt Ideal .f32) (W3 : S128x3.Idx → Elt Ideal .f32)
    (B3 : S1x3.Idx → Elt Ideal .f32) : S262144x3.Idx → Elt Ideal .f32 :=
  fun i => denseRow (K := 128) (M := 3)
    (denseRow (K := 512) (M := 128)
      (denseRow (K := 3) (M := 512) (fun c => H (ix2 (n0 := 262144) (i 0) c)) W1 (fun l => B1 (ix2 (0 : Fin 1) l)))
      W2 (fun l => B2 (ix2 (0 : Fin 1) l)))
    W3 (fun l => B3 (ix2 (0 : Fin 1) l)) (i 1)

/-- The printed index maps over the 128 points: the input and output blocks sit at block row `t`, every parameter
    array at the origin. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- The second kernel's stored value, read at an entry of its block: the three layers of the entry's row. -/
def Pay1 : Prop := ∀ (v0 : Vec Ideal S2048x3 .f32) (v2 : Vec Ideal S3x512 .f32) (v4 : Vec Ideal S1x512 .f32) (v13 : Vec Ideal S512x128 .f32)
    (v15 : Vec Ideal S1x128 .f32) (v24 : Vec Ideal S128x3 .f32) (v26 : Vec Ideal S1x3 .f32) (y : Fin 2048) (j : Fin 3),
    k1_pay1 (F := Ideal) v0 v2 v4 v13 v15 v24 v26 (ix2 y j)
      = denseRow (denseRow (denseRow (fun c => v0 (ix2 y c)) v2 (fun l => v4 (ix2 0 l))) v13 (fun l => v15 (ix2 0 l))) v24 (fun l => v26 (ix2 0 l)) j

section Region
variable (V : (c : Dev nD) → (b : Ref sig .tc) → Buf (Elt Ideal) ((c : Thread nD τ).loc b))

/-- A whole parameter array's block at any point is the array: its index map stays at the origin. -/
theorem whole_block {S : Shape} (X : S.Idx → Elt Ideal .f32) (e : S.Idx → S.Idx) (he : ∀ i a, ((e i) a).val = (i a).val) :
    (fun i => X (e i)) = X :=
  funext fun i => congrArg X (funext fun a => Fin.ext (he i a))

set_option maxHeartbeats 4000000 in
/-- What point `t` writes back is block `t` of `rows1` of the arrays as the region finds them. -/
theorem flushed1_eq (hpay : Pay1) (c : Dev nD) (t : Fin cfg1.N) :
    (dat1 V c).flushed 7 t = ((cfg1.win 7).blk t).view.read (Elt Ideal)
      (rows1 (V c main_v81) (V c main_arg10) (V c main_v82) (V c main_arg12) (V c main_v83) (V c main_arg14) (V c main_v84)) := by
  show (cfg1.win 7).cut (grid1.coords t) ((dat1 V c).after 7 t) = _
  rw [after1_7]
  unfold out1_7
  rw [View.canon_unit_zero origin2]
  simp only [View.ld_unit_zero (S := S2048x3) origin2, View.ld_unit_zero (S := S3x512) origin2, View.ld_unit_zero (S := S1x512) origin2,
    View.ld_unit_zero (S := S512x128) origin2, View.ld_unit_zero (S := S1x128) origin2, View.ld_unit_zero (S := S128x3) origin2,
    View.ld_unit_zero (S := S1x3) origin2]
  obtain ⟨e00, e01, e10, e11, e20, e21, e30, e31, e40, e41, e50, e51, e60, e61, e70, e71⟩ := idx1 t
  funext j
  obtain ⟨y, q, rfl⟩ : ∃ (y : Fin 2048) (q : Fin 3), j = ix2 y q := ⟨j 0, j 1, eq_ix2 j⟩
  show k1_pay1 (iblk1 V c 0 t) (iblk1 V c 1 t) (iblk1 V c 2 t) (iblk1 V c 3 t) (iblk1 V c 4 t) (iblk1 V c 5 t) (iblk1 V c 6 t) (ix2 y q)
    = rows1 (V c main_v81) (V c main_arg10) (V c main_v82) (V c main_arg12) (V c main_v83) (V c main_arg14) (V c main_v84)
        (((cfg1.win 7).blk t).view.emb (ix2 y q))
  refine (hpay (iblk1 V c 0 t) (iblk1 V c 1 t) (iblk1 V c 2 t) (iblk1 V c 3 t) (iblk1 V c 4 t) (iblk1 V c 5 t) (iblk1 V c 6 t) y q).trans ?_
  unfold rows1
  have h1 : iblk1 V c 1 t = V c main_arg10 := by
    show (fun i => V c main_arg10 (((cfg1.win 1).blk t).view.emb i)) = _
    refine whole_block _ _ fun i a => ?_
    match a with
    | ⟨0, _⟩ => show win1_1.index t (0 : Fin 2) * 3 + 1 * (i 0).val = (i 0).val; omega
    | ⟨1, _⟩ => show win1_1.index t (1 : Fin 2) * 512 + 1 * (i 1).val = (i 1).val; omega
  have h2 : iblk1 V c 2 t = V c main_v82 := by
    show (fun i => V c main_v82 (((cfg1.win 2).blk t).view.emb i)) = _
    refine whole_block _ _ fun i a => ?_
    match a with
    | ⟨0, _⟩ => show win1_2.index t (0 : Fin 2) * 1 + 1 * (i 0).val = (i 0).val; omega
    | ⟨1, _⟩ => show win1_2.index t (1 : Fin 2) * 512 + 1 * (i 1).val = (i 1).val; omega
  have h3 : iblk1 V c 3 t = V c main_arg12 := by
    show (fun i => V c main_arg12 (((cfg1.win 3).blk t).view.emb i)) = _
    refine whole_block _ _ fun i a => ?_
    match a with
    | ⟨0, _⟩ => show win1_3.index t (0 : Fin 2) * 512 + 1 * (i 0).val = (i 0).val; omega
    | ⟨1, _⟩ => show win1_3.index t (1 : Fin 2) * 128 + 1 * (i 1).val = (i 1).val; omega
  have h4 : iblk1 V c 4 t = V c main_v83 := by
    show (fun i => V c main_v83 (((cfg1.win 4).blk t).view.emb i)) = _
    refine whole_block _ _ fun i a => ?_
    match a with
    | ⟨0, _⟩ => show win1_4.index t (0 : Fin 2) * 1 + 1 * (i 0).val = (i 0).val; omega
    | ⟨1, _⟩ => show win1_4.index t (1 : Fin 2) * 128 + 1 * (i 1).val = (i 1).val; omega
  have h5 : iblk1 V c 5 t = V c main_arg14 := by
    show (fun i => V c main_arg14 (((cfg1.win 5).blk t).view.emb i)) = _
    refine whole_block _ _ fun i a => ?_
    match a with
    | ⟨0, _⟩ => show win1_5.index t (0 : Fin 2) * 128 + 1 * (i 0).val = (i 0).val; omega
    | ⟨1, _⟩ => show win1_5.index t (1 : Fin 2) * 3 + 1 * (i 1).val = (i 1).val; omega
  have h6 : iblk1 V c 6 t = V c main_v84 := by
    show (fun i => V c main_v84 (((cfg1.win 6).blk t).view.emb i)) = _
    refine whole_block _ _ fun i a => ?_
    match a with
    | ⟨0, _⟩ => show win1_6.index t (0 : Fin 2) * 1 + 1 * (i 0).val = (i 0).val; omega
    | ⟨1, _⟩ => show win1_6.index t (1 : Fin 2) * 3 + 1 * (i 1).val = (i 1).val; omega
  rw [h1, h2, h3, h4, h5, h6]
  refine denseRow_congr (congrArg (fun a => denseRow (denseRow a (V c main_arg10) (fun l => V c main_v82 (ix2 0 l))) (V c main_arg12) (fun l => V c main_v83 (ix2 0 l)))
    (funext fun k => ?_)) rfl rfl ?_
  · show V c main_v81 (((cfg1.win 0).blk t).view.emb (ix2 y k)) = _
    refine congrArg (V c main_v81) (funext fun a => Fin.ext ?_)
    match a with
    | ⟨0, _⟩ => show win1_0.index t (0 : Fin 2) * 2048 + 1 * y.val = win1_7.index t (0 : Fin 2) * 2048 + 1 * y.val; omega
    | ⟨1, _⟩ => show win1_0.index t (1 : Fin 2) * 3 + 1 * k.val = k.val; omega
  · refine Fin.ext ?_
    show q.val = win1_7.index t (1 : Fin 2) * 3 + 1 * q.val
    omega

/-- An index of the output array is in point `t`'s block iff each coordinate is in the block's range on its axis. -/
theorem mem_blk1 (t : Fin cfg1.N) (i : S262144x3.Idx) :
    i ∈ ((cfg1.win 7).blk t).view.set ↔ ∀ a : Fin 2, win1_7.index t a * S2048x3.size a ≤ (i a).val ∧ (i a).val < win1_7.index t a * S2048x3.size a + S2048x3.size a := by
  show i ∈ ((View.whole main_v85).slice (win1_7.rect t)).set ↔ _
  rw [View.set_slice_whole, Rect.mem_set_unit]
  exact Iff.rfl

/-- Every index of the output array is in the block of the point its row falls in. -/
theorem cover1 (i : S262144x3.Idx) : ∃ t : Fin cfg1.N, (cfg1.win 7).flush t = true ∧ i ∈ ((cfg1.win 7).blk t).view.set := by
  have hi0 : (i 0).val < 262144 := (i 0).isLt
  have hi1 : (i 1).val < 3 := (i 1).isLt
  have hN : cfg1.N = 128 := N_1
  obtain ⟨t, ht⟩ : ∃ t : Fin cfg1.N, t.val = (i 0).val / 2048 := ⟨⟨(i 0).val / 2048, by rw [hN]; omega⟩, rfl⟩
  obtain ⟨-, -, -, -, -, -, -, -, -, -, -, -, -, -, e70, e71⟩ := idx1 t
  refine ⟨t, flush1_7 t, ?_⟩
  rw [mem_blk1]
  intro a
  match a with
  | ⟨0, _⟩ => show win1_7.index t (0 : Fin 2) * 2048 ≤ (i 0).val ∧ (i 0).val < win1_7.index t (0 : Fin 2) * 2048 + 2048; omega
  | ⟨1, _⟩ => show win1_7.index t (1 : Fin 2) * 3 ≤ (i 1).val ∧ (i 1).val < win1_7.index t (1 : Fin 2) * 3 + 3; omega

/-- After the region the output array is `rows1` of the arrays the region found. -/
theorem final1 (hpay : Pay1) (c : Dev nD) : (dat1 V c).arrAt 7 cfg1.N
    = rows1 (V c main_v81) (V c main_arg10) (V c main_v82) (V c main_arg12) (V c main_v83) (V c main_arg14) (V c main_v84) :=
  (dat1 V c).arrAt_eq_of_cover 7 _ (fun t _ => flushed1_eq V hpay c t) cover1

end Region

end Cert.KernelIdeal.Hand

end
-- ==== Proof.RefTerm.lean ====
/-
  The reference's computation as three functions of arrays, at the ideal values.

  The reference is a chain: the input transform `refInv` (a matrix product with a bias row and the leaky rectifier),
  the graph part `mid` (self-loops added to the edge list, the in-degree of every node by a scatter-add of ones, the
  symmetric normalisation `d^{-1/2}[src] · d^{-1/2}[dst]`, and three rounds of "multiply by a small matrix, gather the
  rows at the edges' sources, scale, scatter-add into the edges' targets, add a bias"), and the three-layer head
  `refHead`. Each is written with the host operations the reference's text applies, in its order, so that the
  reference's run reads to `refHead (mid (refInv …) …) …` by unfolding alone. The kernel's program applies the
  very same graph part between its two kernels, so `mid` is never opened: only its argument is compared.
-/
import proofs.«121636_j54065048322436_1_alg».proof.Proof.Gen.ReferenceIdeal
import Idealize.ShloMosaic.PureOps.Ideal

noncomputable section

namespace Cert.RefTerm

open Idealize.ShloMosaic Cert.ReferenceIdeal Cert.ReferenceIdeal.Facts₀

/-- The leaky rectifier over a whole array as the reference's outlined function writes it: compare with the
    broadcast zero, multiply by the broadcast slope, choose. -/
def leakyRef (S : Shape) (h : S_.BroadcastsInDim S (![] : Fin 0 → Fin S.rank)) (v : FVec Ideal S .f32) : FVec Ideal S .f32 :=
  select (cmpf .oge v (broadcastInDim S ![] h (constant (F := Ideal) S_ .f32 0x00000000#32))) v
    (mulf (broadcastInDim S ![] h (constant (F := Ideal) S_ .f32 0x3C23D70A#32)) v)

/-- The input transform: `leaky (x · W + b)`, the bias laid along every row. -/
def refInv (x : FVec Ideal S2048x64 .f32) (W : FVec Ideal S64x128 .f32) (b : FVec Ideal S128 .f32) : FVec Ideal S2048x128 .f32 :=
  leakyRef S2048x128 bcast_S_S2048x128
    (addf (Host.dotGeneral (F := Ideal) dot_S2048x64_S64x128_S2048x128_1_0_0_1_n_n none x W)
      (broadcastInDim S2048x128 ![0, 1] bcast_S1x128_S2048x128_0_1 (broadcastInDim S1x128 ![1] bcast_S128_S1x128_1 b)))

/-- A negative index wraps once around the node count (jnp's indexing), then stands as a one-column index table. -/
def rowIdx (idx : IVec S4456448 32) : IVec S4456448x1 32 :=
  broadcastInDim S4456448x1 ![0] bcast_S4456448_S4456448x1_0
    (select (cmpi .slt idx (broadcastInDim S4456448 ![] bcast_S_S4456448 (constantI S_ 32 0#32)))
      (addi idx (broadcastInDim S4456448 ![] bcast_S_S4456448 (constantI S_ 32 262144#32))) idx)

/-- The per-node scalar features: the [2048, 128] array read row-major as 262144 nodes. -/
def nodes (h0 : FVec Ideal S2048x128 .f32) : FVec Ideal S262144x1 .f32 :=
  fun i => shapeCast S262144x1 h0 shapeCasts_S2048x128_S262144x1 i

/-- The edges' sources: row 0 of the edge list, then one self-loop per node. -/
def srcOf (e : IVec S2x4194304 32) : IVec S4456448 32 := concatenate S4456448 0
  [⟨S4194304, fun i => shapeCast S4194304 (extractStridedSlice S1x4194304 ![0, 0] e slices_S2x4194304_S1x4194304_0_0) shapeCasts_S1x4194304_S4194304 i⟩,
   ⟨S262144, iotaInDim S262144 32 0⟩]
  concatenates_S4194304_S262144_S4456448_d0

/-- The edges' targets: row 1 of the edge list, then one self-loop per node. -/
def dstOf (e : IVec S2x4194304 32) : IVec S4456448 32 := concatenate S4456448 0
  [⟨S4194304, fun i => shapeCast S4194304 (extractStridedSlice S1x4194304 ![1, 0] e slices_S2x4194304_S1x4194304_1_0) shapeCasts_S1x4194304_S4194304 i⟩,
   ⟨S262144, iotaInDim S262144 32 0⟩]
  concatenates_S4194304_S262144_S4456448_d0

/-- The symmetric normalisation from given in-degrees, one factor per edge, as a one-column array: the degrees'
    inverse square roots where positive and zero elsewhere, gathered at each edge's source and target and multiplied. -/
def normFrom (deg : FVec Ideal S262144 .f32) (src dst : IVec S4456448 32) : FVec Ideal S4456448x1 .f32 :=
  have dinv : FVec Ideal S262144 .f32 := select
    (cmpf .ogt deg (broadcastInDim S262144 ![] bcast_S_S262144 (constant (F := Ideal) S_ .f32 0x00000000#32)))
    (Host.rsqrt (F := Ideal) deg)
    (broadcastInDim S262144 ![] bcast_S_S262144 (id (constant (F := Ideal) S_ .f32 0x00000000#32)))
  broadcastInDim S4456448x1 ![0] bcast_S4456448_S4456448x1_0
    (mulf (Host.gather gather_S262144_S4456448x1_S4456448_n_0_n_n_0_1_1 dinv (rowIdx src))
      (Host.gather gather_S262144_S4456448x1_S4456448_n_0_n_n_0_1_1 dinv (rowIdx dst)))

/-- The first round: per-node scalars to nine features. -/
def round1 (h : FVec Ideal S262144x1 .f32) (src dst : IVec S4456448 32) (norm : FVec Ideal S4456448x1 .f32)
    (Wc : FVec Ideal S1x9 .f32) (bc : FVec Ideal S9 .f32) : FVec Ideal S262144x9 .f32 :=
  addf
    (Host.scatterAdd (F := Ideal) scatter_S262144x9_S4456448x1_S4456448x9_1_0_0_1
      (broadcastInDim S262144x9 ![] bcast_S_S262144x9 (constant (F := Ideal) S_ .f32 0x00000000#32))
      (broadcastInDim S4456448x1 ![0] bcast_S4456448_S4456448x1_0 dst)
      (mulf (Host.gather gather_S262144x9_S4456448x1_S4456448x9_1_0_n_n_0_1_19
          (Host.dotGeneral (F := Ideal) dot_S262144x1_S1x9_S262144x9_1_0_0_1_n_n none h Wc) (rowIdx src))
        (broadcastInDim S4456448x9 ![0, 1] bcast_S4456448x1_S4456448x9_0_1 norm)))
    (broadcastInDim S262144x9 ![0, 1] bcast_S1x9_S262144x9_0_1 (broadcastInDim S1x9 ![1] bcast_S9_S1x9_1 bc))

/-- The second round: nine features to three. -/
def round2 (g : FVec Ideal S262144x9 .f32) (src dst : IVec S4456448 32) (norm : FVec Ideal S4456448x1 .f32)
    (Wc : FVec Ideal S9x3 .f32) (bc : FVec Ideal S3 .f32) : FVec Ideal S262144x3 .f32 :=
  addf
    (Host.scatterAdd (F := Ideal) scatter_S262144x3_S4456448x1_S4456448x3_1_0_0_1
      (broadcastInDim S262144x3 ![] bcast_S_S262144x3 (constant (F := Ideal) S_ .f32 0x00000000#32))
      (broadcastInDim S4456448x1 ![0] bcast_S4456448_S4456448x1_0 dst)
      (mulf (Host.gather gather_S262144x3_S4456448x1_S4456448x3_1_0_n_n_0_1_13
          (Host.dotGeneral (F := Ideal) dot_S262144x9_S9x3_S262144x3_1_0_0_1_n_n none g Wc) (rowIdx src))
        (broadcastInDim S4456448x3 ![0, 1] bcast_S4456448x1_S4456448x3_0_1 norm)))
    (broadcastInDim S262144x3 ![0, 1] bcast_S1x3_S262144x3_0_1 (broadcastInDim S1x3 ![1] bcast_S3_S1x3_1 bc))

/-- The third round: three features to three. -/
def round3 (g : FVec Ideal S262144x3 .f32) (src dst : IVec S4456448 32) (norm : FVec Ideal S4456448x1 .f32)
    (Wc : FVec Ideal S3x3 .f32) (bc : FVec Ideal S3 .f32) : FVec Ideal S262144x3 .f32 :=
  addf
    (Host.scatterAdd (F := Ideal) scatter_S262144x3_S4456448x1_S4456448x3_1_0_0_1
      (broadcastInDim S262144x3 ![] bcast_S_S262144x3 (constant (F := Ideal) S_ .f32 0x00000000#32))
      (broadcastInDim S4456448x1 ![0] bcast_S4456448_S4456448x1_0 dst)
      (mulf (Host.gather gather_S262144x3_S4456448x1_S4456448x3_1_0_n_n_0_1_13
          (Host.dotGeneral (F := Ideal) dot_S262144x3_S3x3_S262144x3_1_0_0_1_n_n none g Wc) (rowIdx src))
        (broadcastInDim S4456448x3 ![0, 1] bcast_S4456448x1_S4456448x3_0_1 norm)))
    (broadcastInDim S262144x3 ![0, 1] bcast_S1x3_S262144x3_0_1 (broadcastInDim S1x3 ![1] bcast_S3_S1x3_1 bc))

/-- The graph part over given sources and targets: the in-degrees (a scatter-add of ones into the targets), the
    normalisation from them, then the three rounds of "small matrix, gather at the sources, scale, scatter-add into the
    targets, bias". (The in-degrees are written out at each of their three uses.) -/
def graph (h : FVec Ideal S262144x1 .f32) (src dst : IVec S4456448 32) (Wc1 : FVec Ideal S1x9 .f32) (bc1 : FVec Ideal S9 .f32)
    (Wc2 : FVec Ideal S9x3 .f32) (bc2 : FVec Ideal S3 .f32) (Wc3 : FVec Ideal S3x3 .f32) (bc3 : FVec Ideal S3 .f32) :
    FVec Ideal S262144x3 .f32 :=
  round3 (round2 (round1 h src dst
    (normFrom
    (Host.scatterAdd (F := Ideal) scatter_S262144_S4456448x1_S4456448_n_0_0_1
      (broadcastInDim S262144 ![] bcast_S_S262144 (constant (F := Ideal) S_ .f32 0x00000000#32))
      (broadcastInDim S4456448x1 ![0] bcast_S4456448_S4456448x1_0 dst)
      (broadcastInDim S4456448 ![] bcast_S_S4456448 (constant (F := Ideal) S_ .f32 0x3F800000#32)))
    src dst) Wc1 bc1) src dst
    (normFrom
    (Host.scatterAdd (F := Ideal) scatter_S262144_S4456448x1_S4456448_n_0_0_1
      (broadcastInDim S262144 ![] bcast_S_S262144 (constant (F := Ideal) S_ .f32 0x00000000#32))
      (broadcastInDim S4456448x1 ![0] bcast_S4456448_S4456448x1_0 dst)
      (broadcastInDim S4456448 ![] bcast_S_S4456448 (constant (F := Ideal) S_ .f32 0x3F800000#32)))
    src dst) Wc2 bc2) src dst
    (normFrom
    (Host.scatterAdd (F := Ideal) scatter_S262144_S4456448x1_S4456448_n_0_0_1
      (broadcastInDim S262144 ![] bcast_S_S262144 (constant (F := Ideal) S_ .f32 0x00000000#32))
      (broadcastInDim S4456448x1 ![0] bcast_S4456448_S4456448x1_0 dst)
      (broadcastInDim S4456448 ![] bcast_S_S4456448 (constant (F := Ideal) S_ .f32 0x3F800000#32)))
    src dst) Wc3 bc3

/-- The graph part: from the per-node scalar features `h0`, the edge list `e` and the three small layers' parameters,
    the [262144, 3] node features the head reads. -/
def mid (h0 : FVec Ideal S2048x128 .f32) (e : IVec S2x4194304 32) (Wc1 : FVec Ideal S1x9 .f32) (bc1 : FVec Ideal S9 .f32)
    (Wc2 : FVec Ideal S9x3 .f32) (bc2 : FVec Ideal S3 .f32) (Wc3 : FVec Ideal S3x3 .f32) (bc3 : FVec Ideal S3 .f32) :
    FVec Ideal S262144x3 .f32 :=
  graph (nodes h0) (srcOf e) (dstOf e) Wc1 bc1 Wc2 bc2 Wc3 bc3

/-- The head: three dense layers, each `leaky (a · W + b)` with the bias laid along every row. -/
def refHead (h : FVec Ideal S262144x3 .f32) (W1 : FVec Ideal S3x512 .f32) (b1 : FVec Ideal S512 .f32)
    (W2 : FVec Ideal S512x128 .f32) (b2 : FVec Ideal S128 .f32) (W3 : FVec Ideal S128x3 .f32) (b3 : FVec Ideal S3 .f32) :
    FVec Ideal S262144x3 .f32 :=
  have a1 : FVec Ideal S262144x512 .f32 := leakyRef S262144x512 bcast_S_S262144x512
    (addf (Host.dotGeneral (F := Ideal) dot_S262144x3_S3x512_S262144x512_1_0_0_1_n_n none h W1)
      (broadcastInDim S262144x512 ![0, 1] bcast_S1x512_S262144x512_0_1 (broadcastInDim S1x512 ![1] bcast_S512_S1x512_1 b1)))
  have a2 : FVec Ideal S262144x128 .f32 := leakyRef S262144x128 bcast_S_S262144x128
    (addf (Host.dotGeneral (F := Ideal) dot_S262144x512_S512x128_S262144x128_1_0_0_1_n_n none a1 W2)
      (broadcastInDim S262144x128 ![0, 1] bcast_S1x128_S262144x128_0_1 (broadcastInDim S1x128 ![1] bcast_S128_S1x128_1 b2)))
  leakyRef S262144x3 bcast_S_S262144x3
    (addf (Host.dotGeneral (F := Ideal) dot_S262144x128_S128x3_S262144x3_1_0_0_1_n_n none a2 W3)
      (broadcastInDim S262144x3 ![0, 1] bcast_S1x3_S262144x3_0_1 (broadcastInDim S1x3 ![1] bcast_S3_S1x3_1 b3)))

/-- The whole computation, of the sixteen argument arrays in the programs' order: the head of the graph part of the
    input transform. -/
def whole (a0 : FVec Ideal S2048x64 .f32) (a1 : IVec S2x4194304 32) (a2 : FVec Ideal S64x128 .f32) (a3 : FVec Ideal S128 .f32)
    (a4 : FVec Ideal S1x9 .f32) (a5 : FVec Ideal S9 .f32) (a6 : FVec Ideal S9x3 .f32) (a7 : FVec Ideal S3 .f32)
    (a8 : FVec Ideal S3x3 .f32) (a9 : FVec Ideal S3 .f32) (a10 : FVec Ideal S3x512 .f32) (a11 : FVec Ideal S512 .f32)
    (a12 : FVec Ideal S512x128 .f32) (a13 : FVec Ideal S128 .f32) (a14 : FVec Ideal S128x3 .f32) (a15 : FVec Ideal S3 .f32) :
    FVec Ideal S262144x3 .f32 :=
  refHead (mid (refInv a0 a2 a3) a1 a4 a5 a6 a7 a8 a9) a10 a11 a12 a13 a14 a15

end Cert.RefTerm

end
-- ==== Proof.KernelOps.lean ====
/- (the operations are the generated launch module's own, in its order): a table read off Proof/Gen/KernelIdeal/Launch.lean. -/
import proofs.«121636_j54065048322436_1_alg».proof.Proof.Gen.KernelIdeal.Launch

set_option maxRecDepth 4096

noncomputable section

namespace Cert.KernelIdeal.Hand

open Cert.KernelIdeal Cert.KernelIdeal.Gen Idealize.ShloMosaic Idealize.ShloMosaic.TcCoe Idealize.SL.Sem

variable {F : FTy → Type} [FloatOps F]

set_option maxHeartbeats 40000000 in
/-- The second host line's opening: the cast to per-node features, the self-loops' iota, the two rows of the edge list sliced, cast and concatenated with the self-loops (8 operations, the last writing main_v9). -/
abbrev hostOps1a : List (HloOp τ sig (Elt F)) :=
  ( StableHlo.reshape main_v1 main_v2 rfl shapeCasts_S2048x128_S262144x1
  :: StableHlo.nullary main_v3 (iotaInDim S262144 32 0)
  :: StableHlo.unary main_arg1 main_v4 ((extractStridedSlice S1x4194304 ![0, 0] · slices_S2x4194304_S1x4194304_0_0) : (⟨S2x4194304, .i32⟩ : BufTy).Contents (Elt F) → (⟨S1x4194304, .i32⟩ : BufTy).Contents (Elt F))
  :: StableHlo.reshape main_v4 main_v5 rfl shapeCasts_S1x4194304_S4194304
  :: StableHlo.binary main_v5 main_v3 main_v6 ((fun a b => concatenate S4456448 0 [⟨S4194304, a⟩, ⟨S262144, b⟩] concatenates_S4194304_S262144_S4456448_d0) : (⟨S4194304, .i32⟩ : BufTy).Contents (Elt F) → (⟨S262144, .i32⟩ : BufTy).Contents (Elt F) → (⟨S4456448, .i32⟩ : BufTy).Contents (Elt F))
  :: StableHlo.unary main_arg1 main_v7 ((extractStridedSlice S1x4194304 ![1, 0] · slices_S2x4194304_S1x4194304_1_0) : (⟨S2x4194304, .i32⟩ : BufTy).Contents (Elt F) → (⟨S1x4194304, .i32⟩ : BufTy).Contents (Elt F))
  :: StableHlo.reshape main_v7 main_v8 rfl shapeCasts_S1x4194304_S4194304
  :: StableHlo.binary main_v8 main_v3 main_v9 ((fun a b => concatenate S4456448 0 [⟨S4194304, a⟩, ⟨S262144, b⟩] concatenates_S4194304_S262144_S4456448_d0) : (⟨S4194304, .i32⟩ : BufTy).Contents (Elt F) → (⟨S262144, .i32⟩ : BufTy).Contents (Elt F) → (⟨S4456448, .i32⟩ : BufTy).Contents (Elt F))
  :: [] )

/-- The buffers hostOps1a writes. -/
abbrev wr_hostOps1a : List (Ref sig .tc) := [main_v2, main_v3, main_v4, main_v5, main_v6, main_v7, main_v8, main_v9]

set_option maxHeartbeats 40000000 in
/-- The in-degrees: a scatter-add of ones into the targets (6 operations, the last writing main_v13). -/
abbrev hostOps1b : List (HloOp τ sig (Elt F)) :=
  ( StableHlo.nullary main_cst (constant S_ .f32 0x3F800000#32)
  :: StableHlo.unary main_cst main_v10 (broadcastInDim S4456448 ![] bcast_S_S4456448 : (⟨S_, .f32⟩ : BufTy).Contents (Elt F) → (⟨S4456448, .f32⟩ : BufTy).Contents (Elt F))
  :: StableHlo.nullary main_cst_0 (constant S_ .f32 0x00000000#32)
  :: StableHlo.unary main_cst_0 main_v11 (broadcastInDim S262144 ![] bcast_S_S262144 : (⟨S_, .f32⟩ : BufTy).Contents (Elt F) → (⟨S262144, .f32⟩ : BufTy).Contents (Elt F))
  :: StableHlo.unary main_v9 main_v12 (broadcastInDim S4456448x1 ![0] bcast_S4456448_S4456448x1_0 : (⟨S4456448, .i32⟩ : BufTy).Contents (Elt F) → (⟨S4456448x1, .i32⟩ : BufTy).Contents (Elt F))
  :: StableHlo.ternary main_v11 main_v12 main_v10 main_v13 ((fun x i u => Host.scatterAdd scatter_S262144_S4456448x1_S4456448_n_0_0_1 x i u) : (⟨S262144, .f32⟩ : BufTy).Contents (Elt F) → (⟨S4456448x1, .i32⟩ : BufTy).Contents (Elt F) → (⟨S4456448, .f32⟩ : BufTy).Contents (Elt F) → (⟨S262144, .f32⟩ : BufTy).Contents (Elt F))
  :: [] )

/-- The buffers hostOps1b writes. -/
abbrev wr_hostOps1b : List (Ref sig .tc) := [main_cst, main_v10, main_cst_0, main_v11, main_v12, main_v13]

set_option maxHeartbeats 40000000 in
/-- The second host line's rest: the comparison with zero and the inverse square roots (5 operations, the last writing main_cst_2). -/
abbrev hostOps1c : List (HloOp τ sig (Elt F)) :=
  ( StableHlo.nullary main_cst_1 (constant S_ .f32 0x00000000#32)
  :: StableHlo.unary main_cst_1 main_v14 (broadcastInDim S262144 ![] bcast_S_S262144 : (⟨S_, .f32⟩ : BufTy).Contents (Elt F) → (⟨S262144, .f32⟩ : BufTy).Contents (Elt F))
  :: StableHlo.binary main_v13 main_v14 main_v15 (cmpf .ogt : (⟨S262144, .f32⟩ : BufTy).Contents (Elt F) → (⟨S262144, .f32⟩ : BufTy).Contents (Elt F) → (⟨S262144, .i1⟩ : BufTy).Contents (Elt F))
  :: StableHlo.unary main_v13 main_v16 (Host.rsqrt : (⟨S262144, .f32⟩ : BufTy).Contents (Elt F) → (⟨S262144, .f32⟩ : BufTy).Contents (Elt F))
  :: StableHlo.nullary main_cst_2 (constant S_ .f32 0x00000000#32)
  :: [] )

/-- The buffers hostOps1c writes. -/
abbrev wr_hostOps1c : List (Ref sig .tc) := [main_cst_1, main_v14, main_v15, main_v16, main_cst_2]

/-- The buffers the outlined `where` writes. -/
abbrev wr_hostOps1_1 : List (Ref sig .tc) := [main_call0_v0, main_call0_v1, main_v17]

set_option maxHeartbeats 40000000 in
/-- The fourth host line up to the normalisation (20 operations, the last writing main_v33). -/
abbrev hostOps2a : List (HloOp τ sig (Elt F)) :=
  ( StableHlo.nullary main_c (constantI S_ 32 0#32)
  :: StableHlo.unary main_c main_v18 (broadcastInDim S4456448 ![] bcast_S_S4456448 : (⟨S_, .i32⟩ : BufTy).Contents (Elt F) → (⟨S4456448, .i32⟩ : BufTy).Contents (Elt F))
  :: StableHlo.binary main_v6 main_v18 main_v19 (cmpi .slt : (⟨S4456448, .i32⟩ : BufTy).Contents (Elt F) → (⟨S4456448, .i32⟩ : BufTy).Contents (Elt F) → (⟨S4456448, .i1⟩ : BufTy).Contents (Elt F))
  :: StableHlo.nullary main_c_3 (constantI S_ 32 262144#32)
  :: StableHlo.unary main_c_3 main_v20 (broadcastInDim S4456448 ![] bcast_S_S4456448 : (⟨S_, .i32⟩ : BufTy).Contents (Elt F) → (⟨S4456448, .i32⟩ : BufTy).Contents (Elt F))
  :: StableHlo.binary main_v6 main_v20 main_v21 (addi : (⟨S4456448, .i32⟩ : BufTy).Contents (Elt F) → (⟨S4456448, .i32⟩ : BufTy).Contents (Elt F) → (⟨S4456448, .i32⟩ : BufTy).Contents (Elt F))
  :: StableHlo.ternary main_v19 main_v21 main_v6 main_v22 (select : (⟨S4456448, .i1⟩ : BufTy).Contents (Elt F) → (⟨S4456448, .i32⟩ : BufTy).Contents (Elt F) → (⟨S4456448, .i32⟩ : BufTy).Contents (Elt F) → (⟨S4456448, .i32⟩ : BufTy).Contents (Elt F))
  :: StableHlo.unary main_v22 main_v23 (broadcastInDim S4456448x1 ![0] bcast_S4456448_S4456448x1_0 : (⟨S4456448, .i32⟩ : BufTy).Contents (Elt F) → (⟨S4456448x1, .i32⟩ : BufTy).Contents (Elt F))
  :: StableHlo.binary main_v17 main_v23 main_v24 ((fun x i => Host.gather gather_S262144_S4456448x1_S4456448_n_0_n_n_0_1_1 x i) : (⟨S262144, .f32⟩ : BufTy).Contents (Elt F) → (⟨S4456448x1, .i32⟩ : BufTy).Contents (Elt F) → (⟨S4456448, .f32⟩ : BufTy).Contents (Elt F))
  :: StableHlo.nullary main_c_4 (constantI S_ 32 0#32)
  :: StableHlo.unary main_c_4 main_v25 (broadcastInDim S4456448 ![] bcast_S_S4456448 : (⟨S_, .i32⟩ : BufTy).Contents (Elt F) → (⟨S4456448, .i32⟩ : BufTy).Contents (Elt F))
  :: StableHlo.binary main_v9 main_v25 main_v26 (cmpi .slt : (⟨S4456448, .i32⟩ : BufTy).Contents (Elt F) → (⟨S4456448, .i32⟩ : BufTy).Contents (Elt F) → (⟨S4456448, .i1⟩ : BufTy).Contents (Elt F))
  :: StableHlo.nullary main_c_5 (constantI S_ 32 262144#32)
  :: StableHlo.unary main_c_5 main_v27 (broadcastInDim S4456448 ![] bcast_S_S4456448 : (⟨S_, .i32⟩ : BufTy).Contents (Elt F) → (⟨S4456448, .i32⟩ : BufTy).Contents (Elt F))
  :: StableHlo.binary main_v9 main_v27 main_v28 (addi : (⟨S4456448, .i32⟩ : BufTy).Contents (Elt F) → (⟨S4456448, .i32⟩ : BufTy).Contents (Elt F) → (⟨S4456448, .i32⟩ : BufTy).Contents (Elt F))
  :: StableHlo.ternary main_v26 main_v28 main_v9 main_v29 (select : (⟨S4456448, .i1⟩ : BufTy).Contents (Elt F) → (⟨S4456448, .i32⟩ : BufTy).Contents (Elt F) → (⟨S4456448, .i32⟩ : BufTy).Contents (Elt F) → (⟨S4456448, .i32⟩ : BufTy).Contents (Elt F))
  :: StableHlo.unary main_v29 main_v30 (broadcastInDim S4456448x1 ![0] bcast_S4456448_S4456448x1_0 : (⟨S4456448, .i32⟩ : BufTy).Contents (Elt F) → (⟨S4456448x1, .i32⟩ : BufTy).Contents (Elt F))
  :: StableHlo.binary main_v17 main_v30 main_v31 ((fun x i => Host.gather gather_S262144_S4456448x1_S4456448_n_0_n_n_0_1_1 x i) : (⟨S262144, .f32⟩ : BufTy).Contents (Elt F) → (⟨S4456448x1, .i32⟩ : BufTy).Contents (Elt F) → (⟨S4456448, .f32⟩ : BufTy).Contents (Elt F))
  :: StableHlo.binary main_v24 main_v31 main_v32 (mulf : (⟨S4456448, .f32⟩ : BufTy).Contents (Elt F) → (⟨S4456448, .f32⟩ : BufTy).Contents (Elt F) → (⟨S4456448, .f32⟩ : BufTy).Contents (Elt F))
  :: StableHlo.unary main_v32 main_v33 (broadcastInDim S4456448x1 ![0] bcast_S4456448_S4456448x1_0 : (⟨S4456448, .f32⟩ : BufTy).Contents (Elt F) → (⟨S4456448x1, .f32⟩ : BufTy).Contents (Elt F))
  :: [] )

/-- The buffers hostOps2a writes. -/
abbrev wr_hostOps2a : List (Ref sig .tc) := [main_c, main_v18, main_v19, main_c_3, main_v20, main_v21, main_v22, main_v23, main_v24, main_c_4, main_v25, main_v26, main_c_5, main_v27, main_v28, main_v29, main_v30, main_v31, main_v32, main_v33]

set_option maxHeartbeats 40000000 in
/-- The first round (19 operations, the last writing main_v49). -/
abbrev hostOps2b : List (HloOp τ sig (Elt F)) :=
  ( StableHlo.binary main_v2 main_arg4 main_v34 ((fun l r => Host.dotGeneral dot_S262144x1_S1x9_S262144x9_1_0_0_1_n_n none l r) : (⟨S262144x1, .f32⟩ : BufTy).Contents (Elt F) → (⟨S1x9, .f32⟩ : BufTy).Contents (Elt F) → (⟨S262144x9, .f32⟩ : BufTy).Contents (Elt F))
  :: StableHlo.nullary main_c_6 (constantI S_ 32 0#32)
  :: StableHlo.unary main_c_6 main_v35 (broadcastInDim S4456448 ![] bcast_S_S4456448 : (⟨S_, .i32⟩ : BufTy).Contents (Elt F) → (⟨S4456448, .i32⟩ : BufTy).Contents (Elt F))
  :: StableHlo.binary main_v6 main_v35 main_v36 (cmpi .slt : (⟨S4456448, .i32⟩ : BufTy).Contents (Elt F) → (⟨S4456448, .i32⟩ : BufTy).Contents (Elt F) → (⟨S4456448, .i1⟩ : BufTy).Contents (Elt F))
  :: StableHlo.nullary main_c_7 (constantI S_ 32 262144#32)
  :: StableHlo.unary main_c_7 main_v37 (broadcastInDim S4456448 ![] bcast_S_S4456448 : (⟨S_, .i32⟩ : BufTy).Contents (Elt F) → (⟨S4456448, .i32⟩ : BufTy).Contents (Elt F))
  :: StableHlo.binary main_v6 main_v37 main_v38 (addi : (⟨S4456448, .i32⟩ : BufTy).Contents (Elt F) → (⟨S4456448, .i32⟩ : BufTy).Contents (Elt F) → (⟨S4456448, .i32⟩ : BufTy).Contents (Elt F))
  :: StableHlo.ternary main_v36 main_v38 main_v6 main_v39 (select : (⟨S4456448, .i1⟩ : BufTy).Contents (Elt F) → (⟨S4456448, .i32⟩ : BufTy).Contents (Elt F) → (⟨S4456448, .i32⟩ : BufTy).Contents (Elt F) → (⟨S4456448, .i32⟩ : BufTy).Contents (Elt F))
  :: StableHlo.unary main_v39 main_v40 (broadcastInDim S4456448x1 ![0] bcast_S4456448_S4456448x1_0 : (⟨S4456448, .i32⟩ : BufTy).Contents (Elt F) → (⟨S4456448x1, .i32⟩ : BufTy).Contents (Elt F))
  :: StableHlo.binary main_v34 main_v40 main_v41 ((fun x i => Host.gather gather_S262144x9_S4456448x1_S4456448x9_1_0_n_n_0_1_19 x i) : (⟨S262144x9, .f32⟩ : BufTy).Contents (Elt F) → (⟨S4456448x1, .i32⟩ : BufTy).Contents (Elt F) → (⟨S4456448x9, .f32⟩ : BufTy).Contents (Elt F))
  :: StableHlo.unary main_v33 main_v42 (broadcastInDim S4456448x9 ![0, 1] bcast_S4456448x1_S4456448x9_0_1 : (⟨S4456448x1, .f32⟩ : BufTy).Contents (Elt F) → (⟨S4456448x9, .f32⟩ : BufTy).Contents (Elt F))
  :: StableHlo.binary main_v41 main_v42 main_v43 (mulf : (⟨S4456448x9, .f32⟩ : BufTy).Contents (Elt F) → (⟨S4456448x9, .f32⟩ : BufTy).Contents (Elt F) → (⟨S4456448x9, .f32⟩ : BufTy).Contents (Elt F))
  :: StableHlo.nullary main_cst_8 (constant S_ .f32 0x00000000#32)
  :: StableHlo.unary main_cst_8 main_v44 (broadcastInDim S262144x9 ![] bcast_S_S262144x9 : (⟨S_, .f32⟩ : BufTy).Contents (Elt F) → (⟨S262144x9, .f32⟩ : BufTy).Contents (Elt F))
  :: StableHlo.unary main_v9 main_v45 (broadcastInDim S4456448x1 ![0] bcast_S4456448_S4456448x1_0 : (⟨S4456448, .i32⟩ : BufTy).Contents (Elt F) → (⟨S4456448x1, .i32⟩ : BufTy).Contents (Elt F))
  :: StableHlo.ternary main_v44 main_v45 main_v43 main_v46 ((fun x i u => Host.scatterAdd scatter_S262144x9_S4456448x1_S4456448x9_1_0_0_1 x i u) : (⟨S262144x9, .f32⟩ : BufTy).Contents (Elt F) → (⟨S4456448x1, .i32⟩ : BufTy).Contents (Elt F) → (⟨S4456448x9, .f32⟩ : BufTy).Contents (Elt F) → (⟨S262144x9, .f32⟩ : BufTy).Contents (Elt F))
  :: StableHlo.unary main_arg5 main_v47 (broadcastInDim S1x9 ![1] bcast_S9_S1x9_1 : (⟨S9, .f32⟩ : BufTy).Contents (Elt F) → (⟨S1x9, .f32⟩ : BufTy).Contents (Elt F))
  :: StableHlo.unary main_v47 main_v48 (broadcastInDim S262144x9 ![0, 1] bcast_S1x9_S262144x9_0_1 : (⟨S1x9, .f32⟩ : BufTy).Contents (Elt F) → (⟨S262144x9, .f32⟩ : BufTy).Contents (Elt F))
  :: StableHlo.binary main_v46 main_v48 main_v49 (addf : (⟨S262144x9, .f32⟩ : BufTy).Contents (Elt F) → (⟨S262144x9, .f32⟩ : BufTy).Contents (Elt F) → (⟨S262144x9, .f32⟩ : BufTy).Contents (Elt F))
  :: [] )

/-- The buffers hostOps2b writes. -/
abbrev wr_hostOps2b : List (Ref sig .tc) := [main_v34, main_c_6, main_v35, main_v36, main_c_7, main_v37, main_v38, main_v39, main_v40, main_v41, main_v42, main_v43, main_cst_8, main_v44, main_v45, main_v46, main_v47, main_v48, main_v49]

set_option maxHeartbeats 40000000 in
/-- The second round (19 operations, the last writing main_v65). -/
abbrev hostOps2c : List (HloOp τ sig (Elt F)) :=
  ( StableHlo.binary main_v49 main_arg6 main_v50 ((fun l r => Host.dotGeneral dot_S262144x9_S9x3_S262144x3_1_0_0_1_n_n none l r) : (⟨S262144x9, .f32⟩ : BufTy).Contents (Elt F) → (⟨S9x3, .f32⟩ : BufTy).Contents (Elt F) → (⟨S262144x3, .f32⟩ : BufTy).Contents (Elt F))
  :: StableHlo.nullary main_c_9 (constantI S_ 32 0#32)
  :: StableHlo.unary main_c_9 main_v51 (broadcastInDim S4456448 ![] bcast_S_S4456448 : (⟨S_, .i32⟩ : BufTy).Contents (Elt F) → (⟨S4456448, .i32⟩ : BufTy).Contents (Elt F))
  :: StableHlo.binary main_v6 main_v51 main_v52 (cmpi .slt : (⟨S4456448, .i32⟩ : BufTy).Contents (Elt F) → (⟨S4456448, .i32⟩ : BufTy).Contents (Elt F) → (⟨S4456448, .i1⟩ : BufTy).Contents (Elt F))
  :: StableHlo.nullary main_c_10 (constantI S_ 32 262144#32)
  :: StableHlo.unary main_c_10 main_v53 (broadcastInDim S4456448 ![] bcast_S_S4456448 : (⟨S_, .i32⟩ : BufTy).Contents (Elt F) → (⟨S4456448, .i32⟩ : BufTy).Contents (Elt F))
  :: StableHlo.binary main_v6 main_v53 main_v54 (addi : (⟨S4456448, .i32⟩ : BufTy).Contents (Elt F) → (⟨S4456448, .i32⟩ : BufTy).Contents (Elt F) → (⟨S4456448, .i32⟩ : BufTy).Contents (Elt F))
  :: StableHlo.ternary main_v52 main_v54 main_v6 main_v55 (select : (⟨S4456448, .i1⟩ : BufTy).Contents (Elt F) → (⟨S4456448, .i32⟩ : BufTy).Contents (Elt F) → (⟨S4456448, .i32⟩ : BufTy).Contents (Elt F) → (⟨S4456448, .i32⟩ : BufTy).Contents (Elt F))
  :: StableHlo.unary main_v55 main_v56 (broadcastInDim S4456448x1 ![0] bcast_S4456448_S4456448x1_0 : (⟨S4456448, .i32⟩ : BufTy).Contents (Elt F) → (⟨S4456448x1, .i32⟩ : BufTy).Contents (Elt F))
  :: StableHlo.binary main_v50 main_v56 main_v57 ((fun x i => Host.gather gather_S262144x3_S4456448x1_S4456448x3_1_0_n_n_0_1_13 x i) : (⟨S262144x3, .f32⟩ : BufTy).Contents (Elt F) → (⟨S4456448x1, .i32⟩ : BufTy).Contents (Elt F) → (⟨S4456448x3, .f32⟩ : BufTy).Contents (Elt F))
  :: StableHlo.unary main_v33 main_v58 (broadcastInDim S4456448x3 ![0, 1] bcast_S4456448x1_S4456448x3_0_1 : (⟨S4456448x1, .f32⟩ : BufTy).Contents (Elt F) → (⟨S4456448x3, .f32⟩ : BufTy).Contents (Elt F))
  :: StableHlo.binary main_v57 main_v58 main_v59 (mulf : (⟨S4456448x3, .f32⟩ : BufTy).Contents (Elt F) → (⟨S4456448x3, .f32⟩ : BufTy).Contents (Elt F) → (⟨S4456448x3, .f32⟩ : BufTy).Contents (Elt F))
  :: StableHlo.nullary main_cst_11 (constant S_ .f32 0x00000000#32)
  :: StableHlo.unary main_cst_11 main_v60 (broadcastInDim S262144x3 ![] bcast_S_S262144x3 : (⟨S_, .f32⟩ : BufTy).Contents (Elt F) → (⟨S262144x3, .f32⟩ : BufTy).Contents (Elt F))
  :: StableHlo.unary main_v9 main_v61 (broadcastInDim S4456448x1 ![0] bcast_S4456448_S4456448x1_0 : (⟨S4456448, .i32⟩ : BufTy).Contents (Elt F) → (⟨S4456448x1, .i32⟩ : BufTy).Contents (Elt F))
  :: StableHlo.ternary main_v60 main_v61 main_v59 main_v62 ((fun x i u => Host.scatterAdd scatter_S262144x3_S4456448x1_S4456448x3_1_0_0_1 x i u) : (⟨S262144x3, .f32⟩ : BufTy).Contents (Elt F) → (⟨S4456448x1, .i32⟩ : BufTy).Contents (Elt F) → (⟨S4456448x3, .f32⟩ : BufTy).Contents (Elt F) → (⟨S262144x3, .f32⟩ : BufTy).Contents (Elt F))
  :: StableHlo.unary main_arg7 main_v63 (broadcastInDim S1x3 ![1] bcast_S3_S1x3_1 : (⟨S3, .f32⟩ : BufTy).Contents (Elt F) → (⟨S1x3, .f32⟩ : BufTy).Contents (Elt F))
  :: StableHlo.unary main_v63 main_v64 (broadcastInDim S262144x3 ![0, 1] bcast_S1x3_S262144x3_0_1 : (⟨S1x3, .f32⟩ : BufTy).Contents (Elt F) → (⟨S262144x3, .f32⟩ : BufTy).Contents (Elt F))
  :: StableHlo.binary main_v62 main_v64 main_v65 (addf : (⟨S262144x3, .f32⟩ : BufTy).Contents (Elt F) → (⟨S262144x3, .f32⟩ : BufTy).Contents (Elt F) → (⟨S262144x3, .f32⟩ : BufTy).Contents (Elt F))
  :: [] )

/-- The buffers hostOps2c writes. -/
abbrev wr_hostOps2c : List (Ref sig .tc) := [main_v50, main_c_9, main_v51, main_v52, main_c_10, main_v53, main_v54, main_v55, main_v56, main_v57, main_v58, main_v59, main_cst_11, main_v60, main_v61, main_v62, main_v63, main_v64, main_v65]

set_option maxHeartbeats 40000000 in
/-- The third round (19 operations, the last writing main_v81). -/
abbrev hostOps2d : List (HloOp τ sig (Elt F)) :=
  ( StableHlo.binary main_v65 main_arg8 main_v66 ((fun l r => Host.dotGeneral dot_S262144x3_S3x3_S262144x3_1_0_0_1_n_n none l r) : (⟨S262144x3, .f32⟩ : BufTy).Contents (Elt F) → (⟨S3x3, .f32⟩ : BufTy).Contents (Elt F) → (⟨S262144x3, .f32⟩ : BufTy).Contents (Elt F))
  :: StableHlo.nullary main_c_12 (constantI S_ 32 0#32)
  :: StableHlo.unary main_c_12 main_v67 (broadcastInDim S4456448 ![] bcast_S_S4456448 : (⟨S_, .i32⟩ : BufTy).Contents (Elt F) → (⟨S4456448, .i32⟩ : BufTy).Contents (Elt F))
  :: StableHlo.binary main_v6 main_v67 main_v68 (cmpi .slt : (⟨S4456448, .i32⟩ : BufTy).Contents (Elt F) → (⟨S4456448, .i32⟩ : BufTy).Contents (Elt F) → (⟨S4456448, .i1⟩ : BufTy).Contents (Elt F))
  :: StableHlo.nullary main_c_13 (constantI S_ 32 262144#32)
  :: StableHlo.unary main_c_13 main_v69 (broadcastInDim S4456448 ![] bcast_S_S4456448 : (⟨S_, .i32⟩ : BufTy).Contents (Elt F) → (⟨S4456448, .i32⟩ : BufTy).Contents (Elt F))
  :: StableHlo.binary main_v6 main_v69 main_v70 (addi : (⟨S4456448, .i32⟩ : BufTy).Contents (Elt F) → (⟨S4456448, .i32⟩ : BufTy).Contents (Elt F) → (⟨S4456448, .i32⟩ : BufTy).Contents (Elt F))
  :: StableHlo.ternary main_v68 main_v70 main_v6 main_v71 (select : (⟨S4456448, .i1⟩ : BufTy).Contents (Elt F) → (⟨S4456448, .i32⟩ : BufTy).Contents (Elt F) → (⟨S4456448, .i32⟩ : BufTy).Contents (Elt F) → (⟨S4456448, .i32⟩ : BufTy).Contents (Elt F))
  :: StableHlo.unary main_v71 main_v72 (broadcastInDim S4456448x1 ![0] bcast_S4456448_S4456448x1_0 : (⟨S4456448, .i32⟩ : BufTy).Contents (Elt F) → (⟨S4456448x1, .i32⟩ : BufTy).Contents (Elt F))
  :: StableHlo.binary main_v66 main_v72 main_v73 ((fun x i => Host.gather gather_S262144x3_S4456448x1_S4456448x3_1_0_n_n_0_1_13 x i) : (⟨S262144x3, .f32⟩ : BufTy).Contents (Elt F) → (⟨S4456448x1, .i32⟩ : BufTy).Contents (Elt F) → (⟨S4456448x3, .f32⟩ : BufTy).Contents (Elt F))
  :: StableHlo.unary main_v33 main_v74 (broadcastInDim S4456448x3 ![0, 1] bcast_S4456448x1_S4456448x3_0_1 : (⟨S4456448x1, .f32⟩ : BufTy).Contents (Elt F) → (⟨S4456448x3, .f32⟩ : BufTy).Contents (Elt F))
  :: StableHlo.binary main_v73 main_v74 main_v75 (mulf : (⟨S4456448x3, .f32⟩ : BufTy).Contents (Elt F) → (⟨S4456448x3, .f32⟩ : BufTy).Contents (Elt F) → (⟨S4456448x3, .f32⟩ : BufTy).Contents (Elt F))
  :: StableHlo.nullary main_cst_14 (constant S_ .f32 0x00000000#32)
  :: StableHlo.unary main_cst_14 main_v76 (broadcastInDim S262144x3 ![] bcast_S_S262144x3 : (⟨S_, .f32⟩ : BufTy).Contents (Elt F) → (⟨S262144x3, .f32⟩ : BufTy).Contents (Elt F))
  :: StableHlo.unary main_v9 main_v77 (broadcastInDim S4456448x1 ![0] bcast_S4456448_S4456448x1_0 : (⟨S4456448, .i32⟩ : BufTy).Contents (Elt F) → (⟨S4456448x1, .i32⟩ : BufTy).Contents (Elt F))
  :: StableHlo.ternary main_v76 main_v77 main_v75 main_v78 ((fun x i u => Host.scatterAdd scatter_S262144x3_S4456448x1_S4456448x3_1_0_0_1 x i u) : (⟨S262144x3, .f32⟩ : BufTy).Contents (Elt F) → (⟨S4456448x1, .i32⟩ : BufTy).Contents (Elt F) → (⟨S4456448x3, .f32⟩ : BufTy).Contents (Elt F) → (⟨S262144x3, .f32⟩ : BufTy).Contents (Elt F))
  :: StableHlo.unary main_arg9 main_v79 (broadcastInDim S1x3 ![1] bcast_S3_S1x3_1 : (⟨S3, .f32⟩ : BufTy).Contents (Elt F) → (⟨S1x3, .f32⟩ : BufTy).Contents (Elt F))
  :: StableHlo.unary main_v79 main_v80 (broadcastInDim S262144x3 ![0, 1] bcast_S1x3_S262144x3_0_1 : (⟨S1x3, .f32⟩ : BufTy).Contents (Elt F) → (⟨S262144x3, .f32⟩ : BufTy).Contents (Elt F))
  :: StableHlo.binary main_v78 main_v80 main_v81 (addf : (⟨S262144x3, .f32⟩ : BufTy).Contents (Elt F) → (⟨S262144x3, .f32⟩ : BufTy).Contents (Elt F) → (⟨S262144x3, .f32⟩ : BufTy).Contents (Elt F))
  :: [] )

/-- The buffers hostOps2d writes. -/
abbrev wr_hostOps2d : List (Ref sig .tc) := [main_v66, main_c_12, main_v67, main_v68, main_c_13, main_v69, main_v70, main_v71, main_v72, main_v73, main_v74, main_v75, main_cst_14, main_v76, main_v77, main_v78, main_v79, main_v80, main_v81]

set_option maxHeartbeats 40000000 in
/-- The head's three bias vectors cast to one-row matrices (3 operations, the last writing main_v84). -/
abbrev hostOps2e : List (HloOp τ sig (Elt F)) :=
  ( StableHlo.reshape main_arg11 main_v82 rfl shapeCasts_S512_S1x512
  :: StableHlo.reshape main_arg13 main_v83 rfl shapeCasts_S128_S1x128
  :: StableHlo.reshape main_arg15 main_v84 rfl shapeCasts_S3_S1x3
  :: [] )

/-- The buffers hostOps2e writes. -/
abbrev wr_hostOps2e : List (Ref sig .tc) := [main_v82, main_v83, main_v84]

theorem hostOps1_split : (hostOps1 : List (HloOp τ sig (Elt F))) = hostOps1a ++ (hostOps1b ++ hostOps1c) := rfl

set_option maxHeartbeats 40000000 in
theorem hostOps1_2_split : (hostOps1_2 : List (HloOp τ sig (Elt F))) = hostOps2a ++ (hostOps2b ++ (hostOps2c ++ (hostOps2d ++ hostOps2e))) := rfl

end Cert.KernelIdeal.Hand

end
-- ==== Proof.KernelChain.lean ====
/-
  The idealized kernel's result array as a function of the launch memory.

  Boundary by boundary: the first host line casts the bias vector to a one-row matrix; the first region leaves in
  its output array the dense layer of every row of `x` (`rows0`), which index by index is the reference's input
  transform; the three host lines between the regions apply the graph part — the same host operations, in the same
  order, as the reference's — to that array and cast the head's three bias vectors to one-row matrices; the second
  region leaves in the result array the three layers of every row (`rows1`), which index by index is the
  reference's head. A one-row cast of a bias vector, read at `(0, l)`, is the vector at `l`.
-/
import proofs.«121636_j54065048322436_1_alg».proof.Proof.KernelValue1
import proofs.«121636_j54065048322436_1_alg».proof.Proof.RefTerm
import proofs.«121636_j54065048322436_1_alg».proof.Proof.KernelOps
import Idealize.ShloMosaic.Lib.StableHlo.Run
import Idealize.ShloMosaic.Lib.Pipeline.Frame

set_option maxRecDepth 65536

noncomputable section

namespace Cert.KernelIdeal.Hand

open Cert.KernelIdeal Cert.KernelIdeal.Gen Cert.DenseRow
open Idealize.ShloMosaic Idealize.ShloMosaic.TcCoe Idealize.ShloMosaic.ValueIdx Idealize.SL.Sem Idealize.ShloMosaic.StableHlo

/-- The reference's input transform read at an entry: the dense layer of the entry's row. -/
def InvAt : Prop := ∀ (x : FVec Ideal Cert.ReferenceIdeal.S2048x64 .f32) (W : FVec Ideal Cert.ReferenceIdeal.S64x128 .f32)
    (b : FVec Ideal Cert.ReferenceIdeal.S128 .f32) (r : Fin 2048) (j : Fin 128),
    Cert.RefTerm.refInv x W b (ix2 r j) = denseRow (fun c => x (ix2 r c)) W (fun l => b (ix1 l)) j

/-- The reference's head read at an entry: the three layers of the entry's row. -/
def HeadAt : Prop := ∀ (h : FVec Ideal Cert.ReferenceIdeal.S262144x3 .f32) (W1 : FVec Ideal Cert.ReferenceIdeal.S3x512 .f32)
    (b1 : FVec Ideal Cert.ReferenceIdeal.S512 .f32) (W2 : FVec Ideal Cert.ReferenceIdeal.S512x128 .f32)
    (b2 : FVec Ideal Cert.ReferenceIdeal.S128 .f32) (W3 : FVec Ideal Cert.ReferenceIdeal.S128x3 .f32)
    (b3 : FVec Ideal Cert.ReferenceIdeal.S3 .f32) (r : Fin 262144) (j : Fin 3),
    Cert.RefTerm.refHead h W1 b1 W2 b2 W3 b3 (ix2 r j)
      = denseRow (denseRow (denseRow (fun c => h (ix2 r c)) W1 (fun l => b1 (ix1 l))) W2 (fun l => b2 (ix1 l))) W3 (fun l => b3 (ix1 l)) j

/-- A vector cast to a one-row matrix, read at `(0, l)`, is the vector at `l`. -/
theorem oneRow_apply {n : Nat} (b : (⟨1, ![n]⟩ : Shape).Idx → Ideal .f32) (h : (⟨1, ![n]⟩ : Shape).ShapeCasts ⟨2, ![1, n]⟩) (l : Fin n) :
    shapeCast ⟨2, ![1, n]⟩ b h (ix2 (0 : Fin 1) l) = b (ix1 l) :=
  shapeCast_apply b h (ix2 (0 : Fin 1) l) (ix1 l) (by
    rw [Shape.rowMajor_val_two, Shape.rowMajor_val_one]; show l.val = 0 * n + l.val; omega)

/-! ## The host lines, read at the buffers the regions take

Each piece of a host line is read from ARBITRARY contents `W`: the value it writes is its operations' text composed
over the contents it finds, and it leaves every buffer it does not write as it found it. -/

/-- A piece writes only the buffers of its list: each operation's one result is in it. -/
local macro "writes_in " ops:ident : tactic => `(tactic|
  (simp only [$ops:ident, List.Forall, nullary_writes, unary_writes, binary_writes, ternary_writes, reshape_writes]
   repeat' apply And.intro
   all_goals exact Finset.singleton_subset_iff.mpr (List.mem_toFinset.mpr (List.mem_map_of_mem (by decide)))))

section Host
variable (W : Valuation τ sig (Elt Ideal))

theorem line0_arg0 : after hostOps0 W (Proc.devRef .tc main_arg0) = W (Proc.devRef .tc main_arg0) := by after_results
theorem line0_arg2 : after hostOps0 W (Proc.devRef .tc main_arg2) = W (Proc.devRef .tc main_arg2) := by after_results
theorem line0_bias : after hostOps0 W (Proc.devRef .tc main_v0)
    = fun i => shapeCast S1x128 (W (Proc.devRef .tc main_arg3)) shapeCasts_S128_S1x128 i := by after_results; rfl

/-- The first host line writes only the bias row's cast. -/
theorem line0_keeps (b : Ref sig .tc) (hb : b ≠ main_v0) : after hostOps0 W (Proc.devRef .tc b) = W (Proc.devRef .tc b) := by
  simp only [hostOps0, after_cons, after_nil]
  exact reshape_result_ne _ _ _ _ _ _ W hb

/-! ### The second host line's opening -/

theorem open_nodes : after hostOps1a W (Proc.devRef .tc main_v2) = Cert.RefTerm.nodes (W (Proc.devRef .tc main_v1)) := by
  after_results_simp
  rfl
theorem open_src : after hostOps1a W (Proc.devRef .tc main_v6) = Cert.RefTerm.srcOf (W (Proc.devRef .tc main_arg1)) := by
  after_results_simp
  rfl
theorem open_dst : after hostOps1a W (Proc.devRef .tc main_v9) = Cert.RefTerm.dstOf (W (Proc.devRef .tc main_arg1)) := by
  after_results_simp
  rfl
theorem keep1a (r : Ref sig .tc) (hr : r ∉ wr_hostOps1a) : after hostOps1a W (no_index (Proc.devRef .tc r)) = W (Proc.devRef .tc r) :=
  after_of_writes_sub hostOps1a W (by writes_in hostOps1a) hr

/-! ### The in-degrees, then the normalisation: the rest of the second line, the outlined `where`, and the fourth
    line's opening -/

attribute [local irreducible] Host.scatterAdd in
/-- The in-degrees: the scatter-add of ones into the targets the piece finds (spelt with the reference's names for the
    shapes and the scatter's dimension numbers, which are the kernel program's own). -/
theorem deg_valK : after hostOps1b W (Proc.devRef .tc main_v13)
    = (Host.scatterAdd (F := Ideal) Cert.ReferenceIdeal.scatter_S262144_S4456448x1_S4456448_n_0_0_1
        (broadcastInDim Cert.ReferenceIdeal.S262144 ![] Cert.ReferenceIdeal.Facts₀.bcast_S_S262144 (constant (F := Ideal) Cert.ReferenceIdeal.S_ .f32 0x00000000#32))
        (broadcastInDim Cert.ReferenceIdeal.S4456448x1 ![0] Cert.ReferenceIdeal.Facts₀.bcast_S4456448_S4456448x1_0 (W (Proc.devRef .tc main_v9)))
        (broadcastInDim Cert.ReferenceIdeal.S4456448 ![] Cert.ReferenceIdeal.Facts₀.bcast_S_S4456448 (constant (F := Ideal) Cert.ReferenceIdeal.S_ .f32 0x3F800000#32))) := by
  after_results_simp
  rfl
theorem keep1b (r : Ref sig .tc) (hr : r ∉ wr_hostOps1b) : after hostOps1b W (no_index (Proc.devRef .tc r)) = W (Proc.devRef .tc r) :=
  after_of_writes_sub hostOps1b W (by writes_in hostOps1b) hr

attribute [local irreducible] Host.gather in
theorem norm_valK : after hostOps2a (after hostOps1_1 (after hostOps1c W)) (Proc.devRef .tc main_v33)
    = Cert.RefTerm.normFrom (W (Proc.devRef .tc main_v13)) (W (Proc.devRef .tc main_v6)) (W (Proc.devRef .tc main_v9)) := by
  after_results_simp
  simp only [TRef.ofBuf, TRef.toBuf, cast_eq]
  rfl
theorem keep1c (r : Ref sig .tc) (hr : r ∉ wr_hostOps1c) : after hostOps1c W (no_index (Proc.devRef .tc r)) = W (Proc.devRef .tc r) :=
  after_of_writes_sub hostOps1c W (by writes_in hostOps1c) hr
theorem keep11 (r : Ref sig .tc) (hr : r ∉ wr_hostOps1_1) : after hostOps1_1 W (no_index (Proc.devRef .tc r)) = W (Proc.devRef .tc r) :=
  after_of_writes_sub hostOps1_1 W (by writes_in hostOps1_1) hr
theorem keep2a (r : Ref sig .tc) (hr : r ∉ wr_hostOps2a) : after hostOps2a W (no_index (Proc.devRef .tc r)) = W (Proc.devRef .tc r) :=
  after_of_writes_sub hostOps2a W (by writes_in hostOps2a) hr

/-! ### The three rounds -/

attribute [local irreducible] Host.scatterAdd Host.gather in
theorem round1_valK : after hostOps2b W (Proc.devRef .tc main_v49)
    = Cert.RefTerm.round1 (W (Proc.devRef .tc main_v2)) (W (Proc.devRef .tc main_v6)) (W (Proc.devRef .tc main_v9)) (W (Proc.devRef .tc main_v33)) (W (Proc.devRef .tc main_arg4)) (W (Proc.devRef .tc main_arg5)) := by
  after_results_simp
  rfl
theorem keep2b (r : Ref sig .tc) (hr : r ∉ wr_hostOps2b) : after hostOps2b W (no_index (Proc.devRef .tc r)) = W (Proc.devRef .tc r) :=
  after_of_writes_sub hostOps2b W (by writes_in hostOps2b) hr

attribute [local irreducible] Host.scatterAdd Host.gather in
theorem round2_valK : after hostOps2c W (Proc.devRef .tc main_v65)
    = Cert.RefTerm.round2 (W (Proc.devRef .tc main_v49)) (W (Proc.devRef .tc main_v6)) (W (Proc.devRef .tc main_v9)) (W (Proc.devRef .tc main_v33)) (W (Proc.devRef .tc main_arg6)) (W (Proc.devRef .tc main_arg7)) := by
  after_results_simp
  rfl
theorem keep2c (r : Ref sig .tc) (hr : r ∉ wr_hostOps2c) : after hostOps2c W (no_index (Proc.devRef .tc r)) = W (Proc.devRef .tc r) :=
  after_of_writes_sub hostOps2c W (by writes_in hostOps2c) hr

attribute [local irreducible] Host.scatterAdd Host.gather in
theorem round3_valK : after hostOps2d W (Proc.devRef .tc main_v81)
    = Cert.RefTerm.round3 (W (Proc.devRef .tc main_v65)) (W (Proc.devRef .tc main_v6)) (W (Proc.devRef .tc main_v9)) (W (Proc.devRef .tc main_v33)) (W (Proc.devRef .tc main_arg8)) (W (Proc.devRef .tc main_arg9)) := by
  after_results_simp
  rfl
theorem keep2d (r : Ref sig .tc) (hr : r ∉ wr_hostOps2d) : after hostOps2d W (no_index (Proc.devRef .tc r)) = W (Proc.devRef .tc r) :=
  after_of_writes_sub hostOps2d W (by writes_in hostOps2d) hr

/-! ### The head's bias rows -/

theorem bias_b1 : after hostOps2e W (Proc.devRef .tc main_v82)
    = fun i => shapeCast S1x512 (W (Proc.devRef .tc main_arg11)) shapeCasts_S512_S1x512 i := by after_results; rfl
theorem bias_b2 : after hostOps2e W (Proc.devRef .tc main_v83)
    = fun i => shapeCast S1x128 (W (Proc.devRef .tc main_arg13)) shapeCasts_S128_S1x128 i := by after_results; rfl
theorem bias_b3 : after hostOps2e W (Proc.devRef .tc main_v84)
    = fun i => shapeCast S1x3 (W (Proc.devRef .tc main_arg15)) shapeCasts_S3_S1x3 i := by after_results; rfl
theorem keep2e (r : Ref sig .tc) (hr : r ∉ wr_hostOps2e) : after hostOps2e W (no_index (Proc.devRef .tc r)) = W (Proc.devRef .tc r) :=
  after_of_writes_sub hostOps2e W (by writes_in hostOps2e) hr

end Host

/-! ### The three host lines between the regions, whole -/

section Lines
variable (U : Valuation τ sig (Elt Ideal))

/-- The host lines between the regions as their pieces in order. -/
theorem lines_pieces : after hostOps1_2 (after hostOps1_1 (after hostOps1 U))
    = after hostOps2e (after hostOps2d (after hostOps2c (after hostOps2b (after hostOps2a (after hostOps1_1
        (after hostOps1c (after hostOps1b (after hostOps1a U)))))))) := by
  rw [hostOps1_split, hostOps1_2_split]
  simp only [after_append]

/-- Read at the second region's input array: the graph part of the first region's output array. -/
theorem lines1_nodes : after hostOps1_2 (after hostOps1_1 (after hostOps1 U)) (Proc.devRef .tc main_v81)
    = Cert.RefTerm.mid (U (Proc.devRef .tc main_v1)) (U (Proc.devRef .tc main_arg1)) (U (Proc.devRef .tc main_arg4))
        (U (Proc.devRef .tc main_arg5)) (U (Proc.devRef .tc main_arg6)) (U (Proc.devRef .tc main_arg7))
        (U (Proc.devRef .tc main_arg8)) (U (Proc.devRef .tc main_arg9)) := by
  rw [lines_pieces]
  simp (disch := decide) only [keep2e]
  rw [round3_valK, round2_valK]
  simp (disch := decide) only [keep2c]
  rw [round1_valK]
  simp (disch := decide) only [keep2b]
  rw [norm_valK]
  simp (disch := decide) only [keep2a, keep11, keep1c, keep1b]
  rw [open_nodes, open_src, open_dst]
  simp (disch := decide) only [keep1a]
  rw [deg_valK, open_dst, Cert.RefTerm.mid, Cert.RefTerm.graph]

/-- A parameter array of the head is written by no host line. -/
theorem lines1_kept (r : Ref sig .tc) (h1a : r ∉ wr_hostOps1a) (h1b : r ∉ wr_hostOps1b) (h1c : r ∉ wr_hostOps1c) (h11 : r ∉ wr_hostOps1_1)
    (h2a : r ∉ wr_hostOps2a) (h2b : r ∉ wr_hostOps2b) (h2c : r ∉ wr_hostOps2c) (h2d : r ∉ wr_hostOps2d) (h2e : r ∉ wr_hostOps2e) :
    after hostOps1_2 (after hostOps1_1 (after hostOps1 U)) (Proc.devRef .tc r) = U (Proc.devRef .tc r) := by
  rw [lines_pieces, keep2e _ r h2e, keep2d _ r h2d, keep2c _ r h2c, keep2b _ r h2b, keep2a _ r h2a, keep11 _ r h11, keep1c _ r h1c,
    keep1b _ r h1b, keep1a _ r h1a]

theorem lines1_W1 : after hostOps1_2 (after hostOps1_1 (after hostOps1 U)) (Proc.devRef .tc main_arg10) = U (Proc.devRef .tc main_arg10) :=
  lines1_kept U main_arg10 (by decide) (by decide) (by decide) (by decide) (by decide) (by decide) (by decide) (by decide) (by decide)
theorem lines1_W2 : after hostOps1_2 (after hostOps1_1 (after hostOps1 U)) (Proc.devRef .tc main_arg12) = U (Proc.devRef .tc main_arg12) :=
  lines1_kept U main_arg12 (by decide) (by decide) (by decide) (by decide) (by decide) (by decide) (by decide) (by decide) (by decide)
theorem lines1_W3 : after hostOps1_2 (after hostOps1_1 (after hostOps1 U)) (Proc.devRef .tc main_arg14) = U (Proc.devRef .tc main_arg14) :=
  lines1_kept U main_arg14 (by decide) (by decide) (by decide) (by decide) (by decide) (by decide) (by decide) (by decide) (by decide)

/-- A bias row's cast reads the bias vector as the host lines found it: no piece writes it. -/
theorem lines1_b1 : after hostOps1_2 (after hostOps1_1 (after hostOps1 U)) (Proc.devRef .tc main_v82)
    = fun i => shapeCast S1x512 (U (Proc.devRef .tc main_arg11)) shapeCasts_S512_S1x512 i := by
  rw [lines_pieces, bias_b1]
  simp (disch := decide) only [keep2d, keep2c, keep2b, keep2a, keep11, keep1c, keep1b, keep1a]
theorem lines1_b2 : after hostOps1_2 (after hostOps1_1 (after hostOps1 U)) (Proc.devRef .tc main_v83)
    = fun i => shapeCast S1x128 (U (Proc.devRef .tc main_arg13)) shapeCasts_S128_S1x128 i := by
  rw [lines_pieces, bias_b2]
  simp (disch := decide) only [keep2d, keep2c, keep2b, keep2a, keep11, keep1c, keep1b, keep1a]
theorem lines1_b3 : after hostOps1_2 (after hostOps1_1 (after hostOps1 U)) (Proc.devRef .tc main_v84)
    = fun i => shapeCast S1x3 (U (Proc.devRef .tc main_arg15)) shapeCasts_S3_S1x3 i := by
  rw [lines_pieces, bias_b3]
  simp (disch := decide) only [keep2d, keep2c, keep2b, keep2a, keep11, keep1c, keep1b, keep1a]

end Lines

/-! ## The two regions' outputs against the reference's layers -/

/-- Row by row, the first region's output is the reference's input transform. -/
theorem rows0_eq_refInv (hinv : InvAt) (x : S2048x64.Idx → Elt Ideal .f32) (W : S64x128.Idx → Elt Ideal .f32) (b : S128.Idx → Elt Ideal .f32) :
    rows0 x W (fun i => shapeCast S1x128 b shapeCasts_S128_S1x128 i) = Cert.RefTerm.refInv x W b := by
  funext i
  obtain ⟨r, j, rfl⟩ : ∃ (r : Fin 2048) (j : Fin 128), i = ix2 r j := ⟨i 0, i 1, eq_ix2 i⟩
  refine Eq.trans ?_ (hinv x W b r j).symm
  unfold rows0
  exact denseRow_congr rfl rfl (funext fun l => oneRow_apply b shapeCasts_S128_S1x128 l) rfl

/-- Row by row, the second region's output is the reference's head. -/
theorem rows1_eq_refHead (hhead : HeadAt) (h : S262144x3.Idx → Elt Ideal .f32) (W1 : S3x512.Idx → Elt Ideal .f32) (b1 : S512.Idx → Elt Ideal .f32)
    (W2 : S512x128.Idx → Elt Ideal .f32) (b2 : S128.Idx → Elt Ideal .f32) (W3 : S128x3.Idx → Elt Ideal .f32) (b3 : S3.Idx → Elt Ideal .f32) :
    rows1 h W1 (fun i => shapeCast S1x512 b1 shapeCasts_S512_S1x512 i) W2 (fun i => shapeCast S1x128 b2 shapeCasts_S128_S1x128 i)
      W3 (fun i => shapeCast S1x3 b3 shapeCasts_S3_S1x3 i) = Cert.RefTerm.refHead h W1 b1 W2 b2 W3 b3 := by
  funext i
  obtain ⟨r, j, rfl⟩ : ∃ (r : Fin 262144) (j : Fin 3), i = ix2 r j := ⟨i 0, i 1, eq_ix2 i⟩
  refine Eq.trans ?_ (hhead h W1 b1 W2 b2 W3 b3 r j).symm
  unfold rows1
  refine denseRow_congr (funext fun k => denseRow_congr (funext fun k' => denseRow_congr rfl rfl
      (funext fun l => oneRow_apply b1 shapeCasts_S512_S1x512 l) rfl) rfl
      (funext fun l => oneRow_apply b2 shapeCasts_S128_S1x128 l) rfl) rfl
    (funext fun l => oneRow_apply b3 shapeCasts_S3_S1x3 l) rfl

/-! ## The result array -/

section Result
variable (m : (ℓ : Loc nD τ sig) → Buf (Elt Ideal) ℓ) (ρ : Dev nD → PrngReg)

/-- An argument no region writes and no host line writes is, at the first region's exit, as launched. -/
theorem W2_kept (c : Dev nD) (b : Ref sig .tc) (hb : ∀ w, Pipeline.arrRef spec0 w ≠ b) (hb0 : b ≠ main_v0) :
    W2 m ρ c (Proc.devRef .tc b) = m ((c : Thread nD τ).loc b) :=
  (W2_of_ne m ρ c b hb).trans ((line0_keeps (W0 m ρ c) b hb0).trans rfl)

set_option maxHeartbeats 4000000 in
/-- The first region's output array at its exit: the reference's input transform of the launched arrays. -/
theorem W2_out (hp0 : Pay0) (hinv : InvAt) (c : Dev nD) :
    W2 m ρ c (Proc.devRef .tc main_v1) = Cert.RefTerm.refInv (m ((c : Thread nD τ).loc main_arg0)) (m ((c : Thread nD τ).loc main_arg2)) (m ((c : Thread nD τ).loc main_arg3)) := by
  refine (W2_arr m ρ c 3).trans ((final0 (V1 m ρ) hp0 c).trans ?_)
  have e0 : V1 m ρ c main_arg0 = (m ((c : Thread nD τ).loc main_arg0)) := (line0_arg0 (W0 m ρ c)).trans rfl
  have e2 : V1 m ρ c main_arg2 = (m ((c : Thread nD τ).loc main_arg2)) := (line0_arg2 (W0 m ρ c)).trans rfl
  have e3 : V1 m ρ c main_v0 = fun i => shapeCast S1x128 (m ((c : Thread nD τ).loc main_arg3)) shapeCasts_S128_S1x128 i := (line0_bias (W0 m ρ c)).trans rfl
  rw [e0, e2, e3]
  exact rows0_eq_refInv hinv _ _ _

set_option maxHeartbeats 4000000 in
/-- THE RESULT: the second region's output array at the program's end is the reference's three-stage function of the
    launched arrays. -/
theorem result_eq (hp0 : Pay0) (hp1 : Pay1) (hinv : InvAt) (hhead : HeadAt) (c : Dev nD) :
    W6 m ρ c (Proc.devRef .tc main_v85)
      = Cert.RefTerm.refHead
          (Cert.RefTerm.mid (Cert.RefTerm.refInv (m ((c : Thread nD τ).loc main_arg0)) (m ((c : Thread nD τ).loc main_arg2)) (m ((c : Thread nD τ).loc main_arg3)))
            (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)))
          (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  refine (W6_arr m ρ c 7).trans ((final1 (V5 m ρ) hp1 c).trans ?_)
  have n81 : V5 m ρ c main_v81 = Cert.RefTerm.mid (Cert.RefTerm.refInv (m ((c : Thread nD τ).loc main_arg0)) (m ((c : Thread nD τ).loc main_arg2)) (m ((c : Thread nD τ).loc main_arg3)))
      (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
    refine (lines1_nodes (W2 m ρ c)).trans ?_
    rw [W2_out m ρ hp0 hinv c, W2_kept m ρ c main_arg1 (by decide) (by decide), W2_kept m ρ c main_arg4 (by decide) (by decide),
      W2_kept m ρ c main_arg5 (by decide) (by decide), W2_kept m ρ c main_arg6 (by decide) (by decide),
      W2_kept m ρ c main_arg7 (by decide) (by decide), W2_kept m ρ c main_arg8 (by decide) (by decide),
      W2_kept m ρ c main_arg9 (by decide) (by decide)]
  have w1 : V5 m ρ c main_arg10 = (m ((c : Thread nD τ).loc main_arg10)) := (lines1_W1 (W2 m ρ c)).trans (W2_kept m ρ c main_arg10 (by decide) (by decide))
  have w2 : V5 m ρ c main_arg12 = (m ((c : Thread nD τ).loc main_arg12)) := (lines1_W2 (W2 m ρ c)).trans (W2_kept m ρ c main_arg12 (by decide) (by decide))
  have w3 : V5 m ρ c main_arg14 = (m ((c : Thread nD τ).loc main_arg14)) := (lines1_W3 (W2 m ρ c)).trans (W2_kept m ρ c main_arg14 (by decide) (by decide))
  have b1 : V5 m ρ c main_v82 = fun i => shapeCast S1x512 (m ((c : Thread nD τ).loc main_arg11)) shapeCasts_S512_S1x512 i :=
    (lines1_b1 (W2 m ρ c)).trans (by rw [W2_kept m ρ c main_arg11 (by decide) (by decide)])
  have b2 : V5 m ρ c main_v83 = fun i => shapeCast S1x128 (m ((c : Thread nD τ).loc main_arg13)) shapeCasts_S128_S1x128 i :=
    (lines1_b2 (W2 m ρ c)).trans (by rw [W2_kept m ρ c main_arg13 (by decide) (by decide)])
  have b3 : V5 m ρ c main_v84 = fun i => shapeCast S1x3 (m ((c : Thread nD τ).loc main_arg15)) shapeCasts_S3_S1x3 i :=
    (lines1_b3 (W2 m ρ c)).trans (by rw [W2_kept m ρ c main_arg15 (by decide) (by decide)])
  rw [n81, w1, w2, w3, b1, b2, b3]
  exact rows1_eq_refHead hhead _ _ _ _ _ _ _

end Result

end Cert.KernelIdeal.Hand

end
-- ==== Proof.RefOps.lean ====
/- GENERATED by: bun $KIT/certs/proofs/121636_j54065048322436_1_alg/scratch/mkops.js $KIT/certs/proofs/121636_j54065048322436_1_alg — the reference's @main, statement by statement, as two lists of
   host operations (a call's operations at the call, over the call's own buffers): a table read off the printed program. -/
import proofs.«121636_j54065048322436_1_alg».proof.Proof.Gen.ReferenceIdeal
import Idealize.ShloMosaic.Lib.StableHlo.Run

set_option maxRecDepth 4096

noncomputable section

namespace Cert.ReferenceIdeal.Hand

open Cert.ReferenceIdeal Idealize.ShloMosaic Idealize.ShloMosaic.TcCoe Idealize.SL.Sem
open Cert.ReferenceIdeal.Facts₀

variable {F : FTy → Type} [FloatOps F]

set_option maxHeartbeats 40000000 in
/-- Statements 1 … 60 of @main: 68 operations. -/
abbrev opsA : List (HloOp τ sig (Elt F)) :=
  ( StableHlo.binary main_arg0 main_arg2 main_v0 ((fun l r => Host.dotGeneral dot_S2048x64_S64x128_S2048x128_1_0_0_1_n_n none l r) : (⟨S2048x64, .f32⟩ : BufTy).Contents (Elt F) → (⟨S64x128, .f32⟩ : BufTy).Contents (Elt F) → (⟨S2048x128, .f32⟩ : BufTy).Contents (Elt F))
  :: StableHlo.unary main_arg3 main_v1 (broadcastInDim S1x128 ![1] bcast_S128_S1x128_1 : (⟨S128, .f32⟩ : BufTy).Contents (Elt F) → (⟨S1x128, .f32⟩ : BufTy).Contents (Elt F))
  :: StableHlo.unary main_v1 main_v2 (broadcastInDim S2048x128 ![0, 1] bcast_S1x128_S2048x128_0_1 : (⟨S1x128, .f32⟩ : BufTy).Contents (Elt F) → (⟨S2048x128, .f32⟩ : BufTy).Contents (Elt F))
  :: StableHlo.binary main_v0 main_v2 main_v3 (addf : (⟨S2048x128, .f32⟩ : BufTy).Contents (Elt F) → (⟨S2048x128, .f32⟩ : BufTy).Contents (Elt F) → (⟨S2048x128, .f32⟩ : BufTy).Contents (Elt F))
  :: StableHlo.TRef.nullary main_call0.cst (constant S_ .f32 0x00000000#32)
  :: StableHlo.TRef.unary main_call0.cst main_call0.v0 (broadcastInDim S2048x128 ![] bcast_S_S2048x128)
  :: StableHlo.TRef.binary (.of main_v3 : StableHlo.TRef sig ⟨S2048x128, .f32⟩) main_call0.v0 main_call0.v1 (cmpf .oge)
  :: StableHlo.TRef.nullary main_call0.cst_0 (constant S_ .f32 0x3C23D70A#32)
  :: StableHlo.TRef.unary main_call0.cst_0 main_call0.v2 (broadcastInDim S2048x128 ![] bcast_S_S2048x128)
  :: StableHlo.TRef.binary main_call0.v2 (.of main_v3 : StableHlo.TRef sig ⟨S2048x128, .f32⟩) main_call0.v3 mulf
  :: StableHlo.TRef.ternary main_call0.v1 (.of main_v3 : StableHlo.TRef sig ⟨S2048x128, .f32⟩) main_call0.v3 main_call0.call0.v0 select
  :: StableHlo.reshape main_v4 main_v5 rfl shapeCasts_S2048x128_S262144x1
  :: StableHlo.nullary main_v6 (iotaInDim S262144 32 0)
  :: StableHlo.unary main_arg1 main_v7 ((extractStridedSlice S1x4194304 ![0, 0] · slices_S2x4194304_S1x4194304_0_0) : (⟨S2x4194304, .i32⟩ : BufTy).Contents (Elt F) → (⟨S1x4194304, .i32⟩ : BufTy).Contents (Elt F))
  :: StableHlo.reshape main_v7 main_v8 rfl shapeCasts_S1x4194304_S4194304
  :: StableHlo.binary main_v8 main_v6 main_v9 ((fun a b => concatenate S4456448 0 [⟨S4194304, a⟩, ⟨S262144, b⟩] concatenates_S4194304_S262144_S4456448_d0) : (⟨S4194304, .i32⟩ : BufTy).Contents (Elt F) → (⟨S262144, .i32⟩ : BufTy).Contents (Elt F) → (⟨S4456448, .i32⟩ : BufTy).Contents (Elt F))
  :: StableHlo.unary main_arg1 main_v10 ((extractStridedSlice S1x4194304 ![1, 0] · slices_S2x4194304_S1x4194304_1_0) : (⟨S2x4194304, .i32⟩ : BufTy).Contents (Elt F) → (⟨S1x4194304, .i32⟩ : BufTy).Contents (Elt F))
  :: StableHlo.reshape main_v10 main_v11 rfl shapeCasts_S1x4194304_S4194304
  :: StableHlo.binary main_v11 main_v6 main_v12 ((fun a b => concatenate S4456448 0 [⟨S4194304, a⟩, ⟨S262144, b⟩] concatenates_S4194304_S262144_S4456448_d0) : (⟨S4194304, .i32⟩ : BufTy).Contents (Elt F) → (⟨S262144, .i32⟩ : BufTy).Contents (Elt F) → (⟨S4456448, .i32⟩ : BufTy).Contents (Elt F))
  :: StableHlo.nullary main_cst (constant S_ .f32 0x3F800000#32)
  :: StableHlo.unary main_cst main_v13 (broadcastInDim S4456448 ![] bcast_S_S4456448 : (⟨S_, .f32⟩ : BufTy).Contents (Elt F) → (⟨S4456448, .f32⟩ : BufTy).Contents (Elt F))
  :: StableHlo.nullary main_cst_0 (constant S_ .f32 0x00000000#32)
  :: StableHlo.unary main_cst_0 main_v14 (broadcastInDim S262144 ![] bcast_S_S262144 : (⟨S_, .f32⟩ : BufTy).Contents (Elt F) → (⟨S262144, .f32⟩ : BufTy).Contents (Elt F))
  :: StableHlo.unary main_v12 main_v15 (broadcastInDim S4456448x1 ![0] bcast_S4456448_S4456448x1_0 : (⟨S4456448, .i32⟩ : BufTy).Contents (Elt F) → (⟨S4456448x1, .i32⟩ : BufTy).Contents (Elt F))
  :: StableHlo.ternary main_v14 main_v15 main_v13 main_v16 ((fun x i u => Host.scatterAdd scatter_S262144_S4456448x1_S4456448_n_0_0_1 x i u) : (⟨S262144, .f32⟩ : BufTy).Contents (Elt F) → (⟨S4456448x1, .i32⟩ : BufTy).Contents (Elt F) → (⟨S4456448, .f32⟩ : BufTy).Contents (Elt F) → (⟨S262144, .f32⟩ : BufTy).Contents (Elt F))
  :: StableHlo.nullary main_cst_1 (constant S_ .f32 0x00000000#32)
  :: StableHlo.unary main_cst_1 main_v17 (broadcastInDim S262144 ![] bcast_S_S262144 : (⟨S_, .f32⟩ : BufTy).Contents (Elt F) → (⟨S262144, .f32⟩ : BufTy).Contents (Elt F))
  :: StableHlo.binary main_v16 main_v17 main_v18 (cmpf .ogt : (⟨S262144, .f32⟩ : BufTy).Contents (Elt F) → (⟨S262144, .f32⟩ : BufTy).Contents (Elt F) → (⟨S262144, .i1⟩ : BufTy).Contents (Elt F))
  :: StableHlo.unary main_v16 main_v19 (Host.rsqrt : (⟨S262144, .f32⟩ : BufTy).Contents (Elt F) → (⟨S262144, .f32⟩ : BufTy).Contents (Elt F))
  :: StableHlo.nullary main_cst_2 (constant S_ .f32 0x00000000#32)
  :: StableHlo.TRef.unary (.of main_cst_2 : StableHlo.TRef sig ⟨S_, .f32⟩) main_call1.v0 id
  :: StableHlo.TRef.unary main_call1.v0 main_call1.v1 (broadcastInDim S262144 ![] bcast_S_S262144)
  :: StableHlo.TRef.ternary (.of main_v18 : StableHlo.TRef sig ⟨S262144, .i1⟩) (.of main_v19 : StableHlo.TRef sig ⟨S262144, .f32⟩) main_call1.v1 main_call1.v2 select
  :: StableHlo.nullary main_c (constantI S_ 32 0#32)
  :: StableHlo.unary main_c main_v21 (broadcastInDim S4456448 ![] bcast_S_S4456448 : (⟨S_, .i32⟩ : BufTy).Contents (Elt F) → (⟨S4456448, .i32⟩ : BufTy).Contents (Elt F))
  :: StableHlo.binary main_v9 main_v21 main_v22 (cmpi .slt : (⟨S4456448, .i32⟩ : BufTy).Contents (Elt F) → (⟨S4456448, .i32⟩ : BufTy).Contents (Elt F) → (⟨S4456448, .i1⟩ : BufTy).Contents (Elt F))
  :: StableHlo.nullary main_c_3 (constantI S_ 32 262144#32)
  :: StableHlo.unary main_c_3 main_v23 (broadcastInDim S4456448 ![] bcast_S_S4456448 : (⟨S_, .i32⟩ : BufTy).Contents (Elt F) → (⟨S4456448, .i32⟩ : BufTy).Contents (Elt F))
  :: StableHlo.binary main_v9 main_v23 main_v24 (addi : (⟨S4456448, .i32⟩ : BufTy).Contents (Elt F) → (⟨S4456448, .i32⟩ : BufTy).Contents (Elt F) → (⟨S4456448, .i32⟩ : BufTy).Contents (Elt F))
  :: StableHlo.ternary main_v22 main_v24 main_v9 main_v25 (select : (⟨S4456448, .i1⟩ : BufTy).Contents (Elt F) → (⟨S4456448, .i32⟩ : BufTy).Contents (Elt F) → (⟨S4456448, .i32⟩ : BufTy).Contents (Elt F) → (⟨S4456448, .i32⟩ : BufTy).Contents (Elt F))
  :: StableHlo.unary main_v25 main_v26 (broadcastInDim S4456448x1 ![0] bcast_S4456448_S4456448x1_0 : (⟨S4456448, .i32⟩ : BufTy).Contents (Elt F) → (⟨S4456448x1, .i32⟩ : BufTy).Contents (Elt F))
  :: StableHlo.binary main_v20 main_v26 main_v27 ((fun x i => Host.gather gather_S262144_S4456448x1_S4456448_n_0_n_n_0_1_1 x i) : (⟨S262144, .f32⟩ : BufTy).Contents (Elt F) → (⟨S4456448x1, .i32⟩ : BufTy).Contents (Elt F) → (⟨S4456448, .f32⟩ : BufTy).Contents (Elt F))
  :: StableHlo.nullary main_c_4 (constantI S_ 32 0#32)
  :: StableHlo.unary main_c_4 main_v28 (broadcastInDim S4456448 ![] bcast_S_S4456448 : (⟨S_, .i32⟩ : BufTy).Contents (Elt F) → (⟨S4456448, .i32⟩ : BufTy).Contents (Elt F))
  :: StableHlo.binary main_v12 main_v28 main_v29 (cmpi .slt : (⟨S4456448, .i32⟩ : BufTy).Contents (Elt F) → (⟨S4456448, .i32⟩ : BufTy).Contents (Elt F) → (⟨S4456448, .i1⟩ : BufTy).Contents (Elt F))
  :: StableHlo.nullary main_c_5 (constantI S_ 32 262144#32)
  :: StableHlo.unary main_c_5 main_v30 (broadcastInDim S4456448 ![] bcast_S_S4456448 : (⟨S_, .i32⟩ : BufTy).Contents (Elt F) → (⟨S4456448, .i32⟩ : BufTy).Contents (Elt F))
  :: StableHlo.binary main_v12 main_v30 main_v31 (addi : (⟨S4456448, .i32⟩ : BufTy).Contents (Elt F) → (⟨S4456448, .i32⟩ : BufTy).Contents (Elt F) → (⟨S4456448, .i32⟩ : BufTy).Contents (Elt F))
  :: StableHlo.ternary main_v29 main_v31 main_v12 main_v32 (select : (⟨S4456448, .i1⟩ : BufTy).Contents (Elt F) → (⟨S4456448, .i32⟩ : BufTy).Contents (Elt F) → (⟨S4456448, .i32⟩ : BufTy).Contents (Elt F) → (⟨S4456448, .i32⟩ : BufTy).Contents (Elt F))
  :: StableHlo.unary main_v32 main_v33 (broadcastInDim S4456448x1 ![0] bcast_S4456448_S4456448x1_0 : (⟨S4456448, .i32⟩ : BufTy).Contents (Elt F) → (⟨S4456448x1, .i32⟩ : BufTy).Contents (Elt F))
  :: StableHlo.binary main_v20 main_v33 main_v34 ((fun x i => Host.gather gather_S262144_S4456448x1_S4456448_n_0_n_n_0_1_1 x i) : (⟨S262144, .f32⟩ : BufTy).Contents (Elt F) → (⟨S4456448x1, .i32⟩ : BufTy).Contents (Elt F) → (⟨S4456448, .f32⟩ : BufTy).Contents (Elt F))
  :: StableHlo.binary main_v27 main_v34 main_v35 (mulf : (⟨S4456448, .f32⟩ : BufTy).Contents (Elt F) → (⟨S4456448, .f32⟩ : BufTy).Contents (Elt F) → (⟨S4456448, .f32⟩ : BufTy).Contents (Elt F))
  :: StableHlo.unary main_v35 main_v36 (broadcastInDim S4456448x1 ![0] bcast_S4456448_S4456448x1_0 : (⟨S4456448, .f32⟩ : BufTy).Contents (Elt F) → (⟨S4456448x1, .f32⟩ : BufTy).Contents (Elt F))
  :: StableHlo.binary main_v5 main_arg4 main_v37 ((fun l r => Host.dotGeneral dot_S262144x1_S1x9_S262144x9_1_0_0_1_n_n none l r) : (⟨S262144x1, .f32⟩ : BufTy).Contents (Elt F) → (⟨S1x9, .f32⟩ : BufTy).Contents (Elt F) → (⟨S262144x9, .f32⟩ : BufTy).Contents (Elt F))
  :: StableHlo.nullary main_c_6 (constantI S_ 32 0#32)
  :: StableHlo.unary main_c_6 main_v38 (broadcastInDim S4456448 ![] bcast_S_S4456448 : (⟨S_, .i32⟩ : BufTy).Contents (Elt F) → (⟨S4456448, .i32⟩ : BufTy).Contents (Elt F))
  :: StableHlo.binary main_v9 main_v38 main_v39 (cmpi .slt : (⟨S4456448, .i32⟩ : BufTy).Contents (Elt F) → (⟨S4456448, .i32⟩ : BufTy).Contents (Elt F) → (⟨S4456448, .i1⟩ : BufTy).Contents (Elt F))
  :: StableHlo.nullary main_c_7 (constantI S_ 32 262144#32)
  :: StableHlo.unary main_c_7 main_v40 (broadcastInDim S4456448 ![] bcast_S_S4456448 : (⟨S_, .i32⟩ : BufTy).Contents (Elt F) → (⟨S4456448, .i32⟩ : BufTy).Contents (Elt F))
  :: StableHlo.binary main_v9 main_v40 main_v41 (addi : (⟨S4456448, .i32⟩ : BufTy).Contents (Elt F) → (⟨S4456448, .i32⟩ : BufTy).Contents (Elt F) → (⟨S4456448, .i32⟩ : BufTy).Contents (Elt F))
  :: StableHlo.ternary main_v39 main_v41 main_v9 main_v42 (select : (⟨S4456448, .i1⟩ : BufTy).Contents (Elt F) → (⟨S4456448, .i32⟩ : BufTy).Contents (Elt F) → (⟨S4456448, .i32⟩ : BufTy).Contents (Elt F) → (⟨S4456448, .i32⟩ : BufTy).Contents (Elt F))
  :: StableHlo.unary main_v42 main_v43 (broadcastInDim S4456448x1 ![0] bcast_S4456448_S4456448x1_0 : (⟨S4456448, .i32⟩ : BufTy).Contents (Elt F) → (⟨S4456448x1, .i32⟩ : BufTy).Contents (Elt F))
  :: StableHlo.binary main_v37 main_v43 main_v44 ((fun x i => Host.gather gather_S262144x9_S4456448x1_S4456448x9_1_0_n_n_0_1_19 x i) : (⟨S262144x9, .f32⟩ : BufTy).Contents (Elt F) → (⟨S4456448x1, .i32⟩ : BufTy).Contents (Elt F) → (⟨S4456448x9, .f32⟩ : BufTy).Contents (Elt F))
  :: StableHlo.unary main_v36 main_v45 (broadcastInDim S4456448x9 ![0, 1] bcast_S4456448x1_S4456448x9_0_1 : (⟨S4456448x1, .f32⟩ : BufTy).Contents (Elt F) → (⟨S4456448x9, .f32⟩ : BufTy).Contents (Elt F))
  :: StableHlo.binary main_v44 main_v45 main_v46 (mulf : (⟨S4456448x9, .f32⟩ : BufTy).Contents (Elt F) → (⟨S4456448x9, .f32⟩ : BufTy).Contents (Elt F) → (⟨S4456448x9, .f32⟩ : BufTy).Contents (Elt F))
  :: StableHlo.nullary main_cst_8 (constant S_ .f32 0x00000000#32)
  :: StableHlo.unary main_cst_8 main_v47 (broadcastInDim S262144x9 ![] bcast_S_S262144x9 : (⟨S_, .f32⟩ : BufTy).Contents (Elt F) → (⟨S262144x9, .f32⟩ : BufTy).Contents (Elt F))
  :: StableHlo.unary main_v12 main_v48 (broadcastInDim S4456448x1 ![0] bcast_S4456448_S4456448x1_0 : (⟨S4456448, .i32⟩ : BufTy).Contents (Elt F) → (⟨S4456448x1, .i32⟩ : BufTy).Contents (Elt F))
  :: [] )

set_option maxHeartbeats 40000000 in
/-- Statements 61 … 118 of @main: 75 operations. -/
abbrev opsB : List (HloOp τ sig (Elt F)) :=
  ( StableHlo.ternary main_v47 main_v48 main_v46 main_v49 ((fun x i u => Host.scatterAdd scatter_S262144x9_S4456448x1_S4456448x9_1_0_0_1 x i u) : (⟨S262144x9, .f32⟩ : BufTy).Contents (Elt F) → (⟨S4456448x1, .i32⟩ : BufTy).Contents (Elt F) → (⟨S4456448x9, .f32⟩ : BufTy).Contents (Elt F) → (⟨S262144x9, .f32⟩ : BufTy).Contents (Elt F))
  :: StableHlo.unary main_arg5 main_v50 (broadcastInDim S1x9 ![1] bcast_S9_S1x9_1 : (⟨S9, .f32⟩ : BufTy).Contents (Elt F) → (⟨S1x9, .f32⟩ : BufTy).Contents (Elt F))
  :: StableHlo.unary main_v50 main_v51 (broadcastInDim S262144x9 ![0, 1] bcast_S1x9_S262144x9_0_1 : (⟨S1x9, .f32⟩ : BufTy).Contents (Elt F) → (⟨S262144x9, .f32⟩ : BufTy).Contents (Elt F))
  :: StableHlo.binary main_v49 main_v51 main_v52 (addf : (⟨S262144x9, .f32⟩ : BufTy).Contents (Elt F) → (⟨S262144x9, .f32⟩ : BufTy).Contents (Elt F) → (⟨S262144x9, .f32⟩ : BufTy).Contents (Elt F))
  :: StableHlo.binary main_v52 main_arg6 main_v53 ((fun l r => Host.dotGeneral dot_S262144x9_S9x3_S262144x3_1_0_0_1_n_n none l r) : (⟨S262144x9, .f32⟩ : BufTy).Contents (Elt F) → (⟨S9x3, .f32⟩ : BufTy).Contents (Elt F) → (⟨S262144x3, .f32⟩ : BufTy).Contents (Elt F))
  :: StableHlo.nullary main_c_9 (constantI S_ 32 0#32)
  :: StableHlo.unary main_c_9 main_v54 (broadcastInDim S4456448 ![] bcast_S_S4456448 : (⟨S_, .i32⟩ : BufTy).Contents (Elt F) → (⟨S4456448, .i32⟩ : BufTy).Contents (Elt F))
  :: StableHlo.binary main_v9 main_v54 main_v55 (cmpi .slt : (⟨S4456448, .i32⟩ : BufTy).Contents (Elt F) → (⟨S4456448, .i32⟩ : BufTy).Contents (Elt F) → (⟨S4456448, .i1⟩ : BufTy).Contents (Elt F))
  :: StableHlo.nullary main_c_10 (constantI S_ 32 262144#32)
  :: StableHlo.unary main_c_10 main_v56 (broadcastInDim S4456448 ![] bcast_S_S4456448 : (⟨S_, .i32⟩ : BufTy).Contents (Elt F) → (⟨S4456448, .i32⟩ : BufTy).Contents (Elt F))
  :: StableHlo.binary main_v9 main_v56 main_v57 (addi : (⟨S4456448, .i32⟩ : BufTy).Contents (Elt F) → (⟨S4456448, .i32⟩ : BufTy).Contents (Elt F) → (⟨S4456448, .i32⟩ : BufTy).Contents (Elt F))
  :: StableHlo.ternary main_v55 main_v57 main_v9 main_v58 (select : (⟨S4456448, .i1⟩ : BufTy).Contents (Elt F) → (⟨S4456448, .i32⟩ : BufTy).Contents (Elt F) → (⟨S4456448, .i32⟩ : BufTy).Contents (Elt F) → (⟨S4456448, .i32⟩ : BufTy).Contents (Elt F))
  :: StableHlo.unary main_v58 main_v59 (broadcastInDim S4456448x1 ![0] bcast_S4456448_S4456448x1_0 : (⟨S4456448, .i32⟩ : BufTy).Contents (Elt F) → (⟨S4456448x1, .i32⟩ : BufTy).Contents (Elt F))
  :: StableHlo.binary main_v53 main_v59 main_v60 ((fun x i => Host.gather gather_S262144x3_S4456448x1_S4456448x3_1_0_n_n_0_1_13 x i) : (⟨S262144x3, .f32⟩ : BufTy).Contents (Elt F) → (⟨S4456448x1, .i32⟩ : BufTy).Contents (Elt F) → (⟨S4456448x3, .f32⟩ : BufTy).Contents (Elt F))
  :: StableHlo.unary main_v36 main_v61 (broadcastInDim S4456448x3 ![0, 1] bcast_S4456448x1_S4456448x3_0_1 : (⟨S4456448x1, .f32⟩ : BufTy).Contents (Elt F) → (⟨S4456448x3, .f32⟩ : BufTy).Contents (Elt F))
  :: StableHlo.binary main_v60 main_v61 main_v62 (mulf : (⟨S4456448x3, .f32⟩ : BufTy).Contents (Elt F) → (⟨S4456448x3, .f32⟩ : BufTy).Contents (Elt F) → (⟨S4456448x3, .f32⟩ : BufTy).Contents (Elt F))
  :: StableHlo.nullary main_cst_11 (constant S_ .f32 0x00000000#32)
  :: StableHlo.unary main_cst_11 main_v63 (broadcastInDim S262144x3 ![] bcast_S_S262144x3 : (⟨S_, .f32⟩ : BufTy).Contents (Elt F) → (⟨S262144x3, .f32⟩ : BufTy).Contents (Elt F))
  :: StableHlo.unary main_v12 main_v64 (broadcastInDim S4456448x1 ![0] bcast_S4456448_S4456448x1_0 : (⟨S4456448, .i32⟩ : BufTy).Contents (Elt F) → (⟨S4456448x1, .i32⟩ : BufTy).Contents (Elt F))
  :: StableHlo.ternary main_v63 main_v64 main_v62 main_v65 ((fun x i u => Host.scatterAdd scatter_S262144x3_S4456448x1_S4456448x3_1_0_0_1 x i u) : (⟨S262144x3, .f32⟩ : BufTy).Contents (Elt F) → (⟨S4456448x1, .i32⟩ : BufTy).Contents (Elt F) → (⟨S4456448x3, .f32⟩ : BufTy).Contents (Elt F) → (⟨S262144x3, .f32⟩ : BufTy).Contents (Elt F))
  :: StableHlo.unary main_arg7 main_v66 (broadcastInDim S1x3 ![1] bcast_S3_S1x3_1 : (⟨S3, .f32⟩ : BufTy).Contents (Elt F) → (⟨S1x3, .f32⟩ : BufTy).Contents (Elt F))
  :: StableHlo.unary main_v66 main_v67 (broadcastInDim S262144x3 ![0, 1] bcast_S1x3_S262144x3_0_1 : (⟨S1x3, .f32⟩ : BufTy).Contents (Elt F) → (⟨S262144x3, .f32⟩ : BufTy).Contents (Elt F))
  :: StableHlo.binary main_v65 main_v67 main_v68 (addf : (⟨S262144x3, .f32⟩ : BufTy).Contents (Elt F) → (⟨S262144x3, .f32⟩ : BufTy).Contents (Elt F) → (⟨S262144x3, .f32⟩ : BufTy).Contents (Elt F))
  :: StableHlo.binary main_v68 main_arg8 main_v69 ((fun l r => Host.dotGeneral dot_S262144x3_S3x3_S262144x3_1_0_0_1_n_n none l r) : (⟨S262144x3, .f32⟩ : BufTy).Contents (Elt F) → (⟨S3x3, .f32⟩ : BufTy).Contents (Elt F) → (⟨S262144x3, .f32⟩ : BufTy).Contents (Elt F))
  :: StableHlo.nullary main_c_12 (constantI S_ 32 0#32)
  :: StableHlo.unary main_c_12 main_v70 (broadcastInDim S4456448 ![] bcast_S_S4456448 : (⟨S_, .i32⟩ : BufTy).Contents (Elt F) → (⟨S4456448, .i32⟩ : BufTy).Contents (Elt F))
  :: StableHlo.binary main_v9 main_v70 main_v71 (cmpi .slt : (⟨S4456448, .i32⟩ : BufTy).Contents (Elt F) → (⟨S4456448, .i32⟩ : BufTy).Contents (Elt F) → (⟨S4456448, .i1⟩ : BufTy).Contents (Elt F))
  :: StableHlo.nullary main_c_13 (constantI S_ 32 262144#32)
  :: StableHlo.unary main_c_13 main_v72 (broadcastInDim S4456448 ![] bcast_S_S4456448 : (⟨S_, .i32⟩ : BufTy).Contents (Elt F) → (⟨S4456448, .i32⟩ : BufTy).Contents (Elt F))
  :: StableHlo.binary main_v9 main_v72 main_v73 (addi : (⟨S4456448, .i32⟩ : BufTy).Contents (Elt F) → (⟨S4456448, .i32⟩ : BufTy).Contents (Elt F) → (⟨S4456448, .i32⟩ : BufTy).Contents (Elt F))
  :: StableHlo.ternary main_v71 main_v73 main_v9 main_v74 (select : (⟨S4456448, .i1⟩ : BufTy).Contents (Elt F) → (⟨S4456448, .i32⟩ : BufTy).Contents (Elt F) → (⟨S4456448, .i32⟩ : BufTy).Contents (Elt F) → (⟨S4456448, .i32⟩ : BufTy).Contents (Elt F))
  :: StableHlo.unary main_v74 main_v75 (broadcastInDim S4456448x1 ![0] bcast_S4456448_S4456448x1_0 : (⟨S4456448, .i32⟩ : BufTy).Contents (Elt F) → (⟨S4456448x1, .i32⟩ : BufTy).Contents (Elt F))
  :: StableHlo.binary main_v69 main_v75 main_v76 ((fun x i => Host.gather gather_S262144x3_S4456448x1_S4456448x3_1_0_n_n_0_1_13 x i) : (⟨S262144x3, .f32⟩ : BufTy).Contents (Elt F) → (⟨S4456448x1, .i32⟩ : BufTy).Contents (Elt F) → (⟨S4456448x3, .f32⟩ : BufTy).Contents (Elt F))
  :: StableHlo.unary main_v36 main_v77 (broadcastInDim S4456448x3 ![0, 1] bcast_S4456448x1_S4456448x3_0_1 : (⟨S4456448x1, .f32⟩ : BufTy).Contents (Elt F) → (⟨S4456448x3, .f32⟩ : BufTy).Contents (Elt F))
  :: StableHlo.binary main_v76 main_v77 main_v78 (mulf : (⟨S4456448x3, .f32⟩ : BufTy).Contents (Elt F) → (⟨S4456448x3, .f32⟩ : BufTy).Contents (Elt F) → (⟨S4456448x3, .f32⟩ : BufTy).Contents (Elt F))
  :: StableHlo.nullary main_cst_14 (constant S_ .f32 0x00000000#32)
  :: StableHlo.unary main_cst_14 main_v79 (broadcastInDim S262144x3 ![] bcast_S_S262144x3 : (⟨S_, .f32⟩ : BufTy).Contents (Elt F) → (⟨S262144x3, .f32⟩ : BufTy).Contents (Elt F))
  :: StableHlo.unary main_v12 main_v80 (broadcastInDim S4456448x1 ![0] bcast_S4456448_S4456448x1_0 : (⟨S4456448, .i32⟩ : BufTy).Contents (Elt F) → (⟨S4456448x1, .i32⟩ : BufTy).Contents (Elt F))
  :: StableHlo.ternary main_v79 main_v80 main_v78 main_v81 ((fun x i u => Host.scatterAdd scatter_S262144x3_S4456448x1_S4456448x3_1_0_0_1 x i u) : (⟨S262144x3, .f32⟩ : BufTy).Contents (Elt F) → (⟨S4456448x1, .i32⟩ : BufTy).Contents (Elt F) → (⟨S4456448x3, .f32⟩ : BufTy).Contents (Elt F) → (⟨S262144x3, .f32⟩ : BufTy).Contents (Elt F))
  :: StableHlo.unary main_arg9 main_v82 (broadcastInDim S1x3 ![1] bcast_S3_S1x3_1 : (⟨S3, .f32⟩ : BufTy).Contents (Elt F) → (⟨S1x3, .f32⟩ : BufTy).Contents (Elt F))
  :: StableHlo.unary main_v82 main_v83 (broadcastInDim S262144x3 ![0, 1] bcast_S1x3_S262144x3_0_1 : (⟨S1x3, .f32⟩ : BufTy).Contents (Elt F) → (⟨S262144x3, .f32⟩ : BufTy).Contents (Elt F))
  :: StableHlo.binary main_v81 main_v83 main_v84 (addf : (⟨S262144x3, .f32⟩ : BufTy).Contents (Elt F) → (⟨S262144x3, .f32⟩ : BufTy).Contents (Elt F) → (⟨S262144x3, .f32⟩ : BufTy).Contents (Elt F))
  :: StableHlo.binary main_v84 main_arg10 main_v85 ((fun l r => Host.dotGeneral dot_S262144x3_S3x512_S262144x512_1_0_0_1_n_n none l r) : (⟨S262144x3, .f32⟩ : BufTy).Contents (Elt F) → (⟨S3x512, .f32⟩ : BufTy).Contents (Elt F) → (⟨S262144x512, .f32⟩ : BufTy).Contents (Elt F))
  :: StableHlo.unary main_arg11 main_v86 (broadcastInDim S1x512 ![1] bcast_S512_S1x512_1 : (⟨S512, .f32⟩ : BufTy).Contents (Elt F) → (⟨S1x512, .f32⟩ : BufTy).Contents (Elt F))
  :: StableHlo.unary main_v86 main_v87 (broadcastInDim S262144x512 ![0, 1] bcast_S1x512_S262144x512_0_1 : (⟨S1x512, .f32⟩ : BufTy).Contents (Elt F) → (⟨S262144x512, .f32⟩ : BufTy).Contents (Elt F))
  :: StableHlo.binary main_v85 main_v87 main_v88 (addf : (⟨S262144x512, .f32⟩ : BufTy).Contents (Elt F) → (⟨S262144x512, .f32⟩ : BufTy).Contents (Elt F) → (⟨S262144x512, .f32⟩ : BufTy).Contents (Elt F))
  :: StableHlo.TRef.nullary main_call2.cst (constant S_ .f32 0x00000000#32)
  :: StableHlo.TRef.unary main_call2.cst main_call2.v0 (broadcastInDim S262144x512 ![] bcast_S_S262144x512)
  :: StableHlo.TRef.binary (.of main_v88 : StableHlo.TRef sig ⟨S262144x512, .f32⟩) main_call2.v0 main_call2.v1 (cmpf .oge)
  :: StableHlo.TRef.nullary main_call2.cst_0 (constant S_ .f32 0x3C23D70A#32)
  :: StableHlo.TRef.unary main_call2.cst_0 main_call2.v2 (broadcastInDim S262144x512 ![] bcast_S_S262144x512)
  :: StableHlo.TRef.binary main_call2.v2 (.of main_v88 : StableHlo.TRef sig ⟨S262144x512, .f32⟩) main_call2.v3 mulf
  :: StableHlo.TRef.ternary main_call2.v1 (.of main_v88 : StableHlo.TRef sig ⟨S262144x512, .f32⟩) main_call2.v3 main_call2.call0.v0 select
  :: StableHlo.binary main_v89 main_arg12 main_v90 ((fun l r => Host.dotGeneral dot_S262144x512_S512x128_S262144x128_1_0_0_1_n_n none l r) : (⟨S262144x512, .f32⟩ : BufTy).Contents (Elt F) → (⟨S512x128, .f32⟩ : BufTy).Contents (Elt F) → (⟨S262144x128, .f32⟩ : BufTy).Contents (Elt F))
  :: StableHlo.unary main_arg13 main_v91 (broadcastInDim S1x128 ![1] bcast_S128_S1x128_1 : (⟨S128, .f32⟩ : BufTy).Contents (Elt F) → (⟨S1x128, .f32⟩ : BufTy).Contents (Elt F))
  :: StableHlo.unary main_v91 main_v92 (broadcastInDim S262144x128 ![0, 1] bcast_S1x128_S262144x128_0_1 : (⟨S1x128, .f32⟩ : BufTy).Contents (Elt F) → (⟨S262144x128, .f32⟩ : BufTy).Contents (Elt F))
  :: StableHlo.binary main_v90 main_v92 main_v93 (addf : (⟨S262144x128, .f32⟩ : BufTy).Contents (Elt F) → (⟨S262144x128, .f32⟩ : BufTy).Contents (Elt F) → (⟨S262144x128, .f32⟩ : BufTy).Contents (Elt F))
  :: StableHlo.TRef.nullary main_call3.cst (constant S_ .f32 0x00000000#32)
  :: StableHlo.TRef.unary main_call3.cst main_call3.v0 (broadcastInDim S262144x128 ![] bcast_S_S262144x128)
  :: StableHlo.TRef.binary (.of main_v93 : StableHlo.TRef sig ⟨S262144x128, .f32⟩) main_call3.v0 main_call3.v1 (cmpf .oge)
  :: StableHlo.TRef.nullary main_call3.cst_0 (constant S_ .f32 0x3C23D70A#32)
  :: StableHlo.TRef.unary main_call3.cst_0 main_call3.v2 (broadcastInDim S262144x128 ![] bcast_S_S262144x128)
  :: StableHlo.TRef.binary main_call3.v2 (.of main_v93 : StableHlo.TRef sig ⟨S262144x128, .f32⟩) main_call3.v3 mulf
  :: StableHlo.TRef.ternary main_call3.v1 (.of main_v93 : StableHlo.TRef sig ⟨S262144x128, .f32⟩) main_call3.v3 main_call3.call0.v0 select
  :: StableHlo.binary main_v94 main_arg14 main_v95 ((fun l r => Host.dotGeneral dot_S262144x128_S128x3_S262144x3_1_0_0_1_n_n none l r) : (⟨S262144x128, .f32⟩ : BufTy).Contents (Elt F) → (⟨S128x3, .f32⟩ : BufTy).Contents (Elt F) → (⟨S262144x3, .f32⟩ : BufTy).Contents (Elt F))
  :: StableHlo.unary main_arg15 main_v96 (broadcastInDim S1x3 ![1] bcast_S3_S1x3_1 : (⟨S3, .f32⟩ : BufTy).Contents (Elt F) → (⟨S1x3, .f32⟩ : BufTy).Contents (Elt F))
  :: StableHlo.unary main_v96 main_v97 (broadcastInDim S262144x3 ![0, 1] bcast_S1x3_S262144x3_0_1 : (⟨S1x3, .f32⟩ : BufTy).Contents (Elt F) → (⟨S262144x3, .f32⟩ : BufTy).Contents (Elt F))
  :: StableHlo.binary main_v95 main_v97 main_v98 (addf : (⟨S262144x3, .f32⟩ : BufTy).Contents (Elt F) → (⟨S262144x3, .f32⟩ : BufTy).Contents (Elt F) → (⟨S262144x3, .f32⟩ : BufTy).Contents (Elt F))
  :: StableHlo.TRef.nullary main_call4.cst (constant S_ .f32 0x00000000#32)
  :: StableHlo.TRef.unary main_call4.cst main_call4.v0 (broadcastInDim S262144x3 ![] bcast_S_S262144x3)
  :: StableHlo.TRef.binary (.of main_v98 : StableHlo.TRef sig ⟨S262144x3, .f32⟩) main_call4.v0 main_call4.v1 (cmpf .oge)
  :: StableHlo.TRef.nullary main_call4.cst_0 (constant S_ .f32 0x3C23D70A#32)
  :: StableHlo.TRef.unary main_call4.cst_0 main_call4.v2 (broadcastInDim S262144x3 ![] bcast_S_S262144x3)
  :: StableHlo.TRef.binary main_call4.v2 (.of main_v98 : StableHlo.TRef sig ⟨S262144x3, .f32⟩) main_call4.v3 mulf
  :: StableHlo.TRef.ternary main_call4.v1 (.of main_v98 : StableHlo.TRef sig ⟨S262144x3, .f32⟩) main_call4.v3 main_call4.call0.v0 select
  :: [] )

set_option maxHeartbeats 40000000 in
/-- The first 19 operations of the line (through the edge list's two index vectors). -/
abbrev opsP : List (HloOp τ sig (Elt F)) :=
  ( StableHlo.binary main_arg0 main_arg2 main_v0 ((fun l r => Host.dotGeneral dot_S2048x64_S64x128_S2048x128_1_0_0_1_n_n none l r) : (⟨S2048x64, .f32⟩ : BufTy).Contents (Elt F) → (⟨S64x128, .f32⟩ : BufTy).Contents (Elt F) → (⟨S2048x128, .f32⟩ : BufTy).Contents (Elt F))
  :: StableHlo.unary main_arg3 main_v1 (broadcastInDim S1x128 ![1] bcast_S128_S1x128_1 : (⟨S128, .f32⟩ : BufTy).Contents (Elt F) → (⟨S1x128, .f32⟩ : BufTy).Contents (Elt F))
  :: StableHlo.unary main_v1 main_v2 (broadcastInDim S2048x128 ![0, 1] bcast_S1x128_S2048x128_0_1 : (⟨S1x128, .f32⟩ : BufTy).Contents (Elt F) → (⟨S2048x128, .f32⟩ : BufTy).Contents (Elt F))
  :: StableHlo.binary main_v0 main_v2 main_v3 (addf : (⟨S2048x128, .f32⟩ : BufTy).Contents (Elt F) → (⟨S2048x128, .f32⟩ : BufTy).Contents (Elt F) → (⟨S2048x128, .f32⟩ : BufTy).Contents (Elt F))
  :: StableHlo.TRef.nullary main_call0.cst (constant S_ .f32 0x00000000#32)
  :: StableHlo.TRef.unary main_call0.cst main_call0.v0 (broadcastInDim S2048x128 ![] bcast_S_S2048x128)
  :: StableHlo.TRef.binary (.of main_v3 : StableHlo.TRef sig ⟨S2048x128, .f32⟩) main_call0.v0 main_call0.v1 (cmpf .oge)
  :: StableHlo.TRef.nullary main_call0.cst_0 (constant S_ .f32 0x3C23D70A#32)
  :: StableHlo.TRef.unary main_call0.cst_0 main_call0.v2 (broadcastInDim S2048x128 ![] bcast_S_S2048x128)
  :: StableHlo.TRef.binary main_call0.v2 (.of main_v3 : StableHlo.TRef sig ⟨S2048x128, .f32⟩) main_call0.v3 mulf
  :: StableHlo.TRef.ternary main_call0.v1 (.of main_v3 : StableHlo.TRef sig ⟨S2048x128, .f32⟩) main_call0.v3 main_call0.call0.v0 select
  :: StableHlo.reshape main_v4 main_v5 rfl shapeCasts_S2048x128_S262144x1
  :: StableHlo.nullary main_v6 (iotaInDim S262144 32 0)
  :: StableHlo.unary main_arg1 main_v7 ((extractStridedSlice S1x4194304 ![0, 0] · slices_S2x4194304_S1x4194304_0_0) : (⟨S2x4194304, .i32⟩ : BufTy).Contents (Elt F) → (⟨S1x4194304, .i32⟩ : BufTy).Contents (Elt F))
  :: StableHlo.reshape main_v7 main_v8 rfl shapeCasts_S1x4194304_S4194304
  :: StableHlo.binary main_v8 main_v6 main_v9 ((fun a b => concatenate S4456448 0 [⟨S4194304, a⟩, ⟨S262144, b⟩] concatenates_S4194304_S262144_S4456448_d0) : (⟨S4194304, .i32⟩ : BufTy).Contents (Elt F) → (⟨S262144, .i32⟩ : BufTy).Contents (Elt F) → (⟨S4456448, .i32⟩ : BufTy).Contents (Elt F))
  :: StableHlo.unary main_arg1 main_v10 ((extractStridedSlice S1x4194304 ![1, 0] · slices_S2x4194304_S1x4194304_1_0) : (⟨S2x4194304, .i32⟩ : BufTy).Contents (Elt F) → (⟨S1x4194304, .i32⟩ : BufTy).Contents (Elt F))
  :: StableHlo.reshape main_v10 main_v11 rfl shapeCasts_S1x4194304_S4194304
  :: StableHlo.binary main_v11 main_v6 main_v12 ((fun a b => concatenate S4456448 0 [⟨S4194304, a⟩, ⟨S262144, b⟩] concatenates_S4194304_S262144_S4456448_d0) : (⟨S4194304, .i32⟩ : BufTy).Contents (Elt F) → (⟨S262144, .i32⟩ : BufTy).Contents (Elt F) → (⟨S4456448, .i32⟩ : BufTy).Contents (Elt F))
  :: [] )

set_option maxHeartbeats 40000000 in
/-- The remaining 124 operations. -/
abbrev opsQ : List (HloOp τ sig (Elt F)) :=
  ( StableHlo.nullary main_cst (constant S_ .f32 0x3F800000#32)
  :: StableHlo.unary main_cst main_v13 (broadcastInDim S4456448 ![] bcast_S_S4456448 : (⟨S_, .f32⟩ : BufTy).Contents (Elt F) → (⟨S4456448, .f32⟩ : BufTy).Contents (Elt F))
  :: StableHlo.nullary main_cst_0 (constant S_ .f32 0x00000000#32)
  :: StableHlo.unary main_cst_0 main_v14 (broadcastInDim S262144 ![] bcast_S_S262144 : (⟨S_, .f32⟩ : BufTy).Contents (Elt F) → (⟨S262144, .f32⟩ : BufTy).Contents (Elt F))
  :: StableHlo.unary main_v12 main_v15 (broadcastInDim S4456448x1 ![0] bcast_S4456448_S4456448x1_0 : (⟨S4456448, .i32⟩ : BufTy).Contents (Elt F) → (⟨S4456448x1, .i32⟩ : BufTy).Contents (Elt F))
  :: StableHlo.ternary main_v14 main_v15 main_v13 main_v16 ((fun x i u => Host.scatterAdd scatter_S262144_S4456448x1_S4456448_n_0_0_1 x i u) : (⟨S262144, .f32⟩ : BufTy).Contents (Elt F) → (⟨S4456448x1, .i32⟩ : BufTy).Contents (Elt F) → (⟨S4456448, .f32⟩ : BufTy).Contents (Elt F) → (⟨S262144, .f32⟩ : BufTy).Contents (Elt F))
  :: StableHlo.nullary main_cst_1 (constant S_ .f32 0x00000000#32)
  :: StableHlo.unary main_cst_1 main_v17 (broadcastInDim S262144 ![] bcast_S_S262144 : (⟨S_, .f32⟩ : BufTy).Contents (Elt F) → (⟨S262144, .f32⟩ : BufTy).Contents (Elt F))
  :: StableHlo.binary main_v16 main_v17 main_v18 (cmpf .ogt : (⟨S262144, .f32⟩ : BufTy).Contents (Elt F) → (⟨S262144, .f32⟩ : BufTy).Contents (Elt F) → (⟨S262144, .i1⟩ : BufTy).Contents (Elt F))
  :: StableHlo.unary main_v16 main_v19 (Host.rsqrt : (⟨S262144, .f32⟩ : BufTy).Contents (Elt F) → (⟨S262144, .f32⟩ : BufTy).Contents (Elt F))
  :: StableHlo.nullary main_cst_2 (constant S_ .f32 0x00000000#32)
  :: StableHlo.TRef.unary (.of main_cst_2 : StableHlo.TRef sig ⟨S_, .f32⟩) main_call1.v0 id
  :: StableHlo.TRef.unary main_call1.v0 main_call1.v1 (broadcastInDim S262144 ![] bcast_S_S262144)
  :: StableHlo.TRef.ternary (.of main_v18 : StableHlo.TRef sig ⟨S262144, .i1⟩) (.of main_v19 : StableHlo.TRef sig ⟨S262144, .f32⟩) main_call1.v1 main_call1.v2 select
  :: StableHlo.nullary main_c (constantI S_ 32 0#32)
  :: StableHlo.unary main_c main_v21 (broadcastInDim S4456448 ![] bcast_S_S4456448 : (⟨S_, .i32⟩ : BufTy).Contents (Elt F) → (⟨S4456448, .i32⟩ : BufTy).Contents (Elt F))
  :: StableHlo.binary main_v9 main_v21 main_v22 (cmpi .slt : (⟨S4456448, .i32⟩ : BufTy).Contents (Elt F) → (⟨S4456448, .i32⟩ : BufTy).Contents (Elt F) → (⟨S4456448, .i1⟩ : BufTy).Contents (Elt F))
  :: StableHlo.nullary main_c_3 (constantI S_ 32 262144#32)
  :: StableHlo.unary main_c_3 main_v23 (broadcastInDim S4456448 ![] bcast_S_S4456448 : (⟨S_, .i32⟩ : BufTy).Contents (Elt F) → (⟨S4456448, .i32⟩ : BufTy).Contents (Elt F))
  :: StableHlo.binary main_v9 main_v23 main_v24 (addi : (⟨S4456448, .i32⟩ : BufTy).Contents (Elt F) → (⟨S4456448, .i32⟩ : BufTy).Contents (Elt F) → (⟨S4456448, .i32⟩ : BufTy).Contents (Elt F))
  :: StableHlo.ternary main_v22 main_v24 main_v9 main_v25 (select : (⟨S4456448, .i1⟩ : BufTy).Contents (Elt F) → (⟨S4456448, .i32⟩ : BufTy).Contents (Elt F) → (⟨S4456448, .i32⟩ : BufTy).Contents (Elt F) → (⟨S4456448, .i32⟩ : BufTy).Contents (Elt F))
  :: StableHlo.unary main_v25 main_v26 (broadcastInDim S4456448x1 ![0] bcast_S4456448_S4456448x1_0 : (⟨S4456448, .i32⟩ : BufTy).Contents (Elt F) → (⟨S4456448x1, .i32⟩ : BufTy).Contents (Elt F))
  :: StableHlo.binary main_v20 main_v26 main_v27 ((fun x i => Host.gather gather_S262144_S4456448x1_S4456448_n_0_n_n_0_1_1 x i) : (⟨S262144, .f32⟩ : BufTy).Contents (Elt F) → (⟨S4456448x1, .i32⟩ : BufTy).Contents (Elt F) → (⟨S4456448, .f32⟩ : BufTy).Contents (Elt F))
  :: StableHlo.nullary main_c_4 (constantI S_ 32 0#32)
  :: StableHlo.unary main_c_4 main_v28 (broadcastInDim S4456448 ![] bcast_S_S4456448 : (⟨S_, .i32⟩ : BufTy).Contents (Elt F) → (⟨S4456448, .i32⟩ : BufTy).Contents (Elt F))
  :: StableHlo.binary main_v12 main_v28 main_v29 (cmpi .slt : (⟨S4456448, .i32⟩ : BufTy).Contents (Elt F) → (⟨S4456448, .i32⟩ : BufTy).Contents (Elt F) → (⟨S4456448, .i1⟩ : BufTy).Contents (Elt F))
  :: StableHlo.nullary main_c_5 (constantI S_ 32 262144#32)
  :: StableHlo.unary main_c_5 main_v30 (broadcastInDim S4456448 ![] bcast_S_S4456448 : (⟨S_, .i32⟩ : BufTy).Contents (Elt F) → (⟨S4456448, .i32⟩ : BufTy).Contents (Elt F))
  :: StableHlo.binary main_v12 main_v30 main_v31 (addi : (⟨S4456448, .i32⟩ : BufTy).Contents (Elt F) → (⟨S4456448, .i32⟩ : BufTy).Contents (Elt F) → (⟨S4456448, .i32⟩ : BufTy).Contents (Elt F))
  :: StableHlo.ternary main_v29 main_v31 main_v12 main_v32 (select : (⟨S4456448, .i1⟩ : BufTy).Contents (Elt F) → (⟨S4456448, .i32⟩ : BufTy).Contents (Elt F) → (⟨S4456448, .i32⟩ : BufTy).Contents (Elt F) → (⟨S4456448, .i32⟩ : BufTy).Contents (Elt F))
  :: StableHlo.unary main_v32 main_v33 (broadcastInDim S4456448x1 ![0] bcast_S4456448_S4456448x1_0 : (⟨S4456448, .i32⟩ : BufTy).Contents (Elt F) → (⟨S4456448x1, .i32⟩ : BufTy).Contents (Elt F))
  :: StableHlo.binary main_v20 main_v33 main_v34 ((fun x i => Host.gather gather_S262144_S4456448x1_S4456448_n_0_n_n_0_1_1 x i) : (⟨S262144, .f32⟩ : BufTy).Contents (Elt F) → (⟨S4456448x1, .i32⟩ : BufTy).Contents (Elt F) → (⟨S4456448, .f32⟩ : BufTy).Contents (Elt F))
  :: StableHlo.binary main_v27 main_v34 main_v35 (mulf : (⟨S4456448, .f32⟩ : BufTy).Contents (Elt F) → (⟨S4456448, .f32⟩ : BufTy).Contents (Elt F) → (⟨S4456448, .f32⟩ : BufTy).Contents (Elt F))
  :: StableHlo.unary main_v35 main_v36 (broadcastInDim S4456448x1 ![0] bcast_S4456448_S4456448x1_0 : (⟨S4456448, .f32⟩ : BufTy).Contents (Elt F) → (⟨S4456448x1, .f32⟩ : BufTy).Contents (Elt F))
  :: StableHlo.binary main_v5 main_arg4 main_v37 ((fun l r => Host.dotGeneral dot_S262144x1_S1x9_S262144x9_1_0_0_1_n_n none l r) : (⟨S262144x1, .f32⟩ : BufTy).Contents (Elt F) → (⟨S1x9, .f32⟩ : BufTy).Contents (Elt F) → (⟨S262144x9, .f32⟩ : BufTy).Contents (Elt F))
  :: StableHlo.nullary main_c_6 (constantI S_ 32 0#32)
  :: StableHlo.unary main_c_6 main_v38 (broadcastInDim S4456448 ![] bcast_S_S4456448 : (⟨S_, .i32⟩ : BufTy).Contents (Elt F) → (⟨S4456448, .i32⟩ : BufTy).Contents (Elt F))
  :: StableHlo.binary main_v9 main_v38 main_v39 (cmpi .slt : (⟨S4456448, .i32⟩ : BufTy).Contents (Elt F) → (⟨S4456448, .i32⟩ : BufTy).Contents (Elt F) → (⟨S4456448, .i1⟩ : BufTy).Contents (Elt F))
  :: StableHlo.nullary main_c_7 (constantI S_ 32 262144#32)
  :: StableHlo.unary main_c_7 main_v40 (broadcastInDim S4456448 ![] bcast_S_S4456448 : (⟨S_, .i32⟩ : BufTy).Contents (Elt F) → (⟨S4456448, .i32⟩ : BufTy).Contents (Elt F))
  :: StableHlo.binary main_v9 main_v40 main_v41 (addi : (⟨S4456448, .i32⟩ : BufTy).Contents (Elt F) → (⟨S4456448, .i32⟩ : BufTy).Contents (Elt F) → (⟨S4456448, .i32⟩ : BufTy).Contents (Elt F))
  :: StableHlo.ternary main_v39 main_v41 main_v9 main_v42 (select : (⟨S4456448, .i1⟩ : BufTy).Contents (Elt F) → (⟨S4456448, .i32⟩ : BufTy).Contents (Elt F) → (⟨S4456448, .i32⟩ : BufTy).Contents (Elt F) → (⟨S4456448, .i32⟩ : BufTy).Contents (Elt F))
  :: StableHlo.unary main_v42 main_v43 (broadcastInDim S4456448x1 ![0] bcast_S4456448_S4456448x1_0 : (⟨S4456448, .i32⟩ : BufTy).Contents (Elt F) → (⟨S4456448x1, .i32⟩ : BufTy).Contents (Elt F))
  :: StableHlo.binary main_v37 main_v43 main_v44 ((fun x i => Host.gather gather_S262144x9_S4456448x1_S4456448x9_1_0_n_n_0_1_19 x i) : (⟨S262144x9, .f32⟩ : BufTy).Contents (Elt F) → (⟨S4456448x1, .i32⟩ : BufTy).Contents (Elt F) → (⟨S4456448x9, .f32⟩ : BufTy).Contents (Elt F))
  :: StableHlo.unary main_v36 main_v45 (broadcastInDim S4456448x9 ![0, 1] bcast_S4456448x1_S4456448x9_0_1 : (⟨S4456448x1, .f32⟩ : BufTy).Contents (Elt F) → (⟨S4456448x9, .f32⟩ : BufTy).Contents (Elt F))
  :: StableHlo.binary main_v44 main_v45 main_v46 (mulf : (⟨S4456448x9, .f32⟩ : BufTy).Contents (Elt F) → (⟨S4456448x9, .f32⟩ : BufTy).Contents (Elt F) → (⟨S4456448x9, .f32⟩ : BufTy).Contents (Elt F))
  :: StableHlo.nullary main_cst_8 (constant S_ .f32 0x00000000#32)
  :: StableHlo.unary main_cst_8 main_v47 (broadcastInDim S262144x9 ![] bcast_S_S262144x9 : (⟨S_, .f32⟩ : BufTy).Contents (Elt F) → (⟨S262144x9, .f32⟩ : BufTy).Contents (Elt F))
  :: StableHlo.unary main_v12 main_v48 (broadcastInDim S4456448x1 ![0] bcast_S4456448_S4456448x1_0 : (⟨S4456448, .i32⟩ : BufTy).Contents (Elt F) → (⟨S4456448x1, .i32⟩ : BufTy).Contents (Elt F))
  :: StableHlo.ternary main_v47 main_v48 main_v46 main_v49 ((fun x i u => Host.scatterAdd scatter_S262144x9_S4456448x1_S4456448x9_1_0_0_1 x i u) : (⟨S262144x9, .f32⟩ : BufTy).Contents (Elt F) → (⟨S4456448x1, .i32⟩ : BufTy).Contents (Elt F) → (⟨S4456448x9, .f32⟩ : BufTy).Contents (Elt F) → (⟨S262144x9, .f32⟩ : BufTy).Contents (Elt F))
  :: StableHlo.unary main_arg5 main_v50 (broadcastInDim S1x9 ![1] bcast_S9_S1x9_1 : (⟨S9, .f32⟩ : BufTy).Contents (Elt F) → (⟨S1x9, .f32⟩ : BufTy).Contents (Elt F))
  :: StableHlo.unary main_v50 main_v51 (broadcastInDim S262144x9 ![0, 1] bcast_S1x9_S262144x9_0_1 : (⟨S1x9, .f32⟩ : BufTy).Contents (Elt F) → (⟨S262144x9, .f32⟩ : BufTy).Contents (Elt F))
  :: StableHlo.binary main_v49 main_v51 main_v52 (addf : (⟨S262144x9, .f32⟩ : BufTy).Contents (Elt F) → (⟨S262144x9, .f32⟩ : BufTy).Contents (Elt F) → (⟨S262144x9, .f32⟩ : BufTy).Contents (Elt F))
  :: StableHlo.binary main_v52 main_arg6 main_v53 ((fun l r => Host.dotGeneral dot_S262144x9_S9x3_S262144x3_1_0_0_1_n_n none l r) : (⟨S262144x9, .f32⟩ : BufTy).Contents (Elt F) → (⟨S9x3, .f32⟩ : BufTy).Contents (Elt F) → (⟨S262144x3, .f32⟩ : BufTy).Contents (Elt F))
  :: StableHlo.nullary main_c_9 (constantI S_ 32 0#32)
  :: StableHlo.unary main_c_9 main_v54 (broadcastInDim S4456448 ![] bcast_S_S4456448 : (⟨S_, .i32⟩ : BufTy).Contents (Elt F) → (⟨S4456448, .i32⟩ : BufTy).Contents (Elt F))
  :: StableHlo.binary main_v9 main_v54 main_v55 (cmpi .slt : (⟨S4456448, .i32⟩ : BufTy).Contents (Elt F) → (⟨S4456448, .i32⟩ : BufTy).Contents (Elt F) → (⟨S4456448, .i1⟩ : BufTy).Contents (Elt F))
  :: StableHlo.nullary main_c_10 (constantI S_ 32 262144#32)
  :: StableHlo.unary main_c_10 main_v56 (broadcastInDim S4456448 ![] bcast_S_S4456448 : (⟨S_, .i32⟩ : BufTy).Contents (Elt F) → (⟨S4456448, .i32⟩ : BufTy).Contents (Elt F))
  :: StableHlo.binary main_v9 main_v56 main_v57 (addi : (⟨S4456448, .i32⟩ : BufTy).Contents (Elt F) → (⟨S4456448, .i32⟩ : BufTy).Contents (Elt F) → (⟨S4456448, .i32⟩ : BufTy).Contents (Elt F))
  :: StableHlo.ternary main_v55 main_v57 main_v9 main_v58 (select : (⟨S4456448, .i1⟩ : BufTy).Contents (Elt F) → (⟨S4456448, .i32⟩ : BufTy).Contents (Elt F) → (⟨S4456448, .i32⟩ : BufTy).Contents (Elt F) → (⟨S4456448, .i32⟩ : BufTy).Contents (Elt F))
  :: StableHlo.unary main_v58 main_v59 (broadcastInDim S4456448x1 ![0] bcast_S4456448_S4456448x1_0 : (⟨S4456448, .i32⟩ : BufTy).Contents (Elt F) → (⟨S4456448x1, .i32⟩ : BufTy).Contents (Elt F))
  :: StableHlo.binary main_v53 main_v59 main_v60 ((fun x i => Host.gather gather_S262144x3_S4456448x1_S4456448x3_1_0_n_n_0_1_13 x i) : (⟨S262144x3, .f32⟩ : BufTy).Contents (Elt F) → (⟨S4456448x1, .i32⟩ : BufTy).Contents (Elt F) → (⟨S4456448x3, .f32⟩ : BufTy).Contents (Elt F))
  :: StableHlo.unary main_v36 main_v61 (broadcastInDim S4456448x3 ![0, 1] bcast_S4456448x1_S4456448x3_0_1 : (⟨S4456448x1, .f32⟩ : BufTy).Contents (Elt F) → (⟨S4456448x3, .f32⟩ : BufTy).Contents (Elt F))
  :: StableHlo.binary main_v60 main_v61 main_v62 (mulf : (⟨S4456448x3, .f32⟩ : BufTy).Contents (Elt F) → (⟨S4456448x3, .f32⟩ : BufTy).Contents (Elt F) → (⟨S4456448x3, .f32⟩ : BufTy).Contents (Elt F))
  :: StableHlo.nullary main_cst_11 (constant S_ .f32 0x00000000#32)
  :: StableHlo.unary main_cst_11 main_v63 (broadcastInDim S262144x3 ![] bcast_S_S262144x3 : (⟨S_, .f32⟩ : BufTy).Contents (Elt F) → (⟨S262144x3, .f32⟩ : BufTy).Contents (Elt F))
  :: StableHlo.unary main_v12 main_v64 (broadcastInDim S4456448x1 ![0] bcast_S4456448_S4456448x1_0 : (⟨S4456448, .i32⟩ : BufTy).Contents (Elt F) → (⟨S4456448x1, .i32⟩ : BufTy).Contents (Elt F))
  :: StableHlo.ternary main_v63 main_v64 main_v62 main_v65 ((fun x i u => Host.scatterAdd scatter_S262144x3_S4456448x1_S4456448x3_1_0_0_1 x i u) : (⟨S262144x3, .f32⟩ : BufTy).Contents (Elt F) → (⟨S4456448x1, .i32⟩ : BufTy).Contents (Elt F) → (⟨S4456448x3, .f32⟩ : BufTy).Contents (Elt F) → (⟨S262144x3, .f32⟩ : BufTy).Contents (Elt F))
  :: StableHlo.unary main_arg7 main_v66 (broadcastInDim S1x3 ![1] bcast_S3_S1x3_1 : (⟨S3, .f32⟩ : BufTy).Contents (Elt F) → (⟨S1x3, .f32⟩ : BufTy).Contents (Elt F))
  :: StableHlo.unary main_v66 main_v67 (broadcastInDim S262144x3 ![0, 1] bcast_S1x3_S262144x3_0_1 : (⟨S1x3, .f32⟩ : BufTy).Contents (Elt F) → (⟨S262144x3, .f32⟩ : BufTy).Contents (Elt F))
  :: StableHlo.binary main_v65 main_v67 main_v68 (addf : (⟨S262144x3, .f32⟩ : BufTy).Contents (Elt F) → (⟨S262144x3, .f32⟩ : BufTy).Contents (Elt F) → (⟨S262144x3, .f32⟩ : BufTy).Contents (Elt F))
  :: StableHlo.binary main_v68 main_arg8 main_v69 ((fun l r => Host.dotGeneral dot_S262144x3_S3x3_S262144x3_1_0_0_1_n_n none l r) : (⟨S262144x3, .f32⟩ : BufTy).Contents (Elt F) → (⟨S3x3, .f32⟩ : BufTy).Contents (Elt F) → (⟨S262144x3, .f32⟩ : BufTy).Contents (Elt F))
  :: StableHlo.nullary main_c_12 (constantI S_ 32 0#32)
  :: StableHlo.unary main_c_12 main_v70 (broadcastInDim S4456448 ![] bcast_S_S4456448 : (⟨S_, .i32⟩ : BufTy).Contents (Elt F) → (⟨S4456448, .i32⟩ : BufTy).Contents (Elt F))
  :: StableHlo.binary main_v9 main_v70 main_v71 (cmpi .slt : (⟨S4456448, .i32⟩ : BufTy).Contents (Elt F) → (⟨S4456448, .i32⟩ : BufTy).Contents (Elt F) → (⟨S4456448, .i1⟩ : BufTy).Contents (Elt F))
  :: StableHlo.nullary main_c_13 (constantI S_ 32 262144#32)
  :: StableHlo.unary main_c_13 main_v72 (broadcastInDim S4456448 ![] bcast_S_S4456448 : (⟨S_, .i32⟩ : BufTy).Contents (Elt F) → (⟨S4456448, .i32⟩ : BufTy).Contents (Elt F))
  :: StableHlo.binary main_v9 main_v72 main_v73 (addi : (⟨S4456448, .i32⟩ : BufTy).Contents (Elt F) → (⟨S4456448, .i32⟩ : BufTy).Contents (Elt F) → (⟨S4456448, .i32⟩ : BufTy).Contents (Elt F))
  :: StableHlo.ternary main_v71 main_v73 main_v9 main_v74 (select : (⟨S4456448, .i1⟩ : BufTy).Contents (Elt F) → (⟨S4456448, .i32⟩ : BufTy).Contents (Elt F) → (⟨S4456448, .i32⟩ : BufTy).Contents (Elt F) → (⟨S4456448, .i32⟩ : BufTy).Contents (Elt F))
  :: StableHlo.unary main_v74 main_v75 (broadcastInDim S4456448x1 ![0] bcast_S4456448_S4456448x1_0 : (⟨S4456448, .i32⟩ : BufTy).Contents (Elt F) → (⟨S4456448x1, .i32⟩ : BufTy).Contents (Elt F))
  :: StableHlo.binary main_v69 main_v75 main_v76 ((fun x i => Host.gather gather_S262144x3_S4456448x1_S4456448x3_1_0_n_n_0_1_13 x i) : (⟨S262144x3, .f32⟩ : BufTy).Contents (Elt F) → (⟨S4456448x1, .i32⟩ : BufTy).Contents (Elt F) → (⟨S4456448x3, .f32⟩ : BufTy).Contents (Elt F))
  :: StableHlo.unary main_v36 main_v77 (broadcastInDim S4456448x3 ![0, 1] bcast_S4456448x1_S4456448x3_0_1 : (⟨S4456448x1, .f32⟩ : BufTy).Contents (Elt F) → (⟨S4456448x3, .f32⟩ : BufTy).Contents (Elt F))
  :: StableHlo.binary main_v76 main_v77 main_v78 (mulf : (⟨S4456448x3, .f32⟩ : BufTy).Contents (Elt F) → (⟨S4456448x3, .f32⟩ : BufTy).Contents (Elt F) → (⟨S4456448x3, .f32⟩ : BufTy).Contents (Elt F))
  :: StableHlo.nullary main_cst_14 (constant S_ .f32 0x00000000#32)
  :: StableHlo.unary main_cst_14 main_v79 (broadcastInDim S262144x3 ![] bcast_S_S262144x3 : (⟨S_, .f32⟩ : BufTy).Contents (Elt F) → (⟨S262144x3, .f32⟩ : BufTy).Contents (Elt F))
  :: StableHlo.unary main_v12 main_v80 (broadcastInDim S4456448x1 ![0] bcast_S4456448_S4456448x1_0 : (⟨S4456448, .i32⟩ : BufTy).Contents (Elt F) → (⟨S4456448x1, .i32⟩ : BufTy).Contents (Elt F))
  :: StableHlo.ternary main_v79 main_v80 main_v78 main_v81 ((fun x i u => Host.scatterAdd scatter_S262144x3_S4456448x1_S4456448x3_1_0_0_1 x i u) : (⟨S262144x3, .f32⟩ : BufTy).Contents (Elt F) → (⟨S4456448x1, .i32⟩ : BufTy).Contents (Elt F) → (⟨S4456448x3, .f32⟩ : BufTy).Contents (Elt F) → (⟨S262144x3, .f32⟩ : BufTy).Contents (Elt F))
  :: StableHlo.unary main_arg9 main_v82 (broadcastInDim S1x3 ![1] bcast_S3_S1x3_1 : (⟨S3, .f32⟩ : BufTy).Contents (Elt F) → (⟨S1x3, .f32⟩ : BufTy).Contents (Elt F))
  :: StableHlo.unary main_v82 main_v83 (broadcastInDim S262144x3 ![0, 1] bcast_S1x3_S262144x3_0_1 : (⟨S1x3, .f32⟩ : BufTy).Contents (Elt F) → (⟨S262144x3, .f32⟩ : BufTy).Contents (Elt F))
  :: StableHlo.binary main_v81 main_v83 main_v84 (addf : (⟨S262144x3, .f32⟩ : BufTy).Contents (Elt F) → (⟨S262144x3, .f32⟩ : BufTy).Contents (Elt F) → (⟨S262144x3, .f32⟩ : BufTy).Contents (Elt F))
  :: StableHlo.binary main_v84 main_arg10 main_v85 ((fun l r => Host.dotGeneral dot_S262144x3_S3x512_S262144x512_1_0_0_1_n_n none l r) : (⟨S262144x3, .f32⟩ : BufTy).Contents (Elt F) → (⟨S3x512, .f32⟩ : BufTy).Contents (Elt F) → (⟨S262144x512, .f32⟩ : BufTy).Contents (Elt F))
  :: StableHlo.unary main_arg11 main_v86 (broadcastInDim S1x512 ![1] bcast_S512_S1x512_1 : (⟨S512, .f32⟩ : BufTy).Contents (Elt F) → (⟨S1x512, .f32⟩ : BufTy).Contents (Elt F))
  :: StableHlo.unary main_v86 main_v87 (broadcastInDim S262144x512 ![0, 1] bcast_S1x512_S262144x512_0_1 : (⟨S1x512, .f32⟩ : BufTy).Contents (Elt F) → (⟨S262144x512, .f32⟩ : BufTy).Contents (Elt F))
  :: StableHlo.binary main_v85 main_v87 main_v88 (addf : (⟨S262144x512, .f32⟩ : BufTy).Contents (Elt F) → (⟨S262144x512, .f32⟩ : BufTy).Contents (Elt F) → (⟨S262144x512, .f32⟩ : BufTy).Contents (Elt F))
  :: StableHlo.TRef.nullary main_call2.cst (constant S_ .f32 0x00000000#32)
  :: StableHlo.TRef.unary main_call2.cst main_call2.v0 (broadcastInDim S262144x512 ![] bcast_S_S262144x512)
  :: StableHlo.TRef.binary (.of main_v88 : StableHlo.TRef sig ⟨S262144x512, .f32⟩) main_call2.v0 main_call2.v1 (cmpf .oge)
  :: StableHlo.TRef.nullary main_call2.cst_0 (constant S_ .f32 0x3C23D70A#32)
  :: StableHlo.TRef.unary main_call2.cst_0 main_call2.v2 (broadcastInDim S262144x512 ![] bcast_S_S262144x512)
  :: StableHlo.TRef.binary main_call2.v2 (.of main_v88 : StableHlo.TRef sig ⟨S262144x512, .f32⟩) main_call2.v3 mulf
  :: StableHlo.TRef.ternary main_call2.v1 (.of main_v88 : StableHlo.TRef sig ⟨S262144x512, .f32⟩) main_call2.v3 main_call2.call0.v0 select
  :: StableHlo.binary main_v89 main_arg12 main_v90 ((fun l r => Host.dotGeneral dot_S262144x512_S512x128_S262144x128_1_0_0_1_n_n none l r) : (⟨S262144x512, .f32⟩ : BufTy).Contents (Elt F) → (⟨S512x128, .f32⟩ : BufTy).Contents (Elt F) → (⟨S262144x128, .f32⟩ : BufTy).Contents (Elt F))
  :: StableHlo.unary main_arg13 main_v91 (broadcastInDim S1x128 ![1] bcast_S128_S1x128_1 : (⟨S128, .f32⟩ : BufTy).Contents (Elt F) → (⟨S1x128, .f32⟩ : BufTy).Contents (Elt F))
  :: StableHlo.unary main_v91 main_v92 (broadcastInDim S262144x128 ![0, 1] bcast_S1x128_S262144x128_0_1 : (⟨S1x128, .f32⟩ : BufTy).Contents (Elt F) → (⟨S262144x128, .f32⟩ : BufTy).Contents (Elt F))
  :: StableHlo.binary main_v90 main_v92 main_v93 (addf : (⟨S262144x128, .f32⟩ : BufTy).Contents (Elt F) → (⟨S262144x128, .f32⟩ : BufTy).Contents (Elt F) → (⟨S262144x128, .f32⟩ : BufTy).Contents (Elt F))
  :: StableHlo.TRef.nullary main_call3.cst (constant S_ .f32 0x00000000#32)
  :: StableHlo.TRef.unary main_call3.cst main_call3.v0 (broadcastInDim S262144x128 ![] bcast_S_S262144x128)
  :: StableHlo.TRef.binary (.of main_v93 : StableHlo.TRef sig ⟨S262144x128, .f32⟩) main_call3.v0 main_call3.v1 (cmpf .oge)
  :: StableHlo.TRef.nullary main_call3.cst_0 (constant S_ .f32 0x3C23D70A#32)
  :: StableHlo.TRef.unary main_call3.cst_0 main_call3.v2 (broadcastInDim S262144x128 ![] bcast_S_S262144x128)
  :: StableHlo.TRef.binary main_call3.v2 (.of main_v93 : StableHlo.TRef sig ⟨S262144x128, .f32⟩) main_call3.v3 mulf
  :: StableHlo.TRef.ternary main_call3.v1 (.of main_v93 : StableHlo.TRef sig ⟨S262144x128, .f32⟩) main_call3.v3 main_call3.call0.v0 select
  :: StableHlo.binary main_v94 main_arg14 main_v95 ((fun l r => Host.dotGeneral dot_S262144x128_S128x3_S262144x3_1_0_0_1_n_n none l r) : (⟨S262144x128, .f32⟩ : BufTy).Contents (Elt F) → (⟨S128x3, .f32⟩ : BufTy).Contents (Elt F) → (⟨S262144x3, .f32⟩ : BufTy).Contents (Elt F))
  :: StableHlo.unary main_arg15 main_v96 (broadcastInDim S1x3 ![1] bcast_S3_S1x3_1 : (⟨S3, .f32⟩ : BufTy).Contents (Elt F) → (⟨S1x3, .f32⟩ : BufTy).Contents (Elt F))
  :: StableHlo.unary main_v96 main_v97 (broadcastInDim S262144x3 ![0, 1] bcast_S1x3_S262144x3_0_1 : (⟨S1x3, .f32⟩ : BufTy).Contents (Elt F) → (⟨S262144x3, .f32⟩ : BufTy).Contents (Elt F))
  :: StableHlo.binary main_v95 main_v97 main_v98 (addf : (⟨S262144x3, .f32⟩ : BufTy).Contents (Elt F) → (⟨S262144x3, .f32⟩ : BufTy).Contents (Elt F) → (⟨S262144x3, .f32⟩ : BufTy).Contents (Elt F))
  :: StableHlo.TRef.nullary main_call4.cst (constant S_ .f32 0x00000000#32)
  :: StableHlo.TRef.unary main_call4.cst main_call4.v0 (broadcastInDim S262144x3 ![] bcast_S_S262144x3)
  :: StableHlo.TRef.binary (.of main_v98 : StableHlo.TRef sig ⟨S262144x3, .f32⟩) main_call4.v0 main_call4.v1 (cmpf .oge)
  :: StableHlo.TRef.nullary main_call4.cst_0 (constant S_ .f32 0x3C23D70A#32)
  :: StableHlo.TRef.unary main_call4.cst_0 main_call4.v2 (broadcastInDim S262144x3 ![] bcast_S_S262144x3)
  :: StableHlo.TRef.binary main_call4.v2 (.of main_v98 : StableHlo.TRef sig ⟨S262144x3, .f32⟩) main_call4.v3 mulf
  :: StableHlo.TRef.ternary main_call4.v1 (.of main_v98 : StableHlo.TRef sig ⟨S262144x3, .f32⟩) main_call4.v3 main_call4.call0.v0 select
  :: [] )

set_option maxHeartbeats 40000000 in
/-- Piece 1 of the rest: 6 operations, ending with the one that writes main_v16. -/
abbrev opsQ1 : List (HloOp τ sig (Elt F)) :=
  ( StableHlo.nullary main_cst (constant S_ .f32 0x3F800000#32)
  :: StableHlo.unary main_cst main_v13 (broadcastInDim S4456448 ![] bcast_S_S4456448 : (⟨S_, .f32⟩ : BufTy).Contents (Elt F) → (⟨S4456448, .f32⟩ : BufTy).Contents (Elt F))
  :: StableHlo.nullary main_cst_0 (constant S_ .f32 0x00000000#32)
  :: StableHlo.unary main_cst_0 main_v14 (broadcastInDim S262144 ![] bcast_S_S262144 : (⟨S_, .f32⟩ : BufTy).Contents (Elt F) → (⟨S262144, .f32⟩ : BufTy).Contents (Elt F))
  :: StableHlo.unary main_v12 main_v15 (broadcastInDim S4456448x1 ![0] bcast_S4456448_S4456448x1_0 : (⟨S4456448, .i32⟩ : BufTy).Contents (Elt F) → (⟨S4456448x1, .i32⟩ : BufTy).Contents (Elt F))
  :: StableHlo.ternary main_v14 main_v15 main_v13 main_v16 ((fun x i u => Host.scatterAdd scatter_S262144_S4456448x1_S4456448_n_0_0_1 x i u) : (⟨S262144, .f32⟩ : BufTy).Contents (Elt F) → (⟨S4456448x1, .i32⟩ : BufTy).Contents (Elt F) → (⟨S4456448, .f32⟩ : BufTy).Contents (Elt F) → (⟨S262144, .f32⟩ : BufTy).Contents (Elt F))
  :: [] )

/-- The buffers piece 1 writes. -/
abbrev wrQ1 : List (Ref sig .tc) := [main_cst, main_v13, main_cst_0, main_v14, main_v15, main_v16]

set_option maxHeartbeats 40000000 in
/-- Piece 2 of the rest: 28 operations, ending with the one that writes main_v36. -/
abbrev opsQ2 : List (HloOp τ sig (Elt F)) :=
  ( StableHlo.nullary main_cst_1 (constant S_ .f32 0x00000000#32)
  :: StableHlo.unary main_cst_1 main_v17 (broadcastInDim S262144 ![] bcast_S_S262144 : (⟨S_, .f32⟩ : BufTy).Contents (Elt F) → (⟨S262144, .f32⟩ : BufTy).Contents (Elt F))
  :: StableHlo.binary main_v16 main_v17 main_v18 (cmpf .ogt : (⟨S262144, .f32⟩ : BufTy).Contents (Elt F) → (⟨S262144, .f32⟩ : BufTy).Contents (Elt F) → (⟨S262144, .i1⟩ : BufTy).Contents (Elt F))
  :: StableHlo.unary main_v16 main_v19 (Host.rsqrt : (⟨S262144, .f32⟩ : BufTy).Contents (Elt F) → (⟨S262144, .f32⟩ : BufTy).Contents (Elt F))
  :: StableHlo.nullary main_cst_2 (constant S_ .f32 0x00000000#32)
  :: StableHlo.TRef.unary (.of main_cst_2 : StableHlo.TRef sig ⟨S_, .f32⟩) main_call1.v0 id
  :: StableHlo.TRef.unary main_call1.v0 main_call1.v1 (broadcastInDim S262144 ![] bcast_S_S262144)
  :: StableHlo.TRef.ternary (.of main_v18 : StableHlo.TRef sig ⟨S262144, .i1⟩) (.of main_v19 : StableHlo.TRef sig ⟨S262144, .f32⟩) main_call1.v1 main_call1.v2 select
  :: StableHlo.nullary main_c (constantI S_ 32 0#32)
  :: StableHlo.unary main_c main_v21 (broadcastInDim S4456448 ![] bcast_S_S4456448 : (⟨S_, .i32⟩ : BufTy).Contents (Elt F) → (⟨S4456448, .i32⟩ : BufTy).Contents (Elt F))
  :: StableHlo.binary main_v9 main_v21 main_v22 (cmpi .slt : (⟨S4456448, .i32⟩ : BufTy).Contents (Elt F) → (⟨S4456448, .i32⟩ : BufTy).Contents (Elt F) → (⟨S4456448, .i1⟩ : BufTy).Contents (Elt F))
  :: StableHlo.nullary main_c_3 (constantI S_ 32 262144#32)
  :: StableHlo.unary main_c_3 main_v23 (broadcastInDim S4456448 ![] bcast_S_S4456448 : (⟨S_, .i32⟩ : BufTy).Contents (Elt F) → (⟨S4456448, .i32⟩ : BufTy).Contents (Elt F))
  :: StableHlo.binary main_v9 main_v23 main_v24 (addi : (⟨S4456448, .i32⟩ : BufTy).Contents (Elt F) → (⟨S4456448, .i32⟩ : BufTy).Contents (Elt F) → (⟨S4456448, .i32⟩ : BufTy).Contents (Elt F))
  :: StableHlo.ternary main_v22 main_v24 main_v9 main_v25 (select : (⟨S4456448, .i1⟩ : BufTy).Contents (Elt F) → (⟨S4456448, .i32⟩ : BufTy).Contents (Elt F) → (⟨S4456448, .i32⟩ : BufTy).Contents (Elt F) → (⟨S4456448, .i32⟩ : BufTy).Contents (Elt F))
  :: StableHlo.unary main_v25 main_v26 (broadcastInDim S4456448x1 ![0] bcast_S4456448_S4456448x1_0 : (⟨S4456448, .i32⟩ : BufTy).Contents (Elt F) → (⟨S4456448x1, .i32⟩ : BufTy).Contents (Elt F))
  :: StableHlo.binary main_v20 main_v26 main_v27 ((fun x i => Host.gather gather_S262144_S4456448x1_S4456448_n_0_n_n_0_1_1 x i) : (⟨S262144, .f32⟩ : BufTy).Contents (Elt F) → (⟨S4456448x1, .i32⟩ : BufTy).Contents (Elt F) → (⟨S4456448, .f32⟩ : BufTy).Contents (Elt F))
  :: StableHlo.nullary main_c_4 (constantI S_ 32 0#32)
  :: StableHlo.unary main_c_4 main_v28 (broadcastInDim S4456448 ![] bcast_S_S4456448 : (⟨S_, .i32⟩ : BufTy).Contents (Elt F) → (⟨S4456448, .i32⟩ : BufTy).Contents (Elt F))
  :: StableHlo.binary main_v12 main_v28 main_v29 (cmpi .slt : (⟨S4456448, .i32⟩ : BufTy).Contents (Elt F) → (⟨S4456448, .i32⟩ : BufTy).Contents (Elt F) → (⟨S4456448, .i1⟩ : BufTy).Contents (Elt F))
  :: StableHlo.nullary main_c_5 (constantI S_ 32 262144#32)
  :: StableHlo.unary main_c_5 main_v30 (broadcastInDim S4456448 ![] bcast_S_S4456448 : (⟨S_, .i32⟩ : BufTy).Contents (Elt F) → (⟨S4456448, .i32⟩ : BufTy).Contents (Elt F))
  :: StableHlo.binary main_v12 main_v30 main_v31 (addi : (⟨S4456448, .i32⟩ : BufTy).Contents (Elt F) → (⟨S4456448, .i32⟩ : BufTy).Contents (Elt F) → (⟨S4456448, .i32⟩ : BufTy).Contents (Elt F))
  :: StableHlo.ternary main_v29 main_v31 main_v12 main_v32 (select : (⟨S4456448, .i1⟩ : BufTy).Contents (Elt F) → (⟨S4456448, .i32⟩ : BufTy).Contents (Elt F) → (⟨S4456448, .i32⟩ : BufTy).Contents (Elt F) → (⟨S4456448, .i32⟩ : BufTy).Contents (Elt F))
  :: StableHlo.unary main_v32 main_v33 (broadcastInDim S4456448x1 ![0] bcast_S4456448_S4456448x1_0 : (⟨S4456448, .i32⟩ : BufTy).Contents (Elt F) → (⟨S4456448x1, .i32⟩ : BufTy).Contents (Elt F))
  :: StableHlo.binary main_v20 main_v33 main_v34 ((fun x i => Host.gather gather_S262144_S4456448x1_S4456448_n_0_n_n_0_1_1 x i) : (⟨S262144, .f32⟩ : BufTy).Contents (Elt F) → (⟨S4456448x1, .i32⟩ : BufTy).Contents (Elt F) → (⟨S4456448, .f32⟩ : BufTy).Contents (Elt F))
  :: StableHlo.binary main_v27 main_v34 main_v35 (mulf : (⟨S4456448, .f32⟩ : BufTy).Contents (Elt F) → (⟨S4456448, .f32⟩ : BufTy).Contents (Elt F) → (⟨S4456448, .f32⟩ : BufTy).Contents (Elt F))
  :: StableHlo.unary main_v35 main_v36 (broadcastInDim S4456448x1 ![0] bcast_S4456448_S4456448x1_0 : (⟨S4456448, .f32⟩ : BufTy).Contents (Elt F) → (⟨S4456448x1, .f32⟩ : BufTy).Contents (Elt F))
  :: [] )

/-- The buffers piece 2 writes. -/
abbrev wrQ2 : List (Ref sig .tc) := [main_cst_1, main_v17, main_v18, main_v19, main_cst_2, main_call1.v0.ref, main_call1.v1.ref, main_call1.v2.ref, main_c, main_v21, main_v22, main_c_3, main_v23, main_v24, main_v25, main_v26, main_v27, main_c_4, main_v28, main_v29, main_c_5, main_v30, main_v31, main_v32, main_v33, main_v34, main_v35, main_v36]

set_option maxHeartbeats 40000000 in
/-- Piece 3 of the rest: 19 operations, ending with the one that writes main_v52. -/
abbrev opsQ3 : List (HloOp τ sig (Elt F)) :=
  ( StableHlo.binary main_v5 main_arg4 main_v37 ((fun l r => Host.dotGeneral dot_S262144x1_S1x9_S262144x9_1_0_0_1_n_n none l r) : (⟨S262144x1, .f32⟩ : BufTy).Contents (Elt F) → (⟨S1x9, .f32⟩ : BufTy).Contents (Elt F) → (⟨S262144x9, .f32⟩ : BufTy).Contents (Elt F))
  :: StableHlo.nullary main_c_6 (constantI S_ 32 0#32)
  :: StableHlo.unary main_c_6 main_v38 (broadcastInDim S4456448 ![] bcast_S_S4456448 : (⟨S_, .i32⟩ : BufTy).Contents (Elt F) → (⟨S4456448, .i32⟩ : BufTy).Contents (Elt F))
  :: StableHlo.binary main_v9 main_v38 main_v39 (cmpi .slt : (⟨S4456448, .i32⟩ : BufTy).Contents (Elt F) → (⟨S4456448, .i32⟩ : BufTy).Contents (Elt F) → (⟨S4456448, .i1⟩ : BufTy).Contents (Elt F))
  :: StableHlo.nullary main_c_7 (constantI S_ 32 262144#32)
  :: StableHlo.unary main_c_7 main_v40 (broadcastInDim S4456448 ![] bcast_S_S4456448 : (⟨S_, .i32⟩ : BufTy).Contents (Elt F) → (⟨S4456448, .i32⟩ : BufTy).Contents (Elt F))
  :: StableHlo.binary main_v9 main_v40 main_v41 (addi : (⟨S4456448, .i32⟩ : BufTy).Contents (Elt F) → (⟨S4456448, .i32⟩ : BufTy).Contents (Elt F) → (⟨S4456448, .i32⟩ : BufTy).Contents (Elt F))
  :: StableHlo.ternary main_v39 main_v41 main_v9 main_v42 (select : (⟨S4456448, .i1⟩ : BufTy).Contents (Elt F) → (⟨S4456448, .i32⟩ : BufTy).Contents (Elt F) → (⟨S4456448, .i32⟩ : BufTy).Contents (Elt F) → (⟨S4456448, .i32⟩ : BufTy).Contents (Elt F))
  :: StableHlo.unary main_v42 main_v43 (broadcastInDim S4456448x1 ![0] bcast_S4456448_S4456448x1_0 : (⟨S4456448, .i32⟩ : BufTy).Contents (Elt F) → (⟨S4456448x1, .i32⟩ : BufTy).Contents (Elt F))
  :: StableHlo.binary main_v37 main_v43 main_v44 ((fun x i => Host.gather gather_S262144x9_S4456448x1_S4456448x9_1_0_n_n_0_1_19 x i) : (⟨S262144x9, .f32⟩ : BufTy).Contents (Elt F) → (⟨S4456448x1, .i32⟩ : BufTy).Contents (Elt F) → (⟨S4456448x9, .f32⟩ : BufTy).Contents (Elt F))
  :: StableHlo.unary main_v36 main_v45 (broadcastInDim S4456448x9 ![0, 1] bcast_S4456448x1_S4456448x9_0_1 : (⟨S4456448x1, .f32⟩ : BufTy).Contents (Elt F) → (⟨S4456448x9, .f32⟩ : BufTy).Contents (Elt F))
  :: StableHlo.binary main_v44 main_v45 main_v46 (mulf : (⟨S4456448x9, .f32⟩ : BufTy).Contents (Elt F) → (⟨S4456448x9, .f32⟩ : BufTy).Contents (Elt F) → (⟨S4456448x9, .f32⟩ : BufTy).Contents (Elt F))
  :: StableHlo.nullary main_cst_8 (constant S_ .f32 0x00000000#32)
  :: StableHlo.unary main_cst_8 main_v47 (broadcastInDim S262144x9 ![] bcast_S_S262144x9 : (⟨S_, .f32⟩ : BufTy).Contents (Elt F) → (⟨S262144x9, .f32⟩ : BufTy).Contents (Elt F))
  :: StableHlo.unary main_v12 main_v48 (broadcastInDim S4456448x1 ![0] bcast_S4456448_S4456448x1_0 : (⟨S4456448, .i32⟩ : BufTy).Contents (Elt F) → (⟨S4456448x1, .i32⟩ : BufTy).Contents (Elt F))
  :: StableHlo.ternary main_v47 main_v48 main_v46 main_v49 ((fun x i u => Host.scatterAdd scatter_S262144x9_S4456448x1_S4456448x9_1_0_0_1 x i u) : (⟨S262144x9, .f32⟩ : BufTy).Contents (Elt F) → (⟨S4456448x1, .i32⟩ : BufTy).Contents (Elt F) → (⟨S4456448x9, .f32⟩ : BufTy).Contents (Elt F) → (⟨S262144x9, .f32⟩ : BufTy).Contents (Elt F))
  :: StableHlo.unary main_arg5 main_v50 (broadcastInDim S1x9 ![1] bcast_S9_S1x9_1 : (⟨S9, .f32⟩ : BufTy).Contents (Elt F) → (⟨S1x9, .f32⟩ : BufTy).Contents (Elt F))
  :: StableHlo.unary main_v50 main_v51 (broadcastInDim S262144x9 ![0, 1] bcast_S1x9_S262144x9_0_1 : (⟨S1x9, .f32⟩ : BufTy).Contents (Elt F) → (⟨S262144x9, .f32⟩ : BufTy).Contents (Elt F))
  :: StableHlo.binary main_v49 main_v51 main_v52 (addf : (⟨S262144x9, .f32⟩ : BufTy).Contents (Elt F) → (⟨S262144x9, .f32⟩ : BufTy).Contents (Elt F) → (⟨S262144x9, .f32⟩ : BufTy).Contents (Elt F))
  :: [] )

/-- The buffers piece 3 writes. -/
abbrev wrQ3 : List (Ref sig .tc) := [main_v37, main_c_6, main_v38, main_v39, main_c_7, main_v40, main_v41, main_v42, main_v43, main_v44, main_v45, main_v46, main_cst_8, main_v47, main_v48, main_v49, main_v50, main_v51, main_v52]

set_option maxHeartbeats 40000000 in
/-- Piece 4 of the rest: 19 operations, ending with the one that writes main_v68. -/
abbrev opsQ4 : List (HloOp τ sig (Elt F)) :=
  ( StableHlo.binary main_v52 main_arg6 main_v53 ((fun l r => Host.dotGeneral dot_S262144x9_S9x3_S262144x3_1_0_0_1_n_n none l r) : (⟨S262144x9, .f32⟩ : BufTy).Contents (Elt F) → (⟨S9x3, .f32⟩ : BufTy).Contents (Elt F) → (⟨S262144x3, .f32⟩ : BufTy).Contents (Elt F))
  :: StableHlo.nullary main_c_9 (constantI S_ 32 0#32)
  :: StableHlo.unary main_c_9 main_v54 (broadcastInDim S4456448 ![] bcast_S_S4456448 : (⟨S_, .i32⟩ : BufTy).Contents (Elt F) → (⟨S4456448, .i32⟩ : BufTy).Contents (Elt F))
  :: StableHlo.binary main_v9 main_v54 main_v55 (cmpi .slt : (⟨S4456448, .i32⟩ : BufTy).Contents (Elt F) → (⟨S4456448, .i32⟩ : BufTy).Contents (Elt F) → (⟨S4456448, .i1⟩ : BufTy).Contents (Elt F))
  :: StableHlo.nullary main_c_10 (constantI S_ 32 262144#32)
  :: StableHlo.unary main_c_10 main_v56 (broadcastInDim S4456448 ![] bcast_S_S4456448 : (⟨S_, .i32⟩ : BufTy).Contents (Elt F) → (⟨S4456448, .i32⟩ : BufTy).Contents (Elt F))
  :: StableHlo.binary main_v9 main_v56 main_v57 (addi : (⟨S4456448, .i32⟩ : BufTy).Contents (Elt F) → (⟨S4456448, .i32⟩ : BufTy).Contents (Elt F) → (⟨S4456448, .i32⟩ : BufTy).Contents (Elt F))
  :: StableHlo.ternary main_v55 main_v57 main_v9 main_v58 (select : (⟨S4456448, .i1⟩ : BufTy).Contents (Elt F) → (⟨S4456448, .i32⟩ : BufTy).Contents (Elt F) → (⟨S4456448, .i32⟩ : BufTy).Contents (Elt F) → (⟨S4456448, .i32⟩ : BufTy).Contents (Elt F))
  :: StableHlo.unary main_v58 main_v59 (broadcastInDim S4456448x1 ![0] bcast_S4456448_S4456448x1_0 : (⟨S4456448, .i32⟩ : BufTy).Contents (Elt F) → (⟨S4456448x1, .i32⟩ : BufTy).Contents (Elt F))
  :: StableHlo.binary main_v53 main_v59 main_v60 ((fun x i => Host.gather gather_S262144x3_S4456448x1_S4456448x3_1_0_n_n_0_1_13 x i) : (⟨S262144x3, .f32⟩ : BufTy).Contents (Elt F) → (⟨S4456448x1, .i32⟩ : BufTy).Contents (Elt F) → (⟨S4456448x3, .f32⟩ : BufTy).Contents (Elt F))
  :: StableHlo.unary main_v36 main_v61 (broadcastInDim S4456448x3 ![0, 1] bcast_S4456448x1_S4456448x3_0_1 : (⟨S4456448x1, .f32⟩ : BufTy).Contents (Elt F) → (⟨S4456448x3, .f32⟩ : BufTy).Contents (Elt F))
  :: StableHlo.binary main_v60 main_v61 main_v62 (mulf : (⟨S4456448x3, .f32⟩ : BufTy).Contents (Elt F) → (⟨S4456448x3, .f32⟩ : BufTy).Contents (Elt F) → (⟨S4456448x3, .f32⟩ : BufTy).Contents (Elt F))
  :: StableHlo.nullary main_cst_11 (constant S_ .f32 0x00000000#32)
  :: StableHlo.unary main_cst_11 main_v63 (broadcastInDim S262144x3 ![] bcast_S_S262144x3 : (⟨S_, .f32⟩ : BufTy).Contents (Elt F) → (⟨S262144x3, .f32⟩ : BufTy).Contents (Elt F))
  :: StableHlo.unary main_v12 main_v64 (broadcastInDim S4456448x1 ![0] bcast_S4456448_S4456448x1_0 : (⟨S4456448, .i32⟩ : BufTy).Contents (Elt F) → (⟨S4456448x1, .i32⟩ : BufTy).Contents (Elt F))
  :: StableHlo.ternary main_v63 main_v64 main_v62 main_v65 ((fun x i u => Host.scatterAdd scatter_S262144x3_S4456448x1_S4456448x3_1_0_0_1 x i u) : (⟨S262144x3, .f32⟩ : BufTy).Contents (Elt F) → (⟨S4456448x1, .i32⟩ : BufTy).Contents (Elt F) → (⟨S4456448x3, .f32⟩ : BufTy).Contents (Elt F) → (⟨S262144x3, .f32⟩ : BufTy).Contents (Elt F))
  :: StableHlo.unary main_arg7 main_v66 (broadcastInDim S1x3 ![1] bcast_S3_S1x3_1 : (⟨S3, .f32⟩ : BufTy).Contents (Elt F) → (⟨S1x3, .f32⟩ : BufTy).Contents (Elt F))
  :: StableHlo.unary main_v66 main_v67 (broadcastInDim S262144x3 ![0, 1] bcast_S1x3_S262144x3_0_1 : (⟨S1x3, .f32⟩ : BufTy).Contents (Elt F) → (⟨S262144x3, .f32⟩ : BufTy).Contents (Elt F))
  :: StableHlo.binary main_v65 main_v67 main_v68 (addf : (⟨S262144x3, .f32⟩ : BufTy).Contents (Elt F) → (⟨S262144x3, .f32⟩ : BufTy).Contents (Elt F) → (⟨S262144x3, .f32⟩ : BufTy).Contents (Elt F))
  :: [] )

/-- The buffers piece 4 writes. -/
abbrev wrQ4 : List (Ref sig .tc) := [main_v53, main_c_9, main_v54, main_v55, main_c_10, main_v56, main_v57, main_v58, main_v59, main_v60, main_v61, main_v62, main_cst_11, main_v63, main_v64, main_v65, main_v66, main_v67, main_v68]

set_option maxHeartbeats 40000000 in
/-- Piece 5 of the rest: 19 operations, ending with the one that writes main_v84. -/
abbrev opsQ5 : List (HloOp τ sig (Elt F)) :=
  ( StableHlo.binary main_v68 main_arg8 main_v69 ((fun l r => Host.dotGeneral dot_S262144x3_S3x3_S262144x3_1_0_0_1_n_n none l r) : (⟨S262144x3, .f32⟩ : BufTy).Contents (Elt F) → (⟨S3x3, .f32⟩ : BufTy).Contents (Elt F) → (⟨S262144x3, .f32⟩ : BufTy).Contents (Elt F))
  :: StableHlo.nullary main_c_12 (constantI S_ 32 0#32)
  :: StableHlo.unary main_c_12 main_v70 (broadcastInDim S4456448 ![] bcast_S_S4456448 : (⟨S_, .i32⟩ : BufTy).Contents (Elt F) → (⟨S4456448, .i32⟩ : BufTy).Contents (Elt F))
  :: StableHlo.binary main_v9 main_v70 main_v71 (cmpi .slt : (⟨S4456448, .i32⟩ : BufTy).Contents (Elt F) → (⟨S4456448, .i32⟩ : BufTy).Contents (Elt F) → (⟨S4456448, .i1⟩ : BufTy).Contents (Elt F))
  :: StableHlo.nullary main_c_13 (constantI S_ 32 262144#32)
  :: StableHlo.unary main_c_13 main_v72 (broadcastInDim S4456448 ![] bcast_S_S4456448 : (⟨S_, .i32⟩ : BufTy).Contents (Elt F) → (⟨S4456448, .i32⟩ : BufTy).Contents (Elt F))
  :: StableHlo.binary main_v9 main_v72 main_v73 (addi : (⟨S4456448, .i32⟩ : BufTy).Contents (Elt F) → (⟨S4456448, .i32⟩ : BufTy).Contents (Elt F) → (⟨S4456448, .i32⟩ : BufTy).Contents (Elt F))
  :: StableHlo.ternary main_v71 main_v73 main_v9 main_v74 (select : (⟨S4456448, .i1⟩ : BufTy).Contents (Elt F) → (⟨S4456448, .i32⟩ : BufTy).Contents (Elt F) → (⟨S4456448, .i32⟩ : BufTy).Contents (Elt F) → (⟨S4456448, .i32⟩ : BufTy).Contents (Elt F))
  :: StableHlo.unary main_v74 main_v75 (broadcastInDim S4456448x1 ![0] bcast_S4456448_S4456448x1_0 : (⟨S4456448, .i32⟩ : BufTy).Contents (Elt F) → (⟨S4456448x1, .i32⟩ : BufTy).Contents (Elt F))
  :: StableHlo.binary main_v69 main_v75 main_v76 ((fun x i => Host.gather gather_S262144x3_S4456448x1_S4456448x3_1_0_n_n_0_1_13 x i) : (⟨S262144x3, .f32⟩ : BufTy).Contents (Elt F) → (⟨S4456448x1, .i32⟩ : BufTy).Contents (Elt F) → (⟨S4456448x3, .f32⟩ : BufTy).Contents (Elt F))
  :: StableHlo.unary main_v36 main_v77 (broadcastInDim S4456448x3 ![0, 1] bcast_S4456448x1_S4456448x3_0_1 : (⟨S4456448x1, .f32⟩ : BufTy).Contents (Elt F) → (⟨S4456448x3, .f32⟩ : BufTy).Contents (Elt F))
  :: StableHlo.binary main_v76 main_v77 main_v78 (mulf : (⟨S4456448x3, .f32⟩ : BufTy).Contents (Elt F) → (⟨S4456448x3, .f32⟩ : BufTy).Contents (Elt F) → (⟨S4456448x3, .f32⟩ : BufTy).Contents (Elt F))
  :: StableHlo.nullary main_cst_14 (constant S_ .f32 0x00000000#32)
  :: StableHlo.unary main_cst_14 main_v79 (broadcastInDim S262144x3 ![] bcast_S_S262144x3 : (⟨S_, .f32⟩ : BufTy).Contents (Elt F) → (⟨S262144x3, .f32⟩ : BufTy).Contents (Elt F))
  :: StableHlo.unary main_v12 main_v80 (broadcastInDim S4456448x1 ![0] bcast_S4456448_S4456448x1_0 : (⟨S4456448, .i32⟩ : BufTy).Contents (Elt F) → (⟨S4456448x1, .i32⟩ : BufTy).Contents (Elt F))
  :: StableHlo.ternary main_v79 main_v80 main_v78 main_v81 ((fun x i u => Host.scatterAdd scatter_S262144x3_S4456448x1_S4456448x3_1_0_0_1 x i u) : (⟨S262144x3, .f32⟩ : BufTy).Contents (Elt F) → (⟨S4456448x1, .i32⟩ : BufTy).Contents (Elt F) → (⟨S4456448x3, .f32⟩ : BufTy).Contents (Elt F) → (⟨S262144x3, .f32⟩ : BufTy).Contents (Elt F))
  :: StableHlo.unary main_arg9 main_v82 (broadcastInDim S1x3 ![1] bcast_S3_S1x3_1 : (⟨S3, .f32⟩ : BufTy).Contents (Elt F) → (⟨S1x3, .f32⟩ : BufTy).Contents (Elt F))
  :: StableHlo.unary main_v82 main_v83 (broadcastInDim S262144x3 ![0, 1] bcast_S1x3_S262144x3_0_1 : (⟨S1x3, .f32⟩ : BufTy).Contents (Elt F) → (⟨S262144x3, .f32⟩ : BufTy).Contents (Elt F))
  :: StableHlo.binary main_v81 main_v83 main_v84 (addf : (⟨S262144x3, .f32⟩ : BufTy).Contents (Elt F) → (⟨S262144x3, .f32⟩ : BufTy).Contents (Elt F) → (⟨S262144x3, .f32⟩ : BufTy).Contents (Elt F))
  :: [] )

/-- The buffers piece 5 writes. -/
abbrev wrQ5 : List (Ref sig .tc) := [main_v69, main_c_12, main_v70, main_v71, main_c_13, main_v72, main_v73, main_v74, main_v75, main_v76, main_v77, main_v78, main_cst_14, main_v79, main_v80, main_v81, main_v82, main_v83, main_v84]

set_option maxHeartbeats 40000000 in
/-- Piece 6 of the rest: 33 operations, ending with the one that writes main_call4.call0.v0.ref. -/
abbrev opsQ6 : List (HloOp τ sig (Elt F)) :=
  ( StableHlo.binary main_v84 main_arg10 main_v85 ((fun l r => Host.dotGeneral dot_S262144x3_S3x512_S262144x512_1_0_0_1_n_n none l r) : (⟨S262144x3, .f32⟩ : BufTy).Contents (Elt F) → (⟨S3x512, .f32⟩ : BufTy).Contents (Elt F) → (⟨S262144x512, .f32⟩ : BufTy).Contents (Elt F))
  :: StableHlo.unary main_arg11 main_v86 (broadcastInDim S1x512 ![1] bcast_S512_S1x512_1 : (⟨S512, .f32⟩ : BufTy).Contents (Elt F) → (⟨S1x512, .f32⟩ : BufTy).Contents (Elt F))
  :: StableHlo.unary main_v86 main_v87 (broadcastInDim S262144x512 ![0, 1] bcast_S1x512_S262144x512_0_1 : (⟨S1x512, .f32⟩ : BufTy).Contents (Elt F) → (⟨S262144x512, .f32⟩ : BufTy).Contents (Elt F))
  :: StableHlo.binary main_v85 main_v87 main_v88 (addf : (⟨S262144x512, .f32⟩ : BufTy).Contents (Elt F) → (⟨S262144x512, .f32⟩ : BufTy).Contents (Elt F) → (⟨S262144x512, .f32⟩ : BufTy).Contents (Elt F))
  :: StableHlo.TRef.nullary main_call2.cst (constant S_ .f32 0x00000000#32)
  :: StableHlo.TRef.unary main_call2.cst main_call2.v0 (broadcastInDim S262144x512 ![] bcast_S_S262144x512)
  :: StableHlo.TRef.binary (.of main_v88 : StableHlo.TRef sig ⟨S262144x512, .f32⟩) main_call2.v0 main_call2.v1 (cmpf .oge)
  :: StableHlo.TRef.nullary main_call2.cst_0 (constant S_ .f32 0x3C23D70A#32)
  :: StableHlo.TRef.unary main_call2.cst_0 main_call2.v2 (broadcastInDim S262144x512 ![] bcast_S_S262144x512)
  :: StableHlo.TRef.binary main_call2.v2 (.of main_v88 : StableHlo.TRef sig ⟨S262144x512, .f32⟩) main_call2.v3 mulf
  :: StableHlo.TRef.ternary main_call2.v1 (.of main_v88 : StableHlo.TRef sig ⟨S262144x512, .f32⟩) main_call2.v3 main_call2.call0.v0 select
  :: StableHlo.binary main_v89 main_arg12 main_v90 ((fun l r => Host.dotGeneral dot_S262144x512_S512x128_S262144x128_1_0_0_1_n_n none l r) : (⟨S262144x512, .f32⟩ : BufTy).Contents (Elt F) → (⟨S512x128, .f32⟩ : BufTy).Contents (Elt F) → (⟨S262144x128, .f32⟩ : BufTy).Contents (Elt F))
  :: StableHlo.unary main_arg13 main_v91 (broadcastInDim S1x128 ![1] bcast_S128_S1x128_1 : (⟨S128, .f32⟩ : BufTy).Contents (Elt F) → (⟨S1x128, .f32⟩ : BufTy).Contents (Elt F))
  :: StableHlo.unary main_v91 main_v92 (broadcastInDim S262144x128 ![0, 1] bcast_S1x128_S262144x128_0_1 : (⟨S1x128, .f32⟩ : BufTy).Contents (Elt F) → (⟨S262144x128, .f32⟩ : BufTy).Contents (Elt F))
  :: StableHlo.binary main_v90 main_v92 main_v93 (addf : (⟨S262144x128, .f32⟩ : BufTy).Contents (Elt F) → (⟨S262144x128, .f32⟩ : BufTy).Contents (Elt F) → (⟨S262144x128, .f32⟩ : BufTy).Contents (Elt F))
  :: StableHlo.TRef.nullary main_call3.cst (constant S_ .f32 0x00000000#32)
  :: StableHlo.TRef.unary main_call3.cst main_call3.v0 (broadcastInDim S262144x128 ![] bcast_S_S262144x128)
  :: StableHlo.TRef.binary (.of main_v93 : StableHlo.TRef sig ⟨S262144x128, .f32⟩) main_call3.v0 main_call3.v1 (cmpf .oge)
  :: StableHlo.TRef.nullary main_call3.cst_0 (constant S_ .f32 0x3C23D70A#32)
  :: StableHlo.TRef.unary main_call3.cst_0 main_call3.v2 (broadcastInDim S262144x128 ![] bcast_S_S262144x128)
  :: StableHlo.TRef.binary main_call3.v2 (.of main_v93 : StableHlo.TRef sig ⟨S262144x128, .f32⟩) main_call3.v3 mulf
  :: StableHlo.TRef.ternary main_call3.v1 (.of main_v93 : StableHlo.TRef sig ⟨S262144x128, .f32⟩) main_call3.v3 main_call3.call0.v0 select
  :: StableHlo.binary main_v94 main_arg14 main_v95 ((fun l r => Host.dotGeneral dot_S262144x128_S128x3_S262144x3_1_0_0_1_n_n none l r) : (⟨S262144x128, .f32⟩ : BufTy).Contents (Elt F) → (⟨S128x3, .f32⟩ : BufTy).Contents (Elt F) → (⟨S262144x3, .f32⟩ : BufTy).Contents (Elt F))
  :: StableHlo.unary main_arg15 main_v96 (broadcastInDim S1x3 ![1] bcast_S3_S1x3_1 : (⟨S3, .f32⟩ : BufTy).Contents (Elt F) → (⟨S1x3, .f32⟩ : BufTy).Contents (Elt F))
  :: StableHlo.unary main_v96 main_v97 (broadcastInDim S262144x3 ![0, 1] bcast_S1x3_S262144x3_0_1 : (⟨S1x3, .f32⟩ : BufTy).Contents (Elt F) → (⟨S262144x3, .f32⟩ : BufTy).Contents (Elt F))
  :: StableHlo.binary main_v95 main_v97 main_v98 (addf : (⟨S262144x3, .f32⟩ : BufTy).Contents (Elt F) → (⟨S262144x3, .f32⟩ : BufTy).Contents (Elt F) → (⟨S262144x3, .f32⟩ : BufTy).Contents (Elt F))
  :: StableHlo.TRef.nullary main_call4.cst (constant S_ .f32 0x00000000#32)
  :: StableHlo.TRef.unary main_call4.cst main_call4.v0 (broadcastInDim S262144x3 ![] bcast_S_S262144x3)
  :: StableHlo.TRef.binary (.of main_v98 : StableHlo.TRef sig ⟨S262144x3, .f32⟩) main_call4.v0 main_call4.v1 (cmpf .oge)
  :: StableHlo.TRef.nullary main_call4.cst_0 (constant S_ .f32 0x3C23D70A#32)
  :: StableHlo.TRef.unary main_call4.cst_0 main_call4.v2 (broadcastInDim S262144x3 ![] bcast_S_S262144x3)
  :: StableHlo.TRef.binary main_call4.v2 (.of main_v98 : StableHlo.TRef sig ⟨S262144x3, .f32⟩) main_call4.v3 mulf
  :: StableHlo.TRef.ternary main_call4.v1 (.of main_v98 : StableHlo.TRef sig ⟨S262144x3, .f32⟩) main_call4.v3 main_call4.call0.v0 select
  :: [] )

/-- The buffers piece 6 writes. -/
abbrev wrQ6 : List (Ref sig .tc) := [main_v85, main_v86, main_v87, main_v88, main_call2.cst.ref, main_call2.v0.ref, main_call2.v1.ref, main_call2.cst_0.ref, main_call2.v2.ref, main_call2.v3.ref, main_call2.call0.v0.ref, main_v90, main_v91, main_v92, main_v93, main_call3.cst.ref, main_call3.v0.ref, main_call3.v1.ref, main_call3.cst_0.ref, main_call3.v2.ref, main_call3.v3.ref, main_call3.call0.v0.ref, main_v95, main_v96, main_v97, main_v98, main_call4.cst.ref, main_call4.v0.ref, main_call4.v1.ref, main_call4.cst_0.ref, main_call4.v2.ref, main_call4.v3.ref, main_call4.call0.v0.ref]

set_option maxHeartbeats 40000000 in
/-- The rest of the line is its six pieces in order. -/
theorem opsQ_split : (opsQ : List (HloOp τ sig (Elt F))) = opsQ1 ++ (opsQ2 ++ (opsQ3 ++ (opsQ4 ++ (opsQ5 ++ opsQ6)))) := rfl

set_option maxHeartbeats 40000000 in
/-- The same line cut after its first 19 operations. -/
theorem ops_split : (opsA ++ opsB : List (HloOp τ sig (Elt F))) = opsP ++ opsQ := rfl

set_option maxHeartbeats 40000000 in
theorem opsA_sub : (opsA : List (HloOp τ sig (Elt F))).Forall fun op => op.bufs ⊆ StableHlo.tcRefs τ sig :=
  ⟨StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.nullary_bufs_sub .., StableHlo.unary_bufs_sub .., StableHlo.reshape_bufs_sub .., StableHlo.binary_bufs_sub .., StableHlo.unary_bufs_sub .., StableHlo.reshape_bufs_sub .., StableHlo.binary_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.binary_bufs_sub .., StableHlo.nullary_bufs_sub .., StableHlo.unary_bufs_sub .., StableHlo.unary_bufs_sub ..⟩

set_option maxHeartbeats 40000000 in
theorem opsB_sub : (opsB : List (HloOp τ sig (Elt F))).Forall fun op => op.bufs ⊆ StableHlo.tcRefs τ sig :=
  ⟨StableHlo.ternary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.binary_bufs_sub .., StableHlo.nullary_bufs_sub .., StableHlo.unary_bufs_sub .., StableHlo.unary_bufs_sub .., StableHlo.ternary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub ..⟩

end Cert.ReferenceIdeal.Hand

end
-- ==== Proof.RefRun.lean ====
/-
  The reference's run, read back.

  The reference is a straight line of host operations (its outlined leaky rectifiers and `where`s run their few
  operations at the call, over the call's own buffers), so every weakly fair execution ends with each buffer at the
  fold of the operations' results over the launch memory. Read at the result buffer, that fold is the three-stage
  function `refHead (mid (refInv x W b) …) …` of the argument arrays; read at an argument, it is the argument: no
  operation writes one.
-/
import proofs.«121636_j54065048322436_1_alg».proof.Proof.RefOps
import proofs.«121636_j54065048322436_1_alg».proof.Proof.RefTerm
import Idealize.ShloMosaic.Lib.Pipeline.Frame

set_option maxRecDepth 16384

noncomputable section

namespace Cert.ReferenceIdeal.Hand

open Cert.ReferenceIdeal Idealize.ShloMosaic Idealize.ShloMosaic.TcCoe Idealize.SL.Sem Idealize.ShloMosaic.StableHlo

variable {F : FTy → Type} [FloatOps F]

set_option maxHeartbeats 4000000 in
/-- The first sixty statements are their operations in order: the outlined functions unfolded at their calls, the
    sequencing re-associated. -/
theorem partA_eq (c : Dev nD) : main_part0 (F := F) c = seq opsA := by
  simp only [main_part0, fn_leaky_relu.body, fn_where.body, fn_where_0.body, seq, bind_assoc, pure_bind]
  rfl

set_option maxHeartbeats 4000000 in
/-- The remaining statements likewise. -/
theorem partB_eq (c : Dev nD) : main_part1 (F := F) c = seq opsB := by
  simp only [main_part1, fn_leaky_relu_1.body, fn_where_2.body, fn_leaky_relu_3.body, fn_where_4.body,
    fn_leaky_relu_5.body, fn_where_6.body, seq, bind_assoc, pure_bind]

/-- @main is the two lists run one after the other. -/
theorem main_eq (c : Dev nD) : main (F := F) c = seq (opsA ++ opsB) := by
  rw [seq_append, ← partA_eq c, ← partB_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (opsA ++ opsB : List (HloOp τ sig (Elt F))).Forall fun op => op.bufs ⊆ tcRefs τ sig :=
  List.forall_iff_forall_mem.mpr fun op h => (List.mem_append.mp h).elim
    (List.forall_iff_forall_mem.mp opsA_sub op) (List.forall_iff_forall_mem.mp opsB_sub op)

set_option maxHeartbeats 4000000 in
theorem opsA_fresh : (opsA : List (HloOp τ sig (Elt F))).Forall fun op => op.fresh = ∅ := by
  simp only [List.Forall]; repeat' constructor
set_option maxHeartbeats 4000000 in
theorem opsB_fresh : (opsB : List (HloOp τ sig (Elt F))).Forall fun op => op.fresh = ∅ := by
  simp only [List.Forall]; repeat' constructor

/-- Every weakly fair execution of the reference terminates, and every final state has each buffer at the fold of
    the operations over its launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b)
        = after (opsA ++ opsB) (launchContents m c) (Proc.devRef .tc b) :=
  run_seq scopedRefs_eq scopedSems_eq defs main (fun _ => opsA ++ opsB) main_eq (fun _ => ops_sub) m ρ
    (fun _ op h => (List.mem_append.mp h).elim (List.forall_iff_forall_mem.mp opsA_fresh op)
      (List.forall_iff_forall_mem.mp opsB_fresh op))

/-- An argument's buffer is written by no operation of either list. -/
local macro "kept_by " ops:ident : tactic => `(tactic|
  exact after_of_forall_not_mem _ _ (List.forall_iff_forall_mem.mp (by
    simp only [$ops:ident, List.Forall, nullary_writes, unary_writes, binary_writes, ternary_writes, reshape_writes,
      Finset.mem_singleton]
    repeat' apply And.intro
    all_goals exact devRef_ne_of_ne (by decide))))

set_option maxHeartbeats 4000000 in
theorem keptA_main_arg0 (V : Valuation τ sig (Elt F)) : after opsA V (Proc.devRef .tc main_arg0) = V (Proc.devRef .tc main_arg0) := by kept_by opsA
set_option maxHeartbeats 4000000 in
theorem keptB_main_arg0 (V : Valuation τ sig (Elt F)) : after opsB V (Proc.devRef .tc main_arg0) = V (Proc.devRef .tc main_arg0) := by kept_by opsB
theorem kept_main_arg0 (V : Valuation τ sig (Elt F)) : after (opsA ++ opsB) V (Proc.devRef .tc main_arg0) = V (Proc.devRef .tc main_arg0) := by
  rw [after_append, keptB_main_arg0, keptA_main_arg0]
set_option maxHeartbeats 4000000 in
theorem keptA_main_arg1 (V : Valuation τ sig (Elt F)) : after opsA V (Proc.devRef .tc main_arg1) = V (Proc.devRef .tc main_arg1) := by kept_by opsA
set_option maxHeartbeats 4000000 in
theorem keptB_main_arg1 (V : Valuation τ sig (Elt F)) : after opsB V (Proc.devRef .tc main_arg1) = V (Proc.devRef .tc main_arg1) := by kept_by opsB
theorem kept_main_arg1 (V : Valuation τ sig (Elt F)) : after (opsA ++ opsB) V (Proc.devRef .tc main_arg1) = V (Proc.devRef .tc main_arg1) := by
  rw [after_append, keptB_main_arg1, keptA_main_arg1]
set_option maxHeartbeats 4000000 in
theorem keptA_main_arg2 (V : Valuation τ sig (Elt F)) : after opsA V (Proc.devRef .tc main_arg2) = V (Proc.devRef .tc main_arg2) := by kept_by opsA
set_option maxHeartbeats 4000000 in
theorem keptB_main_arg2 (V : Valuation τ sig (Elt F)) : after opsB V (Proc.devRef .tc main_arg2) = V (Proc.devRef .tc main_arg2) := by kept_by opsB
theorem kept_main_arg2 (V : Valuation τ sig (Elt F)) : after (opsA ++ opsB) V (Proc.devRef .tc main_arg2) = V (Proc.devRef .tc main_arg2) := by
  rw [after_append, keptB_main_arg2, keptA_main_arg2]
set_option maxHeartbeats 4000000 in
theorem keptA_main_arg3 (V : Valuation τ sig (Elt F)) : after opsA V (Proc.devRef .tc main_arg3) = V (Proc.devRef .tc main_arg3) := by kept_by opsA
set_option maxHeartbeats 4000000 in
theorem keptB_main_arg3 (V : Valuation τ sig (Elt F)) : after opsB V (Proc.devRef .tc main_arg3) = V (Proc.devRef .tc main_arg3) := by kept_by opsB
theorem kept_main_arg3 (V : Valuation τ sig (Elt F)) : after (opsA ++ opsB) V (Proc.devRef .tc main_arg3) = V (Proc.devRef .tc main_arg3) := by
  rw [after_append, keptB_main_arg3, keptA_main_arg3]
set_option maxHeartbeats 4000000 in
theorem keptA_main_arg4 (V : Valuation τ sig (Elt F)) : after opsA V (Proc.devRef .tc main_arg4) = V (Proc.devRef .tc main_arg4) := by kept_by opsA
set_option maxHeartbeats 4000000 in
theorem keptB_main_arg4 (V : Valuation τ sig (Elt F)) : after opsB V (Proc.devRef .tc main_arg4) = V (Proc.devRef .tc main_arg4) := by kept_by opsB
theorem kept_main_arg4 (V : Valuation τ sig (Elt F)) : after (opsA ++ opsB) V (Proc.devRef .tc main_arg4) = V (Proc.devRef .tc main_arg4) := by
  rw [after_append, keptB_main_arg4, keptA_main_arg4]
set_option maxHeartbeats 4000000 in
theorem keptA_main_arg5 (V : Valuation τ sig (Elt F)) : after opsA V (Proc.devRef .tc main_arg5) = V (Proc.devRef .tc main_arg5) := by kept_by opsA
set_option maxHeartbeats 4000000 in
theorem keptB_main_arg5 (V : Valuation τ sig (Elt F)) : after opsB V (Proc.devRef .tc main_arg5) = V (Proc.devRef .tc main_arg5) := by kept_by opsB
theorem kept_main_arg5 (V : Valuation τ sig (Elt F)) : after (opsA ++ opsB) V (Proc.devRef .tc main_arg5) = V (Proc.devRef .tc main_arg5) := by
  rw [after_append, keptB_main_arg5, keptA_main_arg5]
set_option maxHeartbeats 4000000 in
theorem keptA_main_arg6 (V : Valuation τ sig (Elt F)) : after opsA V (Proc.devRef .tc main_arg6) = V (Proc.devRef .tc main_arg6) := by kept_by opsA
set_option maxHeartbeats 4000000 in
theorem keptB_main_arg6 (V : Valuation τ sig (Elt F)) : after opsB V (Proc.devRef .tc main_arg6) = V (Proc.devRef .tc main_arg6) := by kept_by opsB
theorem kept_main_arg6 (V : Valuation τ sig (Elt F)) : after (opsA ++ opsB) V (Proc.devRef .tc main_arg6) = V (Proc.devRef .tc main_arg6) := by
  rw [after_append, keptB_main_arg6, keptA_main_arg6]
set_option maxHeartbeats 4000000 in
theorem keptA_main_arg7 (V : Valuation τ sig (Elt F)) : after opsA V (Proc.devRef .tc main_arg7) = V (Proc.devRef .tc main_arg7) := by kept_by opsA
set_option maxHeartbeats 4000000 in
theorem keptB_main_arg7 (V : Valuation τ sig (Elt F)) : after opsB V (Proc.devRef .tc main_arg7) = V (Proc.devRef .tc main_arg7) := by kept_by opsB
theorem kept_main_arg7 (V : Valuation τ sig (Elt F)) : after (opsA ++ opsB) V (Proc.devRef .tc main_arg7) = V (Proc.devRef .tc main_arg7) := by
  rw [after_append, keptB_main_arg7, keptA_main_arg7]
set_option maxHeartbeats 4000000 in
theorem keptA_main_arg8 (V : Valuation τ sig (Elt F)) : after opsA V (Proc.devRef .tc main_arg8) = V (Proc.devRef .tc main_arg8) := by kept_by opsA
set_option maxHeartbeats 4000000 in
theorem keptB_main_arg8 (V : Valuation τ sig (Elt F)) : after opsB V (Proc.devRef .tc main_arg8) = V (Proc.devRef .tc main_arg8) := by kept_by opsB
theorem kept_main_arg8 (V : Valuation τ sig (Elt F)) : after (opsA ++ opsB) V (Proc.devRef .tc main_arg8) = V (Proc.devRef .tc main_arg8) := by
  rw [after_append, keptB_main_arg8, keptA_main_arg8]
set_option maxHeartbeats 4000000 in
theorem keptA_main_arg9 (V : Valuation τ sig (Elt F)) : after opsA V (Proc.devRef .tc main_arg9) = V (Proc.devRef .tc main_arg9) := by kept_by opsA
set_option maxHeartbeats 4000000 in
theorem keptB_main_arg9 (V : Valuation τ sig (Elt F)) : after opsB V (Proc.devRef .tc main_arg9) = V (Proc.devRef .tc main_arg9) := by kept_by opsB
theorem kept_main_arg9 (V : Valuation τ sig (Elt F)) : after (opsA ++ opsB) V (Proc.devRef .tc main_arg9) = V (Proc.devRef .tc main_arg9) := by
  rw [after_append, keptB_main_arg9, keptA_main_arg9]
set_option maxHeartbeats 4000000 in
theorem keptA_main_arg10 (V : Valuation τ sig (Elt F)) : after opsA V (Proc.devRef .tc main_arg10) = V (Proc.devRef .tc main_arg10) := by kept_by opsA
set_option maxHeartbeats 4000000 in
theorem keptB_main_arg10 (V : Valuation τ sig (Elt F)) : after opsB V (Proc.devRef .tc main_arg10) = V (Proc.devRef .tc main_arg10) := by kept_by opsB
theorem kept_main_arg10 (V : Valuation τ sig (Elt F)) : after (opsA ++ opsB) V (Proc.devRef .tc main_arg10) = V (Proc.devRef .tc main_arg10) := by
  rw [after_append, keptB_main_arg10, keptA_main_arg10]
set_option maxHeartbeats 4000000 in
theorem keptA_main_arg11 (V : Valuation τ sig (Elt F)) : after opsA V (Proc.devRef .tc main_arg11) = V (Proc.devRef .tc main_arg11) := by kept_by opsA
set_option maxHeartbeats 4000000 in
theorem keptB_main_arg11 (V : Valuation τ sig (Elt F)) : after opsB V (Proc.devRef .tc main_arg11) = V (Proc.devRef .tc main_arg11) := by kept_by opsB
theorem kept_main_arg11 (V : Valuation τ sig (Elt F)) : after (opsA ++ opsB) V (Proc.devRef .tc main_arg11) = V (Proc.devRef .tc main_arg11) := by
  rw [after_append, keptB_main_arg11, keptA_main_arg11]
set_option maxHeartbeats 4000000 in
theorem keptA_main_arg12 (V : Valuation τ sig (Elt F)) : after opsA V (Proc.devRef .tc main_arg12) = V (Proc.devRef .tc main_arg12) := by kept_by opsA
set_option maxHeartbeats 4000000 in
theorem keptB_main_arg12 (V : Valuation τ sig (Elt F)) : after opsB V (Proc.devRef .tc main_arg12) = V (Proc.devRef .tc main_arg12) := by kept_by opsB
theorem kept_main_arg12 (V : Valuation τ sig (Elt F)) : after (opsA ++ opsB) V (Proc.devRef .tc main_arg12) = V (Proc.devRef .tc main_arg12) := by
  rw [after_append, keptB_main_arg12, keptA_main_arg12]
set_option maxHeartbeats 4000000 in
theorem keptA_main_arg13 (V : Valuation τ sig (Elt F)) : after opsA V (Proc.devRef .tc main_arg13) = V (Proc.devRef .tc main_arg13) := by kept_by opsA
set_option maxHeartbeats 4000000 in
theorem keptB_main_arg13 (V : Valuation τ sig (Elt F)) : after opsB V (Proc.devRef .tc main_arg13) = V (Proc.devRef .tc main_arg13) := by kept_by opsB
theorem kept_main_arg13 (V : Valuation τ sig (Elt F)) : after (opsA ++ opsB) V (Proc.devRef .tc main_arg13) = V (Proc.devRef .tc main_arg13) := by
  rw [after_append, keptB_main_arg13, keptA_main_arg13]
set_option maxHeartbeats 4000000 in
theorem keptA_main_arg14 (V : Valuation τ sig (Elt F)) : after opsA V (Proc.devRef .tc main_arg14) = V (Proc.devRef .tc main_arg14) := by kept_by opsA
set_option maxHeartbeats 4000000 in
theorem keptB_main_arg14 (V : Valuation τ sig (Elt F)) : after opsB V (Proc.devRef .tc main_arg14) = V (Proc.devRef .tc main_arg14) := by kept_by opsB
theorem kept_main_arg14 (V : Valuation τ sig (Elt F)) : after (opsA ++ opsB) V (Proc.devRef .tc main_arg14) = V (Proc.devRef .tc main_arg14) := by
  rw [after_append, keptB_main_arg14, keptA_main_arg14]
set_option maxHeartbeats 4000000 in
theorem keptA_main_arg15 (V : Valuation τ sig (Elt F)) : after opsA V (Proc.devRef .tc main_arg15) = V (Proc.devRef .tc main_arg15) := by kept_by opsA
set_option maxHeartbeats 4000000 in
theorem keptB_main_arg15 (V : Valuation τ sig (Elt F)) : after opsB V (Proc.devRef .tc main_arg15) = V (Proc.devRef .tc main_arg15) := by kept_by opsB
theorem kept_main_arg15 (V : Valuation τ sig (Elt F)) : after (opsA ++ opsB) V (Proc.devRef .tc main_arg15) = V (Proc.devRef .tc main_arg15) := by
  rw [after_append, keptB_main_arg15, keptA_main_arg15]

end Cert.ReferenceIdeal.Hand

end
-- ==== Proof.RefValue.lean ====
/-
  What the reference computes: the fold of its operations, read at the result buffer, is the three-stage function
  of the argument arrays — the head of the graph part of the input transform. The line is read piece by piece: its
  first nineteen operations (the input transform, its cast to per-node features, and the edge list's two index
  vectors), then the in-degrees, the normalisation, the three rounds, and the head. Each piece is read from ARBITRARY contents: the
  value it writes is its operations' text composed over the contents it finds, and it leaves every buffer it does not
  write as it found it. The gathers and scatter-adds are never opened.
-/
import proofs.«121636_j54065048322436_1_alg».proof.Proof.RefOps
import proofs.«121636_j54065048322436_1_alg».proof.Proof.RefTerm
import Idealize.ShloMosaic.Lib.Pipeline.Frame

set_option maxRecDepth 65536

noncomputable section

namespace Cert.ReferenceIdeal.Hand

open Cert.ReferenceIdeal Idealize.ShloMosaic Idealize.ShloMosaic.TcCoe Idealize.SL.Sem Idealize.ShloMosaic.StableHlo

/-- A piece writes only the buffers of its list: each operation's one result is in it. -/
local macro "writes_in " ops:ident : tactic => `(tactic|
  (simp only [$ops:ident, List.Forall, nullary_writes, unary_writes, binary_writes, ternary_writes, reshape_writes]
   repeat' apply And.intro
   all_goals exact Finset.singleton_subset_iff.mpr (List.mem_toFinset.mpr (List.mem_map_of_mem (by decide)))))

section Pieces
variable (W : Valuation τ sig (Elt Ideal))

/-! ### The first nineteen operations -/

theorem first_nodes : after opsP W (Proc.devRef .tc main_v5)
    = Cert.RefTerm.nodes (Cert.RefTerm.refInv (W (Proc.devRef .tc main_arg0)) (W (Proc.devRef .tc main_arg2)) (W (Proc.devRef .tc main_arg3))) := by
  after_results_simp
  simp only [TRef.ofBuf, TRef.toBuf, cast_eq]
  rfl

theorem first_src : after opsP W (Proc.devRef .tc main_v9) = Cert.RefTerm.srcOf (W (Proc.devRef .tc main_arg1)) := by
  after_results_simp
  rfl

theorem first_dst : after opsP W (Proc.devRef .tc main_v12) = Cert.RefTerm.dstOf (W (Proc.devRef .tc main_arg1)) := by
  after_results_simp
  rfl

/-- The buffers the first nineteen operations write. -/
abbrev wrP : List (Ref sig .tc) := [main_v0, main_v1, main_v2, main_v3, main_call0.cst.ref, main_call0.v0.ref, main_call0.v1.ref,
  main_call0.cst_0.ref, main_call0.v2.ref, main_call0.v3.ref, main_v4, main_v5, main_v6, main_v7, main_v8, main_v9, main_v10, main_v11, main_v12]

theorem keepP (r : Ref sig .tc) (hr : r ∉ wrP) : after opsP W (no_index (Proc.devRef .tc r)) = W (Proc.devRef .tc r) :=
  after_of_writes_sub opsP W (by writes_in opsP) hr

/-! ### The in-degrees, then the normalisation from them -/

/-- The in-degrees after the first piece of the rest: the scatter-add of ones into the targets it finds. -/
theorem deg_val : after opsQ1 W (Proc.devRef .tc main_v16)
    = (Host.scatterAdd (F := Ideal) scatter_S262144_S4456448x1_S4456448_n_0_0_1
        (broadcastInDim S262144 ![] Facts₀.bcast_S_S262144 (constant (F := Ideal) S_ .f32 0x00000000#32))
        (broadcastInDim S4456448x1 ![0] Facts₀.bcast_S4456448_S4456448x1_0 (W (Proc.devRef .tc main_v12)))
        (broadcastInDim S4456448 ![] Facts₀.bcast_S_S4456448 (constant (F := Ideal) S_ .f32 0x3F800000#32))) := by
  after_results_simp

theorem keepQ1 (r : Ref sig .tc) (hr : r ∉ wrQ1) : after opsQ1 W (no_index (Proc.devRef .tc r)) = W (Proc.devRef .tc r) :=
  after_of_writes_sub opsQ1 W (by writes_in opsQ1) hr

attribute [local irreducible] Host.gather in
theorem norm_val : after opsQ2 W (Proc.devRef .tc main_v36)
    = Cert.RefTerm.normFrom (W (Proc.devRef .tc main_v16)) (W (Proc.devRef .tc main_v9)) (W (Proc.devRef .tc main_v12)) := by
  after_results_simp
  simp only [TRef.ofBuf, TRef.toBuf, cast_eq]
  rfl

theorem keepQ2 (r : Ref sig .tc) (hr : r ∉ wrQ2) : after opsQ2 W (no_index (Proc.devRef .tc r)) = W (Proc.devRef .tc r) :=
  after_of_writes_sub opsQ2 W (by writes_in opsQ2) hr

/-! ### The three rounds -/

attribute [local irreducible] Host.scatterAdd Host.gather in
theorem round1_val : after opsQ3 W (Proc.devRef .tc main_v52)
    = Cert.RefTerm.round1 (W (Proc.devRef .tc main_v5)) (W (Proc.devRef .tc main_v9)) (W (Proc.devRef .tc main_v12)) (W (Proc.devRef .tc main_v36)) (W (Proc.devRef .tc main_arg4)) (W (Proc.devRef .tc main_arg5)) := by
  after_results_simp
  rfl

theorem keepQ3 (r : Ref sig .tc) (hr : r ∉ wrQ3) : after opsQ3 W (no_index (Proc.devRef .tc r)) = W (Proc.devRef .tc r) :=
  after_of_writes_sub opsQ3 W (by writes_in opsQ3) hr

attribute [local irreducible] Host.scatterAdd Host.gather in
theorem round2_val : after opsQ4 W (Proc.devRef .tc main_v68)
    = Cert.RefTerm.round2 (W (Proc.devRef .tc main_v52)) (W (Proc.devRef .tc main_v9)) (W (Proc.devRef .tc main_v12)) (W (Proc.devRef .tc main_v36)) (W (Proc.devRef .tc main_arg6)) (W (Proc.devRef .tc main_arg7)) := by
  after_results_simp
  rfl

theorem keepQ4 (r : Ref sig .tc) (hr : r ∉ wrQ4) : after opsQ4 W (no_index (Proc.devRef .tc r)) = W (Proc.devRef .tc r) :=
  after_of_writes_sub opsQ4 W (by writes_in opsQ4) hr

attribute [local irreducible] Host.scatterAdd Host.gather in
theorem round3_val : after opsQ5 W (Proc.devRef .tc main_v84)
    = Cert.RefTerm.round3 (W (Proc.devRef .tc main_v68)) (W (Proc.devRef .tc main_v9)) (W (Proc.devRef .tc main_v12)) (W (Proc.devRef .tc main_v36)) (W (Proc.devRef .tc main_arg8)) (W (Proc.devRef .tc main_arg9)) := by
  after_results_simp
  rfl

theorem keepQ5 (r : Ref sig .tc) (hr : r ∉ wrQ5) : after opsQ5 W (no_index (Proc.devRef .tc r)) = W (Proc.devRef .tc r) :=
  after_of_writes_sub opsQ5 W (by writes_in opsQ5) hr

/-! ### The head -/

theorem head_val : after opsQ6 W (Proc.devRef .tc main_v99)
    = Cert.RefTerm.refHead (W (Proc.devRef .tc main_v84)) (W (Proc.devRef .tc main_arg10)) (W (Proc.devRef .tc main_arg11)) (W (Proc.devRef .tc main_arg12))
        (W (Proc.devRef .tc main_arg13)) (W (Proc.devRef .tc main_arg14)) (W (Proc.devRef .tc main_arg15)) := by
  after_results_simp
  simp only [TRef.ofBuf, TRef.toBuf, cast_eq]
  rfl

end Pieces

/-- The result buffer after the whole line, from any contents `V`: the head applied to the graph part applied to the
    input transform, of `V`'s argument arrays. Each piece's value is read where it is written and carried unchanged
    through the pieces after it. -/
theorem out_eq (V : Valuation τ sig (Elt Ideal)) :
    after (opsA ++ opsB) V (Proc.devRef .tc main_v99)
      = Cert.RefTerm.refHead
          (Cert.RefTerm.mid (Cert.RefTerm.refInv (V (Proc.devRef .tc main_arg0)) (V (Proc.devRef .tc main_arg2)) (V (Proc.devRef .tc main_arg3)))
            (V (Proc.devRef .tc main_arg1)) (V (Proc.devRef .tc main_arg4)) (V (Proc.devRef .tc main_arg5)) (V (Proc.devRef .tc main_arg6))
            (V (Proc.devRef .tc main_arg7)) (V (Proc.devRef .tc main_arg8)) (V (Proc.devRef .tc main_arg9)))
          (V (Proc.devRef .tc main_arg10)) (V (Proc.devRef .tc main_arg11)) (V (Proc.devRef .tc main_arg12))
          (V (Proc.devRef .tc main_arg13)) (V (Proc.devRef .tc main_arg14)) (V (Proc.devRef .tc main_arg15)) := by
  rw [ops_split, opsQ_split]
  simp only [after_append]
  rw [head_val, round3_val]
  simp (disch := decide) only [keepQ5]
  rw [round2_val]
  simp (disch := decide) only [keepQ4]
  rw [round1_val]
  simp (disch := decide) only [keepQ3]
  rw [norm_val]
  simp (disch := decide) only [keepQ2, keepQ1]
  rw [first_nodes, first_src, first_dst]
  simp (disch := decide) only [keepP]
  rw [deg_val, first_dst, Cert.RefTerm.mid, Cert.RefTerm.graph]

end Cert.ReferenceIdeal.Hand

end
-- ==== Proof.LibDenseLayer.lean ====
/-
  A dense layer read at one entry, on the extended reals.

  A dense layer is a matrix product, a bias row added to every row of the product, and the leaky rectifier
  `x ↦ if x ≥ 0 then x else c·x` (the slope `c` the f32 literal 0x3C23D70A) applied entrywise. Two programs
  spell it differently. A kernel accumulates the product into a zero splat, lays its one-row bias block down the
  rows by a shape cast and a broadcast, and compares and scales against splats of scalar constants. A host
  program takes the product with no accumulator, lays its bias vector along the rows by two broadcasts in
  dimensions (first to one row, then down the rows), and compares and scales against rank-0 constants broadcast to
  the whole array. This module reads both spellings, for any extents `m`, `k`, `n`, at an entry (r, j), to the
  same term `Cert.DenseRow.denseRow`: the rectifier of `Σ_c A(r, c) · W(c, j) + b(j)`, a function of row `r` of the
  input alone.

  `kernelPre_apply` / `hostPre_apply` read the product plus the bias at an entry (the contraction's sum re-indexed
  over the contracted coordinate, the laid-out bias read back to the bias entry); `kernelLayer_apply` /
  `hostLayer_apply` put the rectifier around them, which takes no case split: both spellings compare with the same
  zero and choose between the same two values as `Cert.DenseRow.leakyE` does. Both are stated for every row `r` and
  column `j`, so a layer whose input is another layer's output is read by using the lemma again at every entry of
  that input's row.
-/
import Idealize.ShloMosaic.Lib.StackMember
import Idealize.ShloMosaic.Lib.KernelVsHost
import proofs.«121636_j54065048322436_1_alg».proof.Proof.LibDenseRow

noncomputable section

namespace Cert.DenseLayer

open Idealize.ShloMosaic Idealize.ShloMosaic.ValueIdx Cert.DenseRow

variable {m k n : Nat}

/-! ## The product plus the bias, at an entry -/

/-- A kernel's product accumulated into the zero splat, plus its one-row bias block cast to itself and broadcast
    down the rows, read at (r, j): the sum over the contracted coordinate plus the bias entry (0, j). -/
theorem kernelPre_apply (A : FVec Ideal ⟨2, ![m, k]⟩ .f32) (W : FVec Ideal ⟨2, ![k, n]⟩ .f32)
    (b : FVec Ideal ⟨2, ![1, n]⟩ .f32) (h1 : (⟨2, ![1, n]⟩ : Shape).ShapeCasts ⟨2, ![1, n]⟩)
    (hb : (⟨2, ![1, n]⟩ : Shape).Broadcasts ⟨2, ![m, n]⟩) (r : Fin m) (j : Fin n) :
    addf (matmul (DotDims.plain m k n) none A W (constant ⟨2, ![m, n]⟩ .f32 0x00000000#32))
        (broadcastTo ⟨2, ![m, n]⟩ (shapeCast ⟨2, ![1, n]⟩ b h1) hb) (ix2 r j)
      = (∑ c : Fin k, A (ix2 r c) * W (ix2 c j)) + b (ix2 (0 : Fin 1) j) := by
  have e1 : matmul (DotDims.plain m k n) none A W (constant ⟨2, ![m, n]⟩ .f32 0x00000000#32) (ix2 r j)
      = ∑ c : Fin k, A (ix2 r c) * W (ix2 c j) :=
    (congrFun (matmul_zero_eq_dotGeneral (DotDims.plain m k n) none A W) (ix2 r j)).trans
      (StackMember.dotGeneral_plain_apply none A W r j)
  have e2 : broadcastTo ⟨2, ![m, n]⟩ (shapeCast ⟨2, ![1, n]⟩ b h1) hb (ix2 r j) = b (ix2 (0 : Fin 1) j) := by
    rw [shapeCast_self]
    refine broadcastTo_apply b hb (ix2 r j) (ix2 (0 : Fin 1) j) ?_
    intro a
    match a with
    | ⟨0, _⟩ => rfl
    | ⟨1, _⟩ =>
      show j.val = if n = 1 then 0 else j.val
      split
      · have := j.isLt; omega
      · rfl
  exact (addf_apply _ _ _).trans (congrArg₂ (· + ·) e1 e2)

/-- A host program's product, plus its bias vector broadcast to one row and then down the rows, read at (r, j): the
    sum over the contracted coordinate plus the bias entry j. -/
theorem hostPre_apply (A : FVec Ideal ⟨2, ![m, k]⟩ .f32) (W : FVec Ideal ⟨2, ![k, n]⟩ .f32)
    (b : FVec Ideal ⟨1, ![n]⟩ .f32) (h1 : (⟨1, ![n]⟩ : Shape).BroadcastsInDim ⟨2, ![1, n]⟩ ![1])
    (h2 : (⟨2, ![1, n]⟩ : Shape).BroadcastsInDim ⟨2, ![m, n]⟩ ![0, 1]) (r : Fin m) (j : Fin n) :
    addf (Host.dotGeneral (F := Ideal) (DotDims.plain m k n) none A W)
        (broadcastInDim ⟨2, ![m, n]⟩ ![0, 1] h2 (broadcastInDim ⟨2, ![1, n]⟩ ![1] h1 b)) (ix2 r j)
      = (∑ c : Fin k, A (ix2 r c) * W (ix2 c j)) + b (ix1 j) := by
  have e1 : Host.dotGeneral (F := Ideal) (DotDims.plain m k n) none A W (ix2 r j)
      = ∑ c : Fin k, A (ix2 r c) * W (ix2 c j) := StackMember.dotGeneral_plain_apply none A W r j
  have e2 : broadcastInDim ⟨2, ![m, n]⟩ ![0, 1] h2 (broadcastInDim ⟨2, ![1, n]⟩ ![1] h1 b) (ix2 r j) = b (ix1 j) := by
    refine (broadcastInDim_oneRow_apply h2 _ r j).trans ?_
    refine broadcastInDim_apply ![1] h1 b (ix2 (0 : Fin 1) j) (ix1 j) ?_
    intro a
    match a with
    | ⟨0, _⟩ =>
      show j.val = if n = 1 then 0 else j.val
      split
      · have := j.isLt; omega
      · rfl
  exact (addf_apply _ _ _).trans (congrArg₂ (· + ·) e1 e2)

/-! ## The layer, at an entry -/

/-- A KERNEL's dense layer read at (r, j) is `denseRow` of row `r` of its input: `tpu.matmul` into the zero splat,
    the bias block's cast and broadcast, `arith.cmpf oge` against the zero splat, `arith.mulf` by the slope's splat,
    `arith.select`. `D` is the printed dimension numbers, which are the plain product's. -/
theorem kernelLayer_apply (D : DotDims ⟨2, ![m, k]⟩ ⟨2, ![k, n]⟩ ⟨2, ![m, n]⟩) (hD : D = DotDims.plain m k n)
    (A : FVec Ideal ⟨2, ![m, k]⟩ .f32) (W : FVec Ideal ⟨2, ![k, n]⟩ .f32) (b : FVec Ideal ⟨2, ![1, n]⟩ .f32)
    (h1 : (⟨2, ![1, n]⟩ : Shape).ShapeCasts ⟨2, ![1, n]⟩) (hb : (⟨2, ![1, n]⟩ : Shape).Broadcasts ⟨2, ![m, n]⟩)
    (r : Fin m) (j : Fin n) :
    select
        (cmpf .oge
          (addf (matmul D none A W (constant ⟨2, ![m, n]⟩ .f32 0x00000000#32))
            (broadcastTo ⟨2, ![m, n]⟩ (shapeCast ⟨2, ![1, n]⟩ b h1) hb))
          (broadcast ⟨2, ![m, n]⟩ (Scalar.ofBits (F := Ideal) .f32 0x00000000#32)))
        (addf (matmul D none A W (constant ⟨2, ![m, n]⟩ .f32 0x00000000#32))
          (broadcastTo ⟨2, ![m, n]⟩ (shapeCast ⟨2, ![1, n]⟩ b h1) hb))
        (mulf (broadcast ⟨2, ![m, n]⟩ (Scalar.ofBits (F := Ideal) .f32 0x3C23D70A#32))
          (addf (matmul D none A W (constant ⟨2, ![m, n]⟩ .f32 0x00000000#32))
            (broadcastTo ⟨2, ![m, n]⟩ (shapeCast ⟨2, ![1, n]⟩ b h1) hb)))
        (ix2 r j)
      = denseRow (fun c => A (ix2 r c)) W (fun l => b (ix2 (0 : Fin 1) l)) j := by
  subst hD
  exact congrArg leakyE (kernelPre_apply A W b h1 hb r j)

/-- A HOST program's dense layer read at (r, j) is `denseRow` of row `r` of its input: `dot_general`, the bias
    vector's two broadcasts in dimensions, a comparison with the broadcast rank-0 zero, a product with the broadcast
    rank-0 slope, `select`. `D` is the printed dimension numbers, which are the plain product's. -/
theorem hostLayer_apply (D : DotDims ⟨2, ![m, k]⟩ ⟨2, ![k, n]⟩ ⟨2, ![m, n]⟩) (hD : D = DotDims.plain m k n)
    (A : FVec Ideal ⟨2, ![m, k]⟩ .f32) (W : FVec Ideal ⟨2, ![k, n]⟩ .f32) (b : FVec Ideal ⟨1, ![n]⟩ .f32)
    (h0 : (⟨0, ![]⟩ : Shape).BroadcastsInDim ⟨2, ![m, n]⟩ (![] : Fin 0 → Fin 2))
    (h1 : (⟨1, ![n]⟩ : Shape).BroadcastsInDim ⟨2, ![1, n]⟩ ![1])
    (h2 : (⟨2, ![1, n]⟩ : Shape).BroadcastsInDim ⟨2, ![m, n]⟩ ![0, 1]) (r : Fin m) (j : Fin n) :
    select
        (cmpf .oge
          (addf (Host.dotGeneral (F := Ideal) D none A W)
            (broadcastInDim ⟨2, ![m, n]⟩ ![0, 1] h2 (broadcastInDim ⟨2, ![1, n]⟩ ![1] h1 b)))
          (broadcastInDim ⟨2, ![m, n]⟩ ![] h0 (constant (F := Ideal) ⟨0, ![]⟩ .f32 0x00000000#32)))
        (addf (Host.dotGeneral (F := Ideal) D none A W)
          (broadcastInDim ⟨2, ![m, n]⟩ ![0, 1] h2 (broadcastInDim ⟨2, ![1, n]⟩ ![1] h1 b)))
        (mulf (broadcastInDim ⟨2, ![m, n]⟩ ![] h0 (constant (F := Ideal) ⟨0, ![]⟩ .f32 0x3C23D70A#32))
          (addf (Host.dotGeneral (F := Ideal) D none A W)
            (broadcastInDim ⟨2, ![m, n]⟩ ![0, 1] h2 (broadcastInDim ⟨2, ![1, n]⟩ ![1] h1 b))))
        (ix2 r j)
      = denseRow (fun c => A (ix2 r c)) W (fun l => b (ix1 l)) j := by
  subst hD
  exact congrArg leakyE (hostPre_apply A W b h1 h2 r j)

end Cert.DenseLayer

end
-- ==== Proof.Layers.lean ====
/-
  The two programs' dense layers, each read at one entry as rows of `Cert.DenseRow.denseRow`.

  The kernel program has two kernels: the first stores one dense layer of a 512-row block of its input, the second
  three dense layers, one after the other, of a 2048-row block. The reference applies the same layers to whole
  arrays: the input transform (one layer on 2048 rows) and the head (three layers on 262144 rows). A dense layer's
  output row depends on the same row of its input only, so each of the four values, read at an entry (r, j), is a
  function of row `r` of its input block or array: one `denseRow`, or three nested. The one-layer statements are
  the general layer lemmas at this program's extents and printed dimension numbers (which are the plain product's,
  field by field). In the three-layer statements the outer layer is read at (r, j) first; its input row is the row
  `c ↦ (middle layer) (r, c)`, read by the same lemma at every column `c`, and so on inwards. The second kernel
  first casts its input block to its own shape, which changes nothing.
-/
import proofs.«121636_j54065048322436_1_alg».proof.Proof.LibDenseLayer
import proofs.«121636_j54065048322436_1_alg».proof.Proof.RefTerm
import proofs.«121636_j54065048322436_1_alg».proof.Proof.Gen.KernelIdeal.Skeleton

noncomputable section

namespace Cert.Layers

open Idealize.ShloMosaic Idealize.ShloMosaic.ValueIdx Cert.DenseRow

/-- The first kernel's stored block at (y, j): one dense layer of row `y` of the loaded input block. -/
theorem inv_kernel_apply (v0 : Vec Ideal Cert.KernelIdeal.S512x64 .f32) (v1 : Vec Ideal Cert.KernelIdeal.S64x128 .f32) (v3 : Vec Ideal Cert.KernelIdeal.S1x128 .f32) (y : Fin 512) (j : Fin 128) :
    Cert.KernelIdeal.Gen.k0_pay1 (F := Ideal) v0 v1 v3 (ix2 y j) = denseRow (fun c => v0 (ix2 y c)) v1 (fun l => v3 (ix2 0 l)) j :=
  Cert.DenseLayer.kernelLayer_apply Cert.KernelIdeal.dot_S512x64_S64x128_S512x128_1_0_0_1_n_n rfl v0 v1 v3 _ _ y j

/-- The second kernel's stored block at (y, j): three dense layers of row `y` of the loaded input block. -/
theorem head_kernel_apply (v0 : Vec Ideal Cert.KernelIdeal.S2048x3 .f32) (v2 : Vec Ideal Cert.KernelIdeal.S3x512 .f32) (v4 : Vec Ideal Cert.KernelIdeal.S1x512 .f32) (v13 : Vec Ideal Cert.KernelIdeal.S512x128 .f32) (v15 : Vec Ideal Cert.KernelIdeal.S1x128 .f32) (v24 : Vec Ideal Cert.KernelIdeal.S128x3 .f32) (v26 : Vec Ideal Cert.KernelIdeal.S1x3 .f32) (y : Fin 2048) (j : Fin 3) :
    Cert.KernelIdeal.Gen.k1_pay1 (F := Ideal) v0 v2 v4 v13 v15 v24 v26 (ix2 y j)
      = denseRow (denseRow (denseRow (fun c => v0 (ix2 y c)) v2 (fun l => v4 (ix2 0 l))) v13 (fun l => v15 (ix2 0 l))) v24 (fun l => v26 (ix2 0 l)) j := by
  refine (Cert.DenseLayer.kernelLayer_apply Cert.KernelIdeal.dot_S2048x128_S128x3_S2048x3_1_0_0_1_n_n rfl _ v24 v26 _ _ y j).trans ?_
  refine congrArg (fun a => denseRow a v24 (fun l => v26 (ix2 0 l)) j) (funext fun c => ?_)
  refine (Cert.DenseLayer.kernelLayer_apply Cert.KernelIdeal.dot_S2048x512_S512x128_S2048x128_1_0_0_1_n_n rfl _ v13 v15 _ _ y c).trans ?_
  refine congrArg (fun a => denseRow a v13 (fun l => v15 (ix2 0 l)) c) (funext fun d => ?_)
  refine (Cert.DenseLayer.kernelLayer_apply Cert.KernelIdeal.dot_S2048x3_S3x512_S2048x512_1_0_0_1_n_n rfl _ v2 v4 _ _ y d).trans ?_
  rw [shapeCast_self]

/-- The reference's input transform at (r, j): one dense layer of row `r` of its input. -/
theorem refInv_apply (x : FVec Ideal Cert.ReferenceIdeal.S2048x64 .f32) (W : FVec Ideal Cert.ReferenceIdeal.S64x128 .f32) (b : FVec Ideal Cert.ReferenceIdeal.S128 .f32) (r : Fin 2048) (j : Fin 128) :
    Cert.RefTerm.refInv x W b (ix2 r j) = denseRow (fun c => x (ix2 r c)) W (fun l => b (ix1 l)) j :=
  Cert.DenseLayer.hostLayer_apply Cert.ReferenceIdeal.dot_S2048x64_S64x128_S2048x128_1_0_0_1_n_n rfl x W b _ _ _ r j

/-- The reference's head at (r, j): three dense layers of row `r` of its input. -/
theorem refHead_apply (h : FVec Ideal Cert.ReferenceIdeal.S262144x3 .f32) (W1 : FVec Ideal Cert.ReferenceIdeal.S3x512 .f32) (b1 : FVec Ideal Cert.ReferenceIdeal.S512 .f32) (W2 : FVec Ideal Cert.ReferenceIdeal.S512x128 .f32) (b2 : FVec Ideal Cert.ReferenceIdeal.S128 .f32) (W3 : FVec Ideal Cert.ReferenceIdeal.S128x3 .f32) (b3 : FVec Ideal Cert.ReferenceIdeal.S3 .f32) (r : Fin 262144) (j : Fin 3) :
    Cert.RefTerm.refHead h W1 b1 W2 b2 W3 b3 (ix2 r j)
      = denseRow (denseRow (denseRow (fun c => h (ix2 r c)) W1 (fun l => b1 (ix1 l))) W2 (fun l => b2 (ix1 l))) W3 (fun l => b3 (ix1 l)) j := by
  refine (Cert.DenseLayer.hostLayer_apply Cert.ReferenceIdeal.dot_S262144x128_S128x3_S262144x3_1_0_0_1_n_n rfl _ W3 b3 _ _ _ r j).trans ?_
  refine congrArg (fun a => denseRow a W3 (fun l => b3 (ix1 l)) j) (funext fun c => ?_)
  refine (Cert.DenseLayer.hostLayer_apply Cert.ReferenceIdeal.dot_S262144x512_S512x128_S262144x128_1_0_0_1_n_n rfl _ W2 b2 _ _ _ r c).trans ?_
  refine congrArg (fun a => denseRow a W2 (fun l => b2 (ix1 l)) c) (funext fun d => ?_)
  exact Cert.DenseLayer.hostLayer_apply Cert.ReferenceIdeal.dot_S262144x3_S3x512_S262144x512_1_0_0_1_n_n rfl h W1 b1 _ _ _ r d

end Cert.Layers

end
-- ==== Proof.lean ====
/-
  The kernel against its reference, over the extended reals.

  Both programs compute `head (graph (inv x))`: a dense layer with the leaky rectifier on the [2048, 64] input, whose
  262144 entries are then per-node scalars; a graph part (in-degrees by a scatter-add over the edge list with
  self-loops, the symmetric normalisation, three rounds of small matrix product, gather, scale, scatter-add, bias);
  and a three-layer dense head on the [262144, 3] node features. The kernel's program runs the first and the last
  stage as two pipelined kernels, one block of rows per grid point (4 blocks of 512 rows, 128 blocks of 2048 rows),
  and the graph part as the same host operations the reference applies. A dense layer acts on each row by itself, so a
  block of rows through the layer is the same rows of the whole array through the layer; a kernel's matrix product into
  a zero accumulator and the host's product are the same sum over the contracted coordinate; nothing else is used of
  real arithmetic, and finiteness of the inputs is not needed. The three frames are the generated frame runs of the two
  kernel programs and the reference's straight-line run; no rewrite was made by the idealization, so `preserves` is
  trivial.
-/
import proofs.«121636_j54065048322436_1_alg».proof.Defs
import proofs.«121636_j54065048322436_1_alg».proof.Proof.Gen.Kernel
import proofs.«121636_j54065048322436_1_alg».proof.Proof.Gen.Kernel.Skeleton
import proofs.«121636_j54065048322436_1_alg».proof.Proof.Gen.Kernel.Launch
import proofs.«121636_j54065048322436_1_alg».proof.Proof.Gen.Kernel.Points
import proofs.«121636_j54065048322436_1_alg».proof.Proof.Gen.Kernel.Frame
import proofs.«121636_j54065048322436_1_alg».proof.Proof.Gen.KernelIdeal
import proofs.«121636_j54065048322436_1_alg».proof.Proof.Gen.KernelIdeal.Skeleton
import proofs.«121636_j54065048322436_1_alg».proof.Proof.Gen.KernelIdeal.Launch
import proofs.«121636_j54065048322436_1_alg».proof.Proof.Gen.KernelIdeal.Points
import proofs.«121636_j54065048322436_1_alg».proof.Proof.Gen.KernelIdeal.Frame
import proofs.«121636_j54065048322436_1_alg».proof.Proof.Gen.ReferenceIdeal
import proofs.«121636_j54065048322436_1_alg».proof.Proof.Gen.Pre_finite_inputs
import proofs.«121636_j54065048322436_1_alg».proof.Proof.KernelRun
import proofs.«121636_j54065048322436_1_alg».proof.Proof.KernelChain
import proofs.«121636_j54065048322436_1_alg».proof.Proof.RefRun
import proofs.«121636_j54065048322436_1_alg».proof.Proof.RefValue
import proofs.«121636_j54065048322436_1_alg».proof.Proof.Layers
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's straight-line run writes no argument. -/
theorem frame_ri : Cert.frame_ReferenceIdeal := fun m ρ _ =>
  (θ_run Cert.ReferenceIdeal.defs _ _).mono (fun r h c =>
    ⟨(h c Cert.ReferenceIdeal.main_arg0).trans (Cert.ReferenceIdeal.Hand.kept_main_arg0 _),
     (h c Cert.ReferenceIdeal.main_arg1).trans (Cert.ReferenceIdeal.Hand.kept_main_arg1 _),
     (h c Cert.ReferenceIdeal.main_arg2).trans (Cert.ReferenceIdeal.Hand.kept_main_arg2 _),
     (h c Cert.ReferenceIdeal.main_arg3).trans (Cert.ReferenceIdeal.Hand.kept_main_arg3 _),
     (h c Cert.ReferenceIdeal.main_arg4).trans (Cert.ReferenceIdeal.Hand.kept_main_arg4 _),
     (h c Cert.ReferenceIdeal.main_arg5).trans (Cert.ReferenceIdeal.Hand.kept_main_arg5 _),
     (h c Cert.ReferenceIdeal.main_arg6).trans (Cert.ReferenceIdeal.Hand.kept_main_arg6 _),
     (h c Cert.ReferenceIdeal.main_arg7).trans (Cert.ReferenceIdeal.Hand.kept_main_arg7 _),
     (h c Cert.ReferenceIdeal.main_arg8).trans (Cert.ReferenceIdeal.Hand.kept_main_arg8 _),
     (h c Cert.ReferenceIdeal.main_arg9).trans (Cert.ReferenceIdeal.Hand.kept_main_arg9 _),
     (h c Cert.ReferenceIdeal.main_arg10).trans (Cert.ReferenceIdeal.Hand.kept_main_arg10 _),
     (h c Cert.ReferenceIdeal.main_arg11).trans (Cert.ReferenceIdeal.Hand.kept_main_arg11 _),
     (h c Cert.ReferenceIdeal.main_arg12).trans (Cert.ReferenceIdeal.Hand.kept_main_arg12 _),
     (h c Cert.ReferenceIdeal.main_arg13).trans (Cert.ReferenceIdeal.Hand.kept_main_arg13 _),
     (h c Cert.ReferenceIdeal.main_arg14).trans (Cert.ReferenceIdeal.Hand.kept_main_arg14 _),
     (h c Cert.ReferenceIdeal.main_arg15).trans (Cert.ReferenceIdeal.Hand.kept_main_arg15 _)⟩)
    (Cert.ReferenceIdeal.Hand.run_fold (F := Ideal) m ρ)

/-- At the ideal values both programs end with the result array at `whole` of the argument arrays (the kernel's by the
    two regions' row-by-row values and the shared graph part, the reference's by its operations composed), and with the
    edge list, which both return, as launched. -/
theorem algebraic : Cert.algebraic_KernelIdeal_ReferenceIdeal := by
  intro m ρ m' ρ' _ hagree
  refine ⟨fun c => Cert.RefTerm.whole (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)),
    fun c => (m ((c.tc : Thread Cert.KernelIdeal.nD Cert.KernelIdeal.τ).loc Cert.KernelIdeal.main_arg1)), ?_, ?_⟩
  · refine (θ_run Cert.KernelIdeal.defs _ _).mono (fun r h c => ?_) (Cert.KernelIdeal.Hand.run_named (F := Ideal) m ρ)
    obtain ⟨hout, h0, h1, h2, h3, h4, h5, h6, h7, h8, h9, h10, h11, h12, h13, h14, h15⟩ := h c
    exact ⟨hout.trans (Cert.KernelIdeal.Hand.result_eq m ρ Cert.Layers.inv_kernel_apply Cert.Layers.head_kernel_apply
        Cert.Layers.refInv_apply Cert.Layers.refHead_apply c), h1, h0, h1, h2, h3, h4, h5, h6, h7, h8, h9, h10, h11, h12, h13, h14, h15⟩
  · refine (θ_run Cert.ReferenceIdeal.defs _ _).mono (fun r h c => ?_) (Cert.ReferenceIdeal.Hand.run_fold (F := Ideal) m' ρ')
    obtain ⟨a0, a1, a2, a3, a4, a5, a6, a7, a8, a9, a10, a11, a12, a13, a14, a15⟩ := hagree c
    refine ⟨(h c Cert.ReferenceIdeal.main_v99).trans ((Cert.ReferenceIdeal.Hand.out_eq _).trans ?_),
      (h c Cert.ReferenceIdeal.main_arg1).trans ((Cert.ReferenceIdeal.Hand.kept_main_arg1 _).trans a1),
      (h c Cert.ReferenceIdeal.main_arg0).trans (Cert.ReferenceIdeal.Hand.kept_main_arg0 _),
      (h c Cert.ReferenceIdeal.main_arg1).trans (Cert.ReferenceIdeal.Hand.kept_main_arg1 _),
      (h c Cert.ReferenceIdeal.main_arg2).trans (Cert.ReferenceIdeal.Hand.kept_main_arg2 _),
      (h c Cert.ReferenceIdeal.main_arg3).trans (Cert.ReferenceIdeal.Hand.kept_main_arg3 _),
      (h c Cert.ReferenceIdeal.main_arg4).trans (Cert.ReferenceIdeal.Hand.kept_main_arg4 _),
      (h c Cert.ReferenceIdeal.main_arg5).trans (Cert.ReferenceIdeal.Hand.kept_main_arg5 _),
      (h c Cert.ReferenceIdeal.main_arg6).trans (Cert.ReferenceIdeal.Hand.kept_main_arg6 _),
      (h c Cert.ReferenceIdeal.main_arg7).trans (Cert.ReferenceIdeal.Hand.kept_main_arg7 _),
      (h c Cert.ReferenceIdeal.main_arg8).trans (Cert.ReferenceIdeal.Hand.kept_main_arg8 _),
      (h c Cert.ReferenceIdeal.main_arg9).trans (Cert.ReferenceIdeal.Hand.kept_main_arg9 _),
      (h c Cert.ReferenceIdeal.main_arg10).trans (Cert.ReferenceIdeal.Hand.kept_main_arg10 _),
      (h c Cert.ReferenceIdeal.main_arg11).trans (Cert.ReferenceIdeal.Hand.kept_main_arg11 _),
      (h c Cert.ReferenceIdeal.main_arg12).trans (Cert.ReferenceIdeal.Hand.kept_main_arg12 _),
      (h c Cert.ReferenceIdeal.main_arg13).trans (Cert.ReferenceIdeal.Hand.kept_main_arg13 _),
      (h c Cert.ReferenceIdeal.main_arg14).trans (Cert.ReferenceIdeal.Hand.kept_main_arg14 _),
      (h c Cert.ReferenceIdeal.main_arg15).trans (Cert.ReferenceIdeal.Hand.kept_main_arg15 _)⟩
    show Cert.RefTerm.whole (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15))
      = Cert.RefTerm.whole (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))
    rw [a0, a1, a2, a3, a4, a5, a6, a7, a8, a9, a10, a11, a12, a13, a14, a15]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
